-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S8x1024x1 : Shape := ⟨3, ![8, 1024, 1]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S8x1024x1 : S_.BroadcastsInDim S8x1024x1 (![] : Fin 0 → Fin S8x1024x1.rank)
  reducesTo_S8x1024x1_S_d0_1_2 : S8x1024x1.ReducesTo [0, 1, 2] S_
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S8x1024x768 .f32) (main_arg1 : FVec F S8x1024x1 .f32) (main_arg2 : FVec F S2304x768 .f32) (main_arg3 : FVec F S768x768 .f32) (main_arg4 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S8x1024x1 .f32 := Host.absf main_arg1
  let main_cst_0 : FVec F S_ .f32 := constant S_ .f32 0x7F800000#32
  let main_v5 : FVec F S8x1024x1 .f32 := broadcastInDim S8x1024x1 ![] bcast_S_S8x1024x1 main_cst_0
  let main_v6 : IVec S8x1024x1 1 := cmpf .olt main_v4 main_v5
  let main_c_1 : IVec S_ 1 := constantI S_ 1 1#1
  let main_v7 : IVec S_ 1 := (fun x v => Host.reduce IntOp.andi x v reducesTo_S8x1024x1_S_d0_1_2 h_S_) main_v6 main_c_1
  let main_v8 : IVec S_ 1 := andi main_v3 main_v7
  let main_v9 : FVec F S2304x768 .f32 := Host.absf main_arg2
  let main_cst_2 : FVec F S_ .f32 := constant S_ .f32 0x7F800000#32
  let main_v10 : FVec F S2304x768 .f32 := broadcastInDim S2304x768 ![] bcast_S_S2304x768 main_cst_2
  let main_v11 : IVec S2304x768 1 := cmpf .olt main_v9 main_v10
  let main_c_3 : IVec S_ 1 := constantI S_ 1 1#1
  let main_v12 : IVec S_ 1 := (fun x v => Host.reduce IntOp.andi x v reducesTo_S2304x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x1024x768 : Shape := ⟨3, ![8, 1024, 768]⟩
abbrev S8x1024x1 : Shape := ⟨3, ![8, 1024, 1]⟩
abbrev S2304x768 : Shape := ⟨2, ![2304, 768]⟩
abbrev S768x768 : Shape := ⟨2, ![768, 768]⟩
abbrev S768 : Shape := ⟨1, ![768]⟩
abbrev S6x128x768 : Shape := ⟨3, ![6, 128, 768]⟩
abbrev S8x1024 : Shape := ⟨2, ![8, 1024]⟩
abbrev S8x1x1024 : Shape := ⟨3, ![8, 1, 1024]⟩
abbrev S1x768 : Shape := ⟨2, ![1, 768]⟩
abbrev S1x1024x768 : Shape := ⟨3, ![1, 1024, 768]⟩
abbrev S1x128x768 : Shape := ⟨3, ![1, 128, 768]⟩
abbrev S1x1x1024 : Shape := ⟨3, ![1, 1, 1024]⟩
abbrev S1024x768 : Shape := ⟨2, ![1024, 768]⟩
abbrev S128x768 : Shape := ⟨2, ![128, 768]⟩
abbrev S1x1024 : Shape := ⟨2, ![1, 1024]⟩
abbrev S1024x128 : Shape := ⟨2, ![1024, 128]⟩
abbrev S1024x64 : Shape := ⟨2, ![1024, 64]⟩
abbrev S256x1024 : Shape := ⟨2, ![256, 1024]⟩
abbrev S1x256x768 : Shape := ⟨3, ![1, 256, 768]⟩
abbrev S256x768 : Shape := ⟨2, ![256, 768]⟩
abbrev S256x128 : Shape := ⟨2, ![256, 128]⟩
abbrev S256x64 : Shape := ⟨2, ![256, 64]⟩
abbrev S256 : Shape := ⟨1, ![256]⟩
abbrev S256x1 : Shape := ⟨2, ![256, 1]⟩

abbrev nBuf : Space → Nat
  | .hbm => 21
  | .vmem => 15
  | .smem => 0
  | _ => 0

abbrev bufTy : (tb : Table) → Fin (tcTables nBuf tb) → BufTy
  | .hbm, ⟨0, _⟩ => ⟨S8x1024x768, .f32⟩
  | .hbm, ⟨1, _⟩ => ⟨S8x1024x1, .f32⟩
  | .hbm, ⟨2, _⟩ => ⟨S2304x768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S6x128x768, .f32⟩
  | .hbm, ⟨7, _⟩ => ⟨S6x128x768, .bf16⟩
  | .hbm, ⟨8, _⟩ => ⟨S768x768, .f32⟩
  | .hbm, ⟨9, _⟩ => ⟨S6x128x768, .f32⟩
  | .hbm, ⟨10, _⟩ => ⟨S6x128x768, .bf16⟩
  | .hbm, ⟨11, _⟩ => ⟨S768x768, .f32⟩
  | .hbm, ⟨12, _⟩ => ⟨S6x128x768, .f32⟩
  | .hbm, ⟨13, _⟩ => ⟨S6x128x768, .bf16⟩
  | .hbm, ⟨14, _⟩ => ⟨S768x768, .f32⟩
  | .hbm, ⟨15, _⟩ => ⟨S768x768, .bf16⟩
  | .hbm, ⟨16, _⟩ => ⟨S8x1024x768, .bf16⟩
  | .hbm, ⟨17, _⟩ => ⟨S8x1024, .f32⟩
  | .hbm, ⟨18, _⟩ => ⟨S8x1x1024, .f32⟩
  | .hbm, ⟨19, _⟩ => ⟨S1x768, .f32⟩
  | .hbm, ⟨20, _⟩ => ⟨S8x1024x768, .f32⟩
  | .local _ .vmem, ⟨0, _⟩ => ⟨S1x1024x768, .bf16⟩
  | .local _ .vmem, ⟨1, _⟩ => ⟨S1x1024x768, .bf16⟩
  | .local _ .vmem, ⟨2, _⟩ => ⟨S1x128x768, .bf16⟩
  | .local _ .vmem, ⟨3, _⟩ => ⟨S1x128x768, .bf16⟩
  | .local _ .vmem, ⟨4, _⟩ => ⟨S1x128x768, .bf16⟩
  | .local _ .vmem, ⟨5, _⟩ => ⟨S1x128x768, .bf16⟩
  | .local _ .vmem, ⟨6, _⟩ => ⟨S1x128x768, .bf16⟩
  | .local _ .vmem, ⟨7, _⟩ => ⟨S1x128x768, .bf16⟩
  | .local _ .vmem, ⟨8, _⟩ => ⟨S768x768, .bf16⟩
  | .local _ .vmem, ⟨9, _⟩ => ⟨S1x1x1024, .f32⟩
  | .local _ .vmem, ⟨10, _⟩ => ⟨S1x1x1024, .f32⟩
  | .local _ .vmem, ⟨11, _⟩ => ⟨S1x768, .f32⟩
  | .local _ .vmem, ⟨12, _⟩ => ⟨S1x1024x768, .f32⟩
  | .local _ .vmem, ⟨13, _⟩ => ⟨S1x1024x768, .f32⟩
  | .local _ .vmem, ⟨14, _⟩ => ⟨S1024x768, .bf16⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 6], ![false, false]⟩

def k0_mult1 (i : grid0.Coords) : BitVec 32 :=
  let arg1 : BitVec 32 := BitVec.ofNat 32 (i 1).val
  let c128_i32 : BitVec 32 := 128#32
  let v19 : BitVec 32 := Scalar.muli arg1 c128_i32
  v19
@[reducible] def k0_t1_loop : Scf.Loop 32 :=
  let c0_i32 : BitVec 32 := 0#32
  let c4_i32 : BitVec 32 := 4#32
  let v21 : BitVec 32 := Scalar.addi c0_i32 c4_i32
  let c1_i32 : BitVec 32 := 1#32
  ⟨c0_i32, v21, c1_i32⟩
def k0_mult2 (k0_t1 : Fin k0_t1_loop.trips) : BitVec 32 :=
  let c0_i32_18 : BitVec 32 := 0#32
  let c0_i32 : BitVec 32 := 0#32
  let c1_i32 : BitVec 32 := 1#32
  let arg11 : BitVec 32 := Scf.iv c0_i32 c1_i32 k0_t1
  let c1_i32_17 : BitVec 32 := 1#32
  let v25 : BitVec 32 := Scalar.muli arg11 c1_i32_17
  let v26 : BitVec 32 := Scalar.addi c0_i32_18 v25
  let c256_i32 : BitVec 32 := 256#32
  let v27 : BitVec 32 := Scalar.muli v26 c256_i32
  v27
def k0_off1 (k0_t1 : Fin k0_t1_loop.trips) : Fin 3 → Nat :=
  let c0_19 : Index := 0#32
  let c0_i32_18 : BitVec 32 := 0#32
  let c0_i32 : BitVec 32 := 0#32
  let c1_i32 : BitVec 32 := 1#32
  let arg11 : BitVec 32 := Scf.iv c0_i32 c1_i32 k0_t1
  let c1_i32_17 : BitVec 32 := 1#32
  let v25 : BitVec 32 := Scalar.muli arg11 c1_i32_17
  let v26 : BitVec 32 := Scalar.addi c0_i32_18 v25
  let c256_i32 : BitVec 32 := 256#32
  let v27 : BitVec 32 := Scalar.muli v26 c256_i32
  let v28 : BitVec 32 := v27
  let v29 : Index := Scalar.indexCast v28
  let c0_20 : Index := 0#32
  ![0, v29.toNat, 0]
def k0_off2 (i : grid0.Coords) (k0_t1 : Fin k0_t1_loop.trips) : Fin 2 → Nat :=
  let c0_i32_18 : BitVec 32 := 0#32
  let c0_i32 : BitVec 32 := 0#32
  let c1_i32 : BitVec 32 := 1#32
  let arg11 : BitVec 32 := Scf.iv c0_i32 c1_i32 k0_t1
  let c1_i32_17 : BitVec 32 := 1#32
  let v25 : BitVec 32 := Scalar.muli arg11 c1_i32_17
  let v26 : BitVec 32 := Scalar.addi c0_i32_18 v25
  let c256_i32 : BitVec 32 := 256#32
  let v27 : BitVec 32 := Scalar.muli v26 c256_i32
  let v28 : BitVec 32 := v27
  let v83 : Index := Scalar.indexCast v28
  let arg1 : BitVec 32 := BitVec.ofNat 32 (i 1).val
  let c128_i32 : BitVec 32 := 128#32
  let v19 : BitVec 32 := Scalar.muli arg1 c128_i32
  let v20 : BitVec 32 := v19
  let v84 : Index := Scalar.indexCast v20
  ![v83.toNat, v84.toNat]
def k0_cond1 (i : grid0.Coords) : BitVec 1 :=
  let arg1 : BitVec 32 := BitVec.ofNat 32 (i 1).val
  let c5_i32 : BitVec 32 := 5#32
  let v22 : BitVec 1 := Scalar.cmpi .eq arg1 c5_i32
  let v23 : BitVec 32 := Scalar.extui v22
  let c0_i32_16 : BitVec 32 := 0#32
  let v24 : BitVec 1 := Scalar.cmpi .ne v23 c0_i32_16
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S2304x768_S768x768_0_0 : S2304x768.Slices ![0, 0] S768x768
  shapeCasts_S768x768_S6x128x768 : S768x768.ShapeCasts S6x128x768
  bitsLt_bf16_f32 : FTy.bits .bf16 < FTy.bits .f32
  slices_S2304x768_S768x768_768_0 : S2304x768.Slices ![768, 0] S768x768
  slices_S2304x768_S768x768_1536_0 : S2304x768.Slices ![1536, 0] S768x768
  transposes_S768x768_S768x768_1_0 : S768x768.Transposes [1, 0] S768x768
  shapeCasts_S8x1024x1_S8x1024 : S8x1024x1.ShapeCasts S8x1024
  shapeCasts_S8x1024_S8x1x1024 : S8x1024.ShapeCasts S8x1x1024
  shapeCasts_S768_S1x768 : S768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  slices_S1024x128_o0_0_S1024x64 : S1024x128.Slices ![0, 0] S1024x64
  slices_S1024x128_o0_64_S1024x64 : S1024x128.Slices ![0, 64] S1024x64
  iota_S256x1024_d1_w32 : S256x1024.Iotas .tc 32 [1]
  h_S1x256x768 : 0 < S1x256x768.numel
  shapeCasts_S1x256x768_S256x768 : S1x256x768.ShapeCasts S256x768
  slices_S256x128_o0_0_S256x64 : S256x128.Slices ![0, 0] S256x64
  slices_S256x128_o0_64_S256x64 : S256x128.Slices ![0, 64] S256x64
  iota_S256x1024_d0_w32 : S256x1024.Iotas .tc 32 [0]
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  concatenates_S256x64_S256x64_S256x128_d1 : Shape.Concatenates [S256x64, S256x64] S256x128 1
  h_S256x128 : 0 < S256x128.numel
  shapeCasts_S256x128_S256x128 : S256x128.ShapeCasts S256x128
  inb_S1024x768_S1024x768_0_0 : ∀ a, (![0, 0] : Fin 2 → Nat) a + S1024x768.size a ≤ S1024x768.size a
  h_S1024x768 : 0 < S1024x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S768 : S1x768.ShapeCasts S768
  shapeCasts_S1x768_S1x768 : S1x768.ShapeCasts S1x768
  broadcasts_S1x768_S1024x768 : S1x768.Broadcasts S1024x768
  shapeCasts_S1024x768_S1x1024x768 : S1024x768.ShapeCasts S1x1024x768
  dot_S1024x768_S128x768_S1024x128_1_1_0_0_n_n_wf : DotDims.WF S1024x768 S128x768 S1024x128 [1] [1] [0] [0] [] []
  dot_S256x768_S128x768_S256x128_1_1_0_0_n_n_wf : DotDims.WF S256x768 S128x768 S256x128 [1] [1] [0] [0] [] []
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  dot_S1024x768_S768x768_S1024x768_1_0_0_1_n_n_wf : DotDims.WF S1024x768 S768x768 S1024x768 [1] [0] [0] [1] [] []
  hrank0 : 0 < grid0.rank
  k0_mult1_dvd : ∀ i : grid0.Coords, 128 ∣ (k0_mult1 i).toNat
  k0_t1_ok : k0_t1_loop.OK
  k0_mult2_dvd : ∀ k0_t1 : Fin k0_t1_loop.trips, 256 ∣ (k0_mult2 k0_t1).toNat
  k0_off1_inb : ∀ k0_t1 : Fin k0_t1_loop.trips, ∀ a, (k0_off1 k0_t1) a + S1x256x768.size a ≤ S1x1024x768.size a
  k0_off2_inb : ∀ (i : grid0.Coords) (k0_t1 : Fin k0_t1_loop.trips), ∀ a, (k0_off2 i k0_t1) a + S256x128.size a ≤ S1024x768.size a
  k0_off2_packedbf16 : ∀ (i : grid0.Coords) (k0_t1 : Fin k0_t1_loop.trips), (Rect.unit (s := S1024x768) (k0_off2 i k0_t1) S256x128.size (k0_off2_inb i k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .bf16 = 32 ∨ (Rect.block (s := S8x1024x768) S1x1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x768.size a ≤ S6x128x768.size a
  hwx0_1 : ∀ i : grid0.Coords, EltTy.bits .bf16 = 32 ∨ (Rect.block (s := S6x128x768) S1x128x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x768.size a ≤ S6x128x768.size a
  hwx0_2 : ∀ i : grid0.Coords, EltTy.bits .bf16 = 32 ∨ (Rect.block (s := S6x128x768) S1x128x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x768.size a ≤ S6x128x768.size a
  hwx0_3 : ∀ i : grid0.Coords, EltTy.bits .bf16 = 32 ∨ (Rect.block (s := S6x128x768) S1x128x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x768.size a ≤ S8x1024x768.size a
  hwx0_7 : ∀ i : grid0.Coords, EltTy.bits .f32 = 32 ∨ (Rect.block (s := S8x1024x768) S1x1024x768.size (cc0_transform_7 i) (hinb0_7 i)).WholeWords (EltTy.packing .f32)

variable [Facts₀]

def dot_S1024x768_S128x768_S1024x128_1_1_0_0_n_n : DotDims S1024x768 S128x768 S1024x128 where
  lhsContracting := [1]
  rhsContracting := [1]
  lhsNonContracting := [0]
  rhsNonContracting := [0]
  lhsBatch := []
  rhsBatch := []
  wf := dot_S1024x768_S128x768_S1024x128_1_1_0_0_n_n_wf
def dot_S256x768_S128x768_S256x128_1_1_0_0_n_n : DotDims S256x768 S128x768 S256x128 where
  lhsContracting := [1]
  rhsContracting := [1]
  lhsNonContracting := [0]
  rhsNonContracting := [0]
  lhsBatch := []
  rhsBatch := []
  wf := dot_S256x768_S128x768_S256x128_1_1_0_0_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v11) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) | ⟨_ + 8, h⟩ => absurd h (Nat.not_lt.2 (Nat.le_add_left _ _))

class Facts : Prop extends Facts₀ where

variable [Facts]
-- ==== ReferenceIdeal.lean ====
abbrev S8x1024x768 : Shape := ⟨3, ![8, 1024, 768]⟩
abbrev S8x1024x1 : Shape := ⟨3, ![8, 1024, 1]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S_ : Shape := ⟨0, ![]⟩
abbrev S8x12x1024x1024 : Shape := ⟨4, ![8, 12, 1024, 1024]⟩
abbrev S8x1x1x1024 : Shape := ⟨4, ![8, 1, 1, 1024]⟩
abbrev S1024x1024 : Shape := ⟨2, ![1024, 1024]⟩
abbrev S1x1x1024x1024 : Shape := ⟨4, ![1, 1, 1024, 1024]⟩
abbrev S8x1x1024x1024 : Shape := ⟨4, ![8, 1, 1024, 1024]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8x1024x1, .f32⟩
  | .hbm, ⟨2, _⟩ => ⟨S2304x768, .f32⟩
  | .hbm, ⟨3, _⟩ => ⟨S768x768, .f32⟩
  | .hbm, ⟨4, _⟩ => ⟨S768, .f32⟩
  | .hbm, ⟨5, _⟩ => ⟨S8x1024x2304, .f32⟩
  | .hbm, ⟨6, _⟩ => ⟨S8x1024x3x12x64, .f32⟩
  | .hbm, ⟨7, _⟩ => ⟨S3x8x12x1024x64, .f32⟩
  | .hbm, ⟨8, _⟩ => ⟨S1x8x12x1024x64, .f32⟩
  | .hbm, ⟨9, _⟩ => ⟨S8x12x1024x64, .f32⟩
  | .hbm, ⟨10, _⟩ => ⟨S_, .f32⟩
  | .hbm, ⟨11, _⟩ => ⟨S8x12x1024x64, .f32⟩
  | .hbm, ⟨12, _⟩ => ⟨S8x12x1024x64, .f32⟩
  | .hbm, ⟨13, _⟩ => ⟨S1x8x12x1024x64, .f32⟩
  | .hbm, ⟨14, _⟩ => ⟨S8x12x1024x64, .f32⟩
  | .hbm, ⟨15, _⟩ => ⟨S1x8x12x1024x64, .f32⟩
  | .hbm, ⟨16, _⟩ => ⟨S8x12x1024x64, .f32⟩
  | .hbm, ⟨17, _⟩ => ⟨S8x12x1024x1024, .f32⟩
  | .hbm, ⟨18, _⟩ => ⟨S8x1x1x1024, .f32⟩
  | .hbm, ⟨19, _⟩ => ⟨S1024x1024, .i32⟩
  | .hbm, ⟨20, _⟩ => ⟨S1024x1024, .i32⟩
  | .hbm, ⟨21, _⟩ => ⟨S_, .i32⟩
  | .hbm, ⟨22, _⟩ => ⟨S1024x1024, .i32⟩
  | .hbm, ⟨23, _⟩ => ⟨S1024x1024, .i32⟩
  | .hbm, ⟨24, _⟩ => ⟨S1024x1024, .i1⟩
  | .hbm, ⟨25, _⟩ => ⟨S1024x1024, .f32⟩
  | .hbm, ⟨26, _⟩ => ⟨S1x1x1024x1024, .f32⟩
  | .hbm, ⟨27, _⟩ => ⟨S_, .f32⟩
  | .hbm, ⟨28, _⟩ => ⟨S8x1x1x1024, .f32⟩
  | .hbm, ⟨29, _⟩ => ⟨S8x1x1x1024, .f32⟩
  | .hbm, ⟨30, _⟩ => ⟨S8x1x1024x1024, .f32⟩
  | .hbm, ⟨31, _⟩ => ⟨S8x1x1024x1024, .f32⟩
  | .hbm, ⟨32, _⟩ => ⟨S8x1x1024x1024, .f32⟩
  | .hbm, ⟨33, _⟩ => ⟨S8x1x1024x1024, .f32⟩
  | .hbm, ⟨34, _⟩ => ⟨S8x1x1024x1024, .f32⟩
  | .hbm, ⟨35, _⟩ => ⟨S_, .f32⟩
  | .hbm, ⟨36, _⟩ => ⟨S8x12x1024, .f32⟩
  | .hbm, ⟨37, _⟩ => ⟨S8x12x1024x1, .f32⟩
  | .hbm, ⟨38, _⟩ => ⟨S8x12x1024x1024, .f32⟩
  | .hbm, ⟨39, _⟩ => ⟨S8x12x1024x1024, .f32⟩
  | .hbm, ⟨40, _⟩ => ⟨S8x12x1024x1024, .f32⟩
  | .hbm, ⟨41, _⟩ => ⟨S8x12x1024x1024, .f32⟩
  | .hbm, ⟨42, _⟩ => ⟨S8x12x1024x1024, .f32⟩
  | .hbm, ⟨43, _⟩ => ⟨S_, .f32⟩
  | .hbm, ⟨44, _⟩ => ⟨S8x12x1024x1024, .f32⟩
  | .hbm, ⟨45, _⟩ => ⟨S8x12x1024x1024, .f32⟩
  | .hbm, ⟨46, _⟩ => ⟨S_, .f32⟩
  | .hbm, ⟨47, _⟩ => ⟨S8x12x1024, .f32⟩
  | .hbm, ⟨48, _⟩ => ⟨S8x12x1024x1, .f32⟩
  | .hbm, ⟨49, _⟩ => ⟨S_, .f32⟩
  | .hbm, ⟨50, _⟩ => ⟨S8x12x1024x1, .f32⟩
  | .hbm, ⟨51, _⟩ => ⟨S8x12x1024x1, .f32⟩
  | .hbm, ⟨52, _⟩ => ⟨S8x12x1024x1024, .f32⟩
  | .hbm, ⟨53, _⟩ => ⟨S8x12x1024x1024, .f32⟩
  | .hbm, ⟨54, _⟩ => ⟨S8x12x1024x64, .f32⟩
  | .hbm, ⟨55, _⟩ => ⟨S8x1024x12x64, .f32⟩
  | .hbm, ⟨56, _⟩ => ⟨S8x1024x768, .f32⟩
  | .hbm, ⟨57, _⟩ => ⟨S8x1024x768, .f32⟩
  | .hbm, ⟨58, _⟩ => ⟨S1x1x768, .f32⟩
  | .hbm, ⟨59, _⟩ => ⟨S8x1024x768, .f32⟩
  | .hbm, ⟨60, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  bcast_S_S8x12x1024x64 : S_.BroadcastsInDim S8x12x1024x64 (![] : Fin 0 → Fin S8x12x1024x64.rank)
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  shapeCasts_S8x1024x1_S8x1x1x1024 : S8x1024x1.ShapeCasts S8x1x1x1024
  bcast_S_S1024x1024 : S_.BroadcastsInDim S1024x1024 (![] : Fin 0 → Fin S1024x1024.rank)
  shapeCasts_S1024x1024_S1x1x1024x1024 : S1024x1024.ShapeCasts S1x1x1024x1024
  bcast_S_S8x1x1x1024 : S_.BroadcastsInDim S8x1x1x1024 (![] : Fin 0 → Fin S8x1x1x1024.rank)
  bcast_S8x1x1x1024_S8x1x1024x1024_0_1_2_3 : S8x1x1x1024.BroadcastsInDim S8x1x1024x1024 (![0, 1, 2, 3] : Fin 4 → Fin S8x1x1024x1024.rank)
  bcast_S1x1x1024x1024_S8x1x1024x1024_0_1_2_3 : S1x1x1024x1024.BroadcastsInDim S8x1x1024x1024 (![0, 1, 2, 3] : Fin 4 → Fin S8x1x1024x1024.rank)
  reducesTo_S8x12x1024x1024_S8x12x1024_d3 : S8x12x1024x1024.ReducesTo [3] S8x12x1024
  h_S_ : 0 < S_.numel
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  bcast_S8x1x1024x1024_S8x12x1024x1024_0_1_2_3 : S8x1x1024x1024.BroadcastsInDim S8x12x1024x1024 (![0, 1, 2, 3] : Fin 4 → Fin S8x12x1024x1024.rank)
  bcast_S_S8x12x1024x1024 : S_.BroadcastsInDim S8x12x1024x1024 (![] : Fin 0 → Fin S8x12x1024x1024.rank)
  bcast_S_S8x12x1024x1 : S_.BroadcastsInDim S8x12x1024x1 (![] : Fin 0 → Fin S8x12x1024x1.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.Kernel.RunRest.lean ====
import proofs.«154074_j30880814859134_2_alg».proof.Proof.Gen.Kernel.Launch
import proofs.«154074_j30880814859134_2_alg».proof.Proof.Gen.Kernel.Skeleton
import proofs.«154074_j30880814859134_2_alg».proof.Proof.Gen.Kernel.Loops
import proofs.«154074_j30880814859134_2_alg».proof.Proof.Gen.Kernel.Points
import proofs.«154074_j30880814859134_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body reads and what the loop leaves, as terms of the buffers' contents -/

/-- A whole rank-3 block as the body loads it from a whole memref holding `x`. -/
abbrev ld3 {S : Shape} {e : EltTy} (a : Memref sig .tc .vmem S e) (ha : a.IsWhole) (z : Fin S.rank → Nat) (hz : ∀ d, z d + S.size d ≤ S.size d)
    (x : S.Idx → Elt F e) : (Rect.unit (s := S) z S.size hz).shape.Idx → Elt F e :=
  View.readAt (Elt F) a.view (Rect.unit (s := S) z S.size hz).toLoadRect (ha.unread x)

/-- The column-index plane the mask compares against. -/
abbrev colIota : IVec S256x1024 32 := iota .tc S256x1024 32 [1] iota_S256x1024_d1_w32

/-- The scratch after the loop's four trips: each trip's block written over what the scratch held (`xs`), the
    inputs' blocks read from their staging buffers. -/
abbrev scratchAfter (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) : BufTy.Contents (Elt F) arg10.view.ty :=
  arg10.view.writes (Elt F) (harg10.unread xs)
    (pb_k0_t1 (F := F) Variants.none c none i arg2 harg2 arg3 harg3 arg4 harg4 arg5 harg5 arg6 harg6 arg7 harg7 arg8 harg8 arg9 harg9 arg10 harg10
      (ld3 arg2 harg2 ![0, 0, 0] inb_S1x1024x768_S1x1024x768_0_0_0 x0)
      (ld3 arg3 harg3 ![0, 0, 0] inb_S1x128x768_S1x128x768_0_0_0 x1)
      (ld3 arg4 harg4 ![0, 0, 0] inb_S1x128x768_S1x128x768_0_0_0 x2)
      (ld3 arg5 harg5 ![0, 0, 0] inb_S1x128x768_S1x128x768_0_0_0 x3)
      (ld3 arg7 harg7 ![0, 0, 0] inb_S1x1x1024_S1x1x1024_0_0_0 x5)
      colIota (harg2.unread x0) (Scf.trips k0_t1_loop.lb k0_t1_loop.ub k0_t1_loop.st))

/-- What the body holds: the seven input buffers at their blocks, the output buffer and the scratch at given contents. -/
abbrev held (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

set_option maxHeartbeats 1000000 in
/-- Away from the last head pair the body only runs the loop: the inputs and the output buffer come back as they were,
    the scratch with the four trips' blocks written into it. -/
theorem run_rest (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (hc0 : ¬ (k0_cond1 i = 1#1)) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) :
      ∀ (E : Set ℕ) (K : PUnit → sProp 𝕄),
        iprop(held c i arg2 harg2 arg3 harg3 arg4 harg4 arg5 harg5 arg6 harg6 arg7 harg7 arg8 harg8 arg9 harg9 arg10 harg10 x0 x1 x2 x3 x4 x5 x6 x7 xs ∗ owns (c : Thread nD τ) arg9 fullShare x7 ∗ owns (c : Thread nD τ) arg10 fullShare xs
            ∗ (iprop(held c i arg2 harg2 arg3 harg3 arg4 harg4 arg5 harg5 arg6 harg6 arg7 harg7 arg8 harg8 arg9 harg9 arg10 harg10 x0 x1 x2 x3 x4 x5 x6 x7 xs ∗ owns (c : Thread nD τ) arg9 fullShare x7
                ∗ (View.loc (c : Thread nD τ) arg10.view ↦[arg10.view.set]{fullShare} scratchAfter c i arg2 harg2 arg3 harg3 arg4 harg4 arg5 harg5 arg6 harg6 arg7 harg7 arg8 harg8 arg9 harg9 arg10 harg10 x0 x1 x2 x3 x4 x5 x6 x7 xs)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K := by
    intro E K
    simp only [cc0__attn_kernel_eq_skeleton]; unfold cc0__attn_kernel_skel
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]
    · iexists _; isplitr; · ipureintro; exact hf7
      iexact H7
    iexact HS0

end Cert.Kernel.Body

end
-- ==== Proof.Kernel.RunProject.lean ====
import proofs.«154074_j30880814859134_2_alg».proof.Proof.Kernel.RunRest
import Idealize.ShloMosaic.Lib.Pipeline.Value
import Idealize.ShloMosaic.Lib.Writes

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole block, read back, is its payload, whatever the buffer held. -/
theorem read_writes_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; funext y
  have e := View.read_writes_cons_emb (Val := Val) v f (Rect.whole S) w [] y
  rw [Rect.emb_whole_apply] at e
  exact e

/-- The output block the last head pair's point stores: the projection of the whole scratch after the loop. -/
abbrev projected (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) : S1x1024x768.Idx → Elt F .f32 :=
  k0_pay10
    (View.readAt (Elt F) arg10.view (Rect.unit (s := S1024x768) ![0, 0] S1024x768.size inb_S1024x768_S1024x768_0_0).toLoadRect
      (scratchAfter c i arg2 harg2 arg3 harg3 arg4 harg4 arg5 harg5 arg6 harg6 arg7 harg7 arg8 harg8 arg9 harg9 arg10 harg10 x0 x1 x2 x3 x4 x5 x6 x7 xs))
    (View.readAt (Elt F) arg6.view (Rect.unit (s := S768x768) ![0, 0] S768x768.size inb_S768x768_S768x768_0_0).toLoadRect (harg6.unread x4))
    (View.readAt (Elt F) arg8.view (Rect.unit (s := S1x768) ![0, 0] S1x768.size inb_S1x768_S1x768_0_0).toLoadRect (harg8.unread x6))

set_option maxHeartbeats 1000000 in
/-- At the last head pair the body runs the loop and then projects: the inputs come back as they were, the scratch with
    the four trips' blocks written into it, the output buffer at the projection of that scratch. -/
theorem run_project (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (hc0 : k0_cond1 i = 1#1) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) :
      ∀ (E : Set ℕ) (K : PUnit → sProp 𝕄),
        iprop(held c i arg2 harg2 arg3 harg3 arg4 harg4 arg5 harg5 arg6 harg6 arg7 harg7 arg8 harg8 arg9 harg9 arg10 harg10 x0 x1 x2 x3 x4 x5 x6 x7 xs ∗ owns (c : Thread nD τ) arg9 fullShare x7 ∗ owns (c : Thread nD τ) arg10 fullShare xs
            ∗ (iprop(held c i arg2 harg2 arg3 harg3 arg4 harg4 arg5 harg5 arg6 harg6 arg7 harg7 arg8 harg8 arg9 harg9 arg10 harg10 x0 x1 x2 x3 x4 x5 x6 x7 xs
                ∗ owns (c : Thread nD τ) arg9 fullShare (projected c i arg2 harg2 arg3 harg3 arg4 harg4 arg5 harg5 arg6 harg6 arg7 harg7 arg8 harg8 arg9 harg9 arg10 harg10 x0 x1 x2 x3 x4 x5 x6 x7 xs)
                ∗ (View.loc (c : Thread nD τ) arg10.view ↦[arg10.view.set]{fullShare} scratchAfter c i arg2 harg2 arg3 harg3 arg4 harg4 arg5 harg5 arg6 harg6 arg7 harg7 arg8 harg8 arg9 harg9 arg10 harg10 x0 x1 x2 x3 x4 x5 x6 x7 xs)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K := by
    intro E K
    simp only [cc0__attn_kernel_eq_skeleton]; unfold cc0__attn_kernel_skel
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]
    · iexists _; isplitr; swap; · iexact H7
      ipureintro
      exact read_writes_whole arg9.view f7 (funext fun a => by fin_cases a <;> rfl) inb_S1x1024x768_S1x1024x768_0_0_0 _
    iexact HS0

end Cert.Kernel.Body

end
-- ==== Proof.Kernel.Scratch.lean ====
import proofs.«154074_j30880814859134_2_alg».proof.Proof.Kernel.RunProject
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## The loop's four trips: where each writes, and what -/

/-- The loop runs four trips. -/
theorem trips_eq : k0_t1_loop.trips = 4 := by decide +kernel

/-- Trip `k` at head pair `i 1` writes the 256 x 128 block at row 256 k, column 128 (i 1). -/
theorem off2_eq : ∀ (i : grid0.Coords) (k : Fin k0_t1_loop.trips), k0_off2 i k = ![256 * k.val, 128 * (i 1).val] := by
  decide +kernel

/-- The block trip `k` computes from the loaded input blocks and its 256 query rows `xq`: both heads' attention
    outputs side by side. -/
abbrev tripBlock (v0 : Vec F S1x1024x768 .bf16) (v2 : Vec F S1x128x768 .bf16) (v4 : Vec F S1x128x768 .bf16) (v6 : Vec F S1x128x768 .bf16) (v8 : Vec F S1x1x1024 .f32) (v18 : IVec S256x1024 32) (xq : Vec F S1x256x768 .bf16) (k : Fin k0_t1_loop.trips) : S256x128.Idx → Elt F .bf16 :=
  k0_pay9 v0 v6 (k0_pay12 (k0_pay3 v8) v18 (0#32) (1#32) k)
    (k0_pay13 (k0_pay2 v2) (k0_pay3 v8) (k0_pay6 v0 v4) (k0_pay8 v0 v6) v18 (0#32) (1#32) k xq)
    (k0_pay14 (k0_pay2 v2) (k0_pay7 v0 v4) xq) (k0_pay15 (k0_pay2 v2) (k0_pay7 v0 v4) xq)

/-- Trip `k`'s 256 query rows, read from the activations' staging buffer at contents `X`. -/
abbrev queryRows (arg2 : Memref sig .tc .vmem S1x1024x768 .bf16) (X : BufTy.Contents (Elt F) arg2.view.ty) (k : Fin k0_t1_loop.trips) :
    Vec F S1x256x768 .bf16 :=
  View.readAt (Elt F) arg2.view (Rect.unit (s := S1x1024x768) (k0_off1 k) S1x256x768.size (k0_off1_inb k)).toLoadRect X

/-- The one store of trip `k`: its block through its rectangle. -/
abbrev tripPiece (i : grid0.Coords) (arg2 : Memref sig .tc .vmem S1x1024x768 .bf16) (v0 : Vec F S1x1024x768 .bf16) (v2 : Vec F S1x128x768 .bf16) (v4 : Vec F S1x128x768 .bf16) (v6 : Vec F S1x128x768 .bf16) (v8 : Vec F S1x1x1024 .f32) (v18 : IVec S256x1024 32)
    (X : BufTy.Contents (Elt F) arg2.view.ty) (k : Fin k0_t1_loop.trips) : View.Piece (Elt F) S1024x768 .bf16 :=
  ⟨Rect.unit (s := S1024x768) (k0_off2 i k) S256x128.size (k0_off2_inb i k), tripBlock v0 v2 v4 v6 v8 v18 (queryRows arg2 X k) k⟩

theorem tripL_eq (𝒱 : Variants) (c : Dev nD) (bd : Option 𝒱.V) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (v0 : Vec F S1x1024x768 .bf16) (v2 : Vec F S1x128x768 .bf16) (v4 : Vec F S1x128x768 .bf16) (v6 : Vec F S1x128x768 .bf16) (v8 : Vec F S1x1x1024 .f32) (v18 : IVec S256x1024 32)
    (X : BufTy.Contents (Elt F) arg2.view.ty) (k : Fin k0_t1_loop.trips) :
    tripL_k0_t1 (F := F) 𝒱 c bd i arg2 harg2 arg3 harg3 arg4 harg4 arg5 harg5 arg6 harg6 arg7 harg7 arg8 harg8 arg9 harg9 arg10 harg10 v0 v2 v4 v6 v8 v18 X k = [tripPiece i arg2 v0 v2 v4 v6 v8 v18 X k] := by
  unfold tripL_k0_t1 trip_k0_t1
  dsimp only
  unfold trip_k0_t1.sl.r trip_k0_t1.sl.r_1 trip_k0_t1.sl.r_2 trip_k0_t1.sl.r_3
  rfl

/-- After `n` trips the stores made are exactly those of the trips below `n`. -/
theorem mem_pb (𝒱 : Variants) (c : Dev nD) (bd : Option 𝒱.V) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (v0 : Vec F S1x1024x768 .bf16) (v2 : Vec F S1x128x768 .bf16) (v4 : Vec F S1x128x768 .bf16) (v6 : Vec F S1x128x768 .bf16) (v8 : Vec F S1x1x1024 .f32) (v18 : IVec S256x1024 32)
    (X : BufTy.Contents (Elt F) arg2.view.ty) :
    ∀ (n : ℕ), n ≤ k0_t1_loop.trips → ∀ p, p ∈ pb_k0_t1 (F := F) 𝒱 c bd i arg2 harg2 arg3 harg3 arg4 harg4 arg5 harg5 arg6 harg6 arg7 harg7 arg8 harg8 arg9 harg9 arg10 harg10 v0 v2 v4 v6 v8 v18 X n
      ↔ ∃ k : Fin k0_t1_loop.trips, k.val < n ∧ p = tripPiece i arg2 v0 v2 v4 v6 v8 v18 X k
  | 0, _, p => by
    rw [pb_k0_t1.eq_1]
    constructor
    · intro h; exact absurd h List.not_mem_nil
    · rintro ⟨k, hk, _⟩; exact absurd hk (Nat.not_lt_zero _)
  | n + 1, hn, p => by
    have h : n < k0_t1_loop.trips := hn
    have e : pb_k0_t1 (F := F) 𝒱 c bd i arg2 harg2 arg3 harg3 arg4 harg4 arg5 harg5 arg6 harg6 arg7 harg7 arg8 harg8 arg9 harg9 arg10 harg10 v0 v2 v4 v6 v8 v18 X (n + 1)
        = tripL_k0_t1 (F := F) 𝒱 c bd i arg2 harg2 arg3 harg3 arg4 harg4 arg5 harg5 arg6 harg6 arg7 harg7 arg8 harg8 arg9 harg9 arg10 harg10 v0 v2 v4 v6 v8 v18 X ⟨n, h⟩
          ++ pb_k0_t1 (F := F) 𝒱 c bd i arg2 harg2 arg3 harg3 arg4 harg4 arg5 harg5 arg6 harg6 arg7 harg7 arg8 harg8 arg9 harg9 arg10 harg10 v0 v2 v4 v6 v8 v18 X n :=
      pb_k0_t1_succ (F := F) 𝒱 c bd i arg2 harg2 arg3 harg3 arg4 harg4 arg5 harg5 arg6 harg6 arg7 harg7 arg8 harg8 arg9 harg9 arg10 harg10 v0 v2 v4 v6 v8 v18 X ⟨n, h⟩
    rw [e, List.mem_append, tripL_eq, List.mem_singleton, mem_pb 𝒱 c bd i arg2 harg2 arg3 harg3 arg4 harg4 arg5 harg5 arg6 harg6 arg7 harg7 arg8 harg8 arg9 harg9 arg10 harg10 v0 v2 v4 v6 v8 v18 X n (Nat.le_of_lt h) p]
    constructor
    · rintro (rfl | ⟨k, hk, rfl⟩)
      · exact ⟨⟨n, h⟩, Nat.lt_succ_self n, rfl⟩
      · exact ⟨k, Nat.lt_succ_of_lt hk, rfl⟩
    · rintro ⟨k, hk, rfl⟩
      rcases Nat.lt_succ_iff_lt_or_eq.mp hk with hk' | hk'
      · exact Or.inr ⟨k, hk', rfl⟩
      · left
        have : k = ⟨n, h⟩ := Fin.ext hk'
        rw [this]

/-! ## What the scratch reads as after the loop -/

section Read

/-- Inside the current head pair's 128 columns the scratch reads the block of the trip its row belongs to. -/
abbrev bandBlock (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg7 : Memref sig .tc .vmem S1x1x1024 .f32) (harg7 : arg7.IsWhole) (x0 : Vec F S1x1024x768 .bf16) (x1 : Vec F S1x128x768 .bf16) (x2 : Vec F S1x128x768 .bf16) (x3 : Vec F S1x128x768 .bf16) (x5 : Vec F S1x1x1024 .f32) (y : S1024x768.Idx) : Elt F .bf16 :=
  tripBlock (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota
    (queryRows arg2 (harg2.unread x0) ⟨(y 0).val / 256, by rw [trips_eq]; have := (y 0).isLt; show (y 0).val / 256 < 4; have h : (y 0).val < 1024 := (y 0).isLt; omega⟩)
    ⟨(y 0).val / 256, by rw [trips_eq]; have h : (y 0).val < 1024 := (y 0).isLt; omega⟩
    (ix2 (⟨(y 0).val % 256, Nat.mod_lt _ (by decide)⟩ : Fin 256) (⟨(y 1).val % 128, Nat.mod_lt _ (by decide)⟩ : Fin 128))

theorem read_scratchAfter_out (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) (y : S1024x768.Idx) (hy : ¬ (128 * (i 1).val ≤ (y 1).val ∧ (y 1).val < 128 * (i 1).val + 128)) :
    arg10.view.read (Elt F) (scratchAfter c i arg2 harg2 arg3 harg3 arg4 harg4 arg5 harg5 arg6 harg6 arg7 harg7 arg8 harg8 arg9 harg9 arg10 harg10 x0 x1 x2 x3 x4 x5 x6 x7 xs) y = xs y := by
  unfold scratchAfter
  rw [View.read_writes_apply_of_forall_not_mem, harg10.read_unread]
  intro p hp
  obtain ⟨k, _, rfl⟩ := (mem_pb Variants.none c none i arg2 harg2 arg3 harg3 arg4 harg4 arg5 harg5 arg6 harg6 arg7 harg7 arg8 harg8 arg9 harg9 arg10 harg10 _ _ _ _ _ _ _ _ le_rfl p).mp hp
  intro hmem
  have hmem' : y ∈ (Rect.unit (s := S1024x768) (k0_off2 i k) S256x128.size (k0_off2_inb i k)).set := hmem
  have h1 := (Rect.mem_set_unit.mp hmem') (1 : Fin 2)
  rw [off2_eq] at h1
  exact hy ⟨h1.1, h1.2⟩

theorem read_scratchAfter_in (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) (y : S1024x768.Idx) (hy : 128 * (i 1).val ≤ (y 1).val ∧ (y 1).val < 128 * (i 1).val + 128) :
    arg10.view.read (Elt F) (scratchAfter c i arg2 harg2 arg3 harg3 arg4 harg4 arg5 harg5 arg6 harg6 arg7 harg7 arg8 harg8 arg9 harg9 arg10 harg10 x0 x1 x2 x3 x4 x5 x6 x7 xs) y
      = bandBlock arg2 harg2 arg3 harg3 arg4 harg4 arg5 harg5 arg7 harg7 x0 x1 x2 x3 x5 y := by
  unfold scratchAfter
  have hy0 : (y 0).val < 1024 := (y 0).isLt
  refine View.read_writes_apply_of_pieces _ _ (bandBlock arg2 harg2 arg3 harg3 arg4 harg4 arg5 harg5 arg7 harg7 x0 x1 x2 x3 x5) _ ?_ y ?_
  · intro p hp x
    obtain ⟨k, _, rfl⟩ := (mem_pb Variants.none c none i arg2 harg2 arg3 harg3 arg4 harg4 arg5 harg5 arg6 harg6 arg7 harg7 arg8 harg8 arg9 harg9 arg10 harg10 _ _ _ _ _ _ _ _ le_rfl p).mp hp
    have hk : k.val < 4 := lt_of_lt_of_eq k.isLt trips_eq
    have hx0 : (x 0).val < 256 := (x 0).isLt
    have hx1 : (x 1).val < 128 := (x 1).isLt
    have e0 : ((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 0 : ℕ) = 256 * k.val + (x 0).val := by
      rw [Rect.emb_apply]; show k0_off2 i k 0 + 1 * (x 0).val = _; rw [off2_eq]; simp
    have e1 : ((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 1 : ℕ) = 128 * (i 1).val + (x 1).val := by
      rw [Rect.emb_apply]; show k0_off2 i k 1 + 1 * (x 1).val = _; rw [off2_eq]; simp
    have hkk : (⟨((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 0).val / 256, by rw [trips_eq, e0]; omega⟩ : Fin k0_t1_loop.trips) = k :=
      Fin.ext (by show _ / 256 = k.val; rw [e0]; omega)
    have hxx : (ix2 (⟨((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 0).val % 256, Nat.mod_lt _ (by decide)⟩ : Fin 256)
        (⟨((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 1).val % 128, Nat.mod_lt _ (by decide)⟩ : Fin 128) : S256x128.Idx) = x := by
      funext a; apply Fin.ext
      match a with
      | ⟨0, _⟩ => show _ % 256 = (x 0).val; rw [e0]; omega
      | ⟨1, _⟩ => show _ % 128 = (x 1).val; rw [e1]; omega
    show tripBlock _ _ _ _ _ _ _ k x = tripBlock _ _ _ _ _ _ _ _ _
    rw [hkk, hxx]
  · refine ⟨tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) ⟨(y 0).val / 256, by rw [trips_eq]; omega⟩, ?_, ?_⟩
    · exact (mem_pb Variants.none c none i arg2 harg2 arg3 harg3 arg4 harg4 arg5 harg5 arg6 harg6 arg7 harg7 arg8 harg8 arg9 harg9 arg10 harg10 _ _ _ _ _ _ _ _ le_rfl _).mpr ⟨_, by show (y 0).val / 256 < k0_t1_loop.trips; rw [trips_eq]; omega, rfl⟩
    · show y ∈ (Rect.unit (s := S1024x768) (k0_off2 i _) S256x128.size (k0_off2_inb i _)).set
      refine Rect.mem_set_unit.mpr fun a => ?_
      rw [off2_eq]
      match a with
      | ⟨0, _⟩ => exact ⟨by show 256 * ((y 0).val / 256) ≤ (y 0).val; omega, by show (y 0).val < 256 * ((y 0).val / 256) + 256; omega⟩
      | ⟨1, _⟩ => exact ⟨hy.1, hy.2⟩

end Read

end Cert.Kernel.Body

end
-- ==== Proof.Kernel.Track.lean ====
import proofs.«154074_j30880814859134_2_alg».proof.Proof.Kernel.Scratch

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the scratch -/

abbrev ms0_0 (t : Fin cfg0.N) : Memref sig .tc .vmem S1x1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x768 .f32 := win0_7.stage (cfg0.slots t 7)
abbrev hs0_7 (t : Fin cfg0.N) : (ms0_7 t).IsWhole := hstage0_7 ((cfg0.slots t 7).cast nbuf0_7)
/-- The scratch the heads' outputs are gathered in: a whole buffer of the kernel's own. -/
abbrev scM : Memref sig .tc .vmem S1024x768 .bf16 := Memref.whole cc0_scratch0
abbrev hscM : (scM).IsWhole := Memref.isWhole_whole _

/-- What the pipeline lends the body beside the windows: the scratch at some contents, and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The grid: point t is batch t / 6, head pair t % 6 -/

theorem hcond : ∀ t : Fin cfg0.N, k0_cond1 (grid0.coords t) = 1#1 ↔ t.val % 6 = 5 :=
  (by decide +kernel : ∀ t : Fin grid0.N, k0_cond1 (grid0.coords t) = 1#1 ↔ t.val % 6 = 5)
theorem coord1 : ∀ t : Fin cfg0.N, ((grid0.coords t) 1).val = t.val % 6 :=
  (by decide +kernel : ∀ t : Fin grid0.N, ((grid0.coords t) 1).val = t.val % 6)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- The output window is stored only at the last head pair of a batch. -/
theorem idleAt0_7 : ∀ t : Fin cfg0.N, cfg0.idle 7 (grid0.coords t) = true ↔ t.val % 6 ≠ 5 :=
  (by decide +kernel : ∀ t : Fin grid0.N, cfg0.idle 7 (grid0.coords t) = true ↔ t.val % 6 ≠ 5)

/-! ## What the scratch holds, column band by column band -/

/-- The 128 columns point `t` writes: rows 256 k … of them are trip `k`'s block at that point's input blocks. -/
def bandAt (c : Dev nD) (t : Fin cfg0.N) : S1024x768.Idx → Elt F .bf16 :=
  bandBlock (ms0_0 t) (hs0_0 t) (ms0_1 t) (hs0_1 t) (ms0_2 t) (hs0_2 t) (ms0_3 t) (hs0_3 t) (ms0_5 t) (hs0_5 t) (iblk m c 0 t) (iblk m c 1 t) (iblk m c 2 t) (iblk m c 3 t) (iblk m c 5 t)

/-- The scratch of batch `b` once all six head pairs have written: column `y 1` belongs to head pair `y 1 / 128`. -/
def fullAt (c : Dev nD) (b : Fin 8) (y : S1024x768.Idx) : Elt F .bf16 :=
  bandAt m c ⟨6 * b.val + (y 1).val / 128, by
    have h1 : (y 1).val < 768 := (y 1).isLt
    have hb := b.isLt
    show _ < grid0.N
    rw [N_0]; omega⟩ y

/-- Before point `t` the scratch's columns below 128 (t % 6) hold the batch's earlier head pairs' outputs. -/
def Inv (c : Dev nD) (t : ℕ) (X : S1024x768.Idx → Elt F .bf16) : Prop :=
  ∀ y : S1024x768.Idx, (y 1).val < 128 * (t % 6) → X y = fullAt m c ⟨t / 6 % 8, Nat.mod_lt _ (by decide)⟩ y

/-! ## The pipeline's proof data -/

/-- The arrays as the region finds them; after the body each input's buffer at its block, the output's at the
    projection of the batch's full scratch (read only where the point writes it back); the invariant: the scratch at
    contents satisfying `Inv`, and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay10 (fullAt m c ⟨t.val / 6 % 8, Nat.mod_lt _ (by decide)⟩) (iblk m c 4 t) (iblk m c 6 t)
  Φ t := iprop((∃ X, owns (c : Thread nD τ) scM fullShare X ∗ ⌜Inv m c t.val X⌝) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = k0_pay10 (fullAt m c ⟨t.val / 6 % 8, Nat.mod_lt _ (by decide)⟩) (iblk m c 4 t) (iblk m c 6 t) := by dsimp only [dats]
theorem Phi_eq (c : Dev nD) (t : Fin (cfg0.N + 1)) : (dats m 0 c).Φ t
    = iprop((∃ X, owns (c : Thread nD τ) scM fullShare X ∗ ⌜Inv m c t.val X⌝) ∗ (∃ r, prngReg c r)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## One point keeps the invariant -/

/-- The band a point writes is that point's part of the batch's full scratch. -/
theorem bandAt_eq_fullAt (c : Dev nD) (t : Fin cfg0.N) (b : Fin 8) (hb : b.val = t.val / 6) (y : S1024x768.Idx)
    (hy : 128 * (t.val % 6) ≤ (y 1).val ∧ (y 1).val < 128 * (t.val % 6) + 128) :
    bandAt m c t y = fullAt m c b y := by
  unfold fullAt
  have ht : t.val < 48 := lt_of_lt_of_eq t.isLt (show cfg0.N = 48 from N_0)
  have e : (⟨6 * b.val + (y 1).val / 128, by
      have h1 : (y 1).val < 768 := (y 1).isLt
      have hb' := b.isLt
      show _ < grid0.N
      rw [N_0]; omega⟩ : Fin cfg0.N) = t := Fin.ext (by show 6 * b.val + (y 1).val / 128 = t.val; rw [hb]; omega)
  rw [e]

/-- Away from the last head pair: after the loop the scratch satisfies the invariant of the next point. -/
theorem inv_step (c : Dev nD) (t : Fin cfg0.N) (h5 : t.val % 6 ≠ 5) (x7 : Vec F S1x1024x768 .f32) (X : Vec F S1024x768 .bf16)
    (hX : Inv m c t.val X) :
    Inv m c (t.val + 1) (scM.view.read (Elt F) (scratchAfter c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X)) := by
  intro y hy
  have ht : t.val < 48 := lt_of_lt_of_eq t.isLt (show cfg0.N = 48 from N_0)
  have hb : (⟨(t.val + 1) / 6 % 8, Nat.mod_lt _ (by decide)⟩ : Fin 8) = ⟨t.val / 6 % 8, Nat.mod_lt _ (by decide)⟩ := Fin.ext (by show (t.val + 1) / 6 % 8 = t.val / 6 % 8; omega)
  rw [hb]
  by_cases hband : 128 * (t.val % 6) ≤ (y 1).val
  · have hin : 128 * ((grid0.coords t) 1).val ≤ (y 1).val ∧ (y 1).val < 128 * ((grid0.coords t) 1).val + 128 := by
      rw [coord1]; exact ⟨hband, by omega⟩
    rw [read_scratchAfter_in c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X y hin]
    exact bandAt_eq_fullAt m c t _ (by show t.val / 6 % 8 = t.val / 6; omega) y ⟨hband, by omega⟩
  · have hout : ¬ (128 * ((grid0.coords t) 1).val ≤ (y 1).val ∧ (y 1).val < 128 * ((grid0.coords t) 1).val + 128) := by
      rw [coord1]; intro h; exact hband h.1
    rw [read_scratchAfter_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X y hout]
    exact hX y (by omega)

/-- At the last head pair: the whole scratch after the loop is the batch's full scratch, so the block stored is its
    projection. -/
theorem projected_eq (c : Dev nD) (t : Fin cfg0.N) (h5 : t.val % 6 = 5) (x7 : Vec F S1x1024x768 .f32) (X : Vec F S1024x768 .bf16)
    (hX : Inv m c t.val X) :
    projected c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X
      = k0_pay10 (fullAt m c ⟨t.val / 6 % 8, Nat.mod_lt _ (by decide)⟩) (iblk m c 4 t) (iblk m c 6 t) := by
  have ht : t.val < 48 := lt_of_lt_of_eq t.isLt (show cfg0.N = 48 from N_0)
  refine congr (congr (congrArg (k0_pay10 (F := F)) ?_) ?_) ?_
  · rw [View.readAt_eq_ld, View.ld_unit_zero (funext fun a => by fin_cases a <;> rfl)]
    funext y
    by_cases hband : 128 * (t.val % 6) ≤ (y 1).val
    · have h1 : (y 1).val < 768 := (y 1).isLt
      have hin : 128 * ((grid0.coords t) 1).val ≤ (y 1).val ∧ (y 1).val < 128 * ((grid0.coords t) 1).val + 128 := by
        rw [coord1]; exact ⟨hband, by omega⟩
      rw [read_scratchAfter_in c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X y hin]
      exact bandAt_eq_fullAt m c t _ (by show t.val / 6 % 8 = t.val / 6; omega) y ⟨hband, by omega⟩
    · have hout : ¬ (128 * ((grid0.coords t) 1).val ≤ (y 1).val ∧ (y 1).val < 128 * ((grid0.coords t) 1).val + 128) := by
        rw [coord1]; intro h; exact hband h.1
      rw [read_scratchAfter_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X y hout]
      exact hX y (by omega)
  · rw [View.readAt_eq_ld, (hs0_4 t).read_unread, View.ld_unit_zero (funext fun a => by fin_cases a <;> rfl)]
  · rw [View.readAt_eq_ld, (hs0_6 t).read_unread, View.ld_unit_zero (funext fun a => by fin_cases a <;> rfl)]

end Cert.Kernel.Body

end
-- ==== Proof.Kernel.Sound.lean ====
import proofs.«154074_j30880814859134_2_alg».proof.Proof.Kernel.Track

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held at contents `f` is owned at what `f` reads as. -/
theorem owns_of_pointsTo {S : Shape} {e : EltTy} (c : Dev nD) (a : Memref sig .tc .vmem S e) (f : BufTy.Contents (Elt F) a.view.ty) :
    (View.loc (c : Thread nD τ) a.view ↦[a.view.set]{fullShare} f : sProp 𝕄) ⊢ owns (c : Thread nD τ) a fullShare (a.view.read (Elt F) f) := by
  unfold owns
  iintro H
  iexists _; isplitr; · ipureintro; rfl
  iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the inputs' buffers hold their blocks; the scratch satisfies the invariant; at the batch's
    last head pair the body projects the now full scratch into the output buffer, elsewhere it leaves that buffer alone;
    either way the scratch comes back satisfying the next point's invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [Phi_eq, Phi_eq]
  simp only [Fin.coe_castSucc, Fin.val_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 6 = 5
  · have hidle : cfg0.idle 7 (grid0.coords t) = false := Bool.eq_false_iff.mpr fun h => (idleAt0_7 t).mp h h0
    rw [show (dats m 0 c).leavesExact 7 t = owns (c : Thread nD τ) (ms0_7 t) fullShare ((dats m 0 c).after 7 t) from by
      unfold Dat.leavesExact; rw [hidle], after0_7]
    iintro ⟨⟨⟨%X, HS0, %hX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_project c (grid0.coords t) _ _ _ _ _ _ _ _ _ _ _ _ _ _ _ _ scM hscM ((hcond t).mpr h0) (iblk m c 0 t) (iblk m c 1 t) (iblk m c 2 t) (iblk m c 3 t) (iblk m c 4 t) (iblk m c 5 t) (iblk m c 6 t) ((dats m 0 c).before 7 t d7) X) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HS0]; · iexact HS0
    iintro ⟨⟨H0, H1, H2, H3, H4, H5, H6⟩, H7, HS0⟩
    isplitl [HS0 Hg]
    · isplitl [HS0]
      · iexists _
        isplitl [HS0]
        · iapply (owns_of_pointsTo c scM _) $$ HS0
        · ipureintro
          intro y hy
          exfalso
          have : (t.val + 1) % 6 = 0 := by omega
          rw [this] at hy
          exact Nat.not_lt_zero _ hy
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [← projected_eq m c t h0 ((dats m 0 c).before 7 t d7) X hX]
    iexact H7
  · have hidle : cfg0.idle 7 (grid0.coords t) = true := (idleAt0_7 t).mpr h0
    have hflush : (cfg0.win 7).flush t = false := Bool.eq_false_iff.mpr fun h => h0 ((flush0_7 t).mp h)
    rw [(dats m 0 c).leavesExact_idle 7 t hidle hflush]
    iintro ⟨⟨⟨%X, HS0, %hX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_rest c (grid0.coords t) _ _ _ _ _ _ _ _ _ _ _ _ _ _ _ _ scM hscM (fun h => h0 ((hcond t).mp h)) (iblk m c 0 t) (iblk m c 1 t) (iblk m c 2 t) (iblk m c 3 t) (iblk m c 4 t) (iblk m c 5 t) (iblk m c 6 t) ((dats m 0 c).before 7 t d7) X) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HS0]; · iexact HS0
    iintro ⟨⟨H0, H1, H2, H3, H4, H5, H6⟩, H7, HS0⟩
    isplitl [HS0 Hg]
    · isplitl [HS0]
      · iexists _
        isplitl [HS0]
        · iapply (owns_of_pointsTo c scM _) $$ HS0
        · ipureintro
          exact inv_step m c t h0 ((dats m 0 c).before 7 t d7) X hX
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end every array of the pipeline holds what the library
    computes from the proof data — the output array the blocks written back at each batch's last head pair —, and
    every other unscoped buffer its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m)
    (hin := fun c => by
      rw [PhiA0_eq, Phi_eq]
      iintro ⟨⟨%d, H⟩, Hg⟩
      isplitl [H]
      · iexists d
        isplitl [H]; · iexact H
        ipureintro
        intro y hy
        exact absurd hy (Nat.not_lt_zero _)
      iexact Hg)
    (hout := fun c => by
      rw [PhiA0_eq, Phi_eq]
      iintro ⟨⟨%X, H, -⟩, Hg⟩
      isplitl [H]
      · iexists X; iexact H
      iexact Hg)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KernelIdeal.RunRest.lean ====
import proofs.«154074_j30880814859134_2_alg».proof.Proof.Gen.KernelIdeal.Launch
import proofs.«154074_j30880814859134_2_alg».proof.Proof.Gen.KernelIdeal.Skeleton
import proofs.«154074_j30880814859134_2_alg».proof.Proof.Gen.KernelIdeal.Loops
import proofs.«154074_j30880814859134_2_alg».proof.Proof.Gen.KernelIdeal.Points
import proofs.«154074_j30880814859134_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body reads and what the loop leaves, as terms of the buffers' contents -/

/-- A whole rank-3 block as the body loads it from a whole memref holding `x`. -/
abbrev ld3 {S : Shape} {e : EltTy} (a : Memref sig .tc .vmem S e) (ha : a.IsWhole) (z : Fin S.rank → Nat) (hz : ∀ d, z d + S.size d ≤ S.size d)
    (x : S.Idx → Elt F e) : (Rect.unit (s := S) z S.size hz).shape.Idx → Elt F e :=
  View.readAt (Elt F) a.view (Rect.unit (s := S) z S.size hz).toLoadRect (ha.unread x)

/-- The column-index plane the mask compares against. -/
abbrev colIota : IVec S256x1024 32 := iota .tc S256x1024 32 [1] iota_S256x1024_d1_w32

/-- The scratch after the loop's four trips: each trip's block written over what the scratch held (`xs`), the
    inputs' blocks read from their staging buffers. -/
abbrev scratchAfter (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) : BufTy.Contents (Elt F) arg10.view.ty :=
  arg10.view.writes (Elt F) (harg10.unread xs)
    (pb_k0_t1 (F := F) Variants.none c none i arg2 harg2 arg3 harg3 arg4 harg4 arg5 harg5 arg6 harg6 arg7 harg7 arg8 harg8 arg9 harg9 arg10 harg10
      (ld3 arg2 harg2 ![0, 0, 0] inb_S1x1024x768_S1x1024x768_0_0_0 x0)
      (ld3 arg3 harg3 ![0, 0, 0] inb_S1x128x768_S1x128x768_0_0_0 x1)
      (ld3 arg4 harg4 ![0, 0, 0] inb_S1x128x768_S1x128x768_0_0_0 x2)
      (ld3 arg5 harg5 ![0, 0, 0] inb_S1x128x768_S1x128x768_0_0_0 x3)
      (ld3 arg7 harg7 ![0, 0, 0] inb_S1x1x1024_S1x1x1024_0_0_0 x5)
      colIota (harg2.unread x0) (Scf.trips k0_t1_loop.lb k0_t1_loop.ub k0_t1_loop.st))

/-- What the body holds: the seven input buffers at their blocks, the output buffer and the scratch at given contents. -/
abbrev held (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

set_option maxHeartbeats 1000000 in
/-- Away from the last head pair the body only runs the loop: the inputs and the output buffer come back as they were,
    the scratch with the four trips' blocks written into it. -/
theorem run_rest (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (hc0 : ¬ (k0_cond1 i = 1#1)) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) :
      ∀ (E : Set ℕ) (K : PUnit → sProp 𝕄),
        iprop(held c i arg2 harg2 arg3 harg3 arg4 harg4 arg5 harg5 arg6 harg6 arg7 harg7 arg8 harg8 arg9 harg9 arg10 harg10 x0 x1 x2 x3 x4 x5 x6 x7 xs ∗ owns (c : Thread nD τ) arg9 fullShare x7 ∗ owns (c : Thread nD τ) arg10 fullShare xs
            ∗ (iprop(held c i arg2 harg2 arg3 harg3 arg4 harg4 arg5 harg5 arg6 harg6 arg7 harg7 arg8 harg8 arg9 harg9 arg10 harg10 x0 x1 x2 x3 x4 x5 x6 x7 xs ∗ owns (c : Thread nD τ) arg9 fullShare x7
                ∗ (View.loc (c : Thread nD τ) arg10.view ↦[arg10.view.set]{fullShare} scratchAfter c i arg2 harg2 arg3 harg3 arg4 harg4 arg5 harg5 arg6 harg6 arg7 harg7 arg8 harg8 arg9 harg9 arg10 harg10 x0 x1 x2 x3 x4 x5 x6 x7 xs)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K := by
    intro E K
    simp only [cc0__attn_kernel_eq_skeleton]; unfold cc0__attn_kernel_skel
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]
    · iexists _; isplitr; · ipureintro; exact hf7
      iexact H7
    iexact HS0

end Cert.KernelIdeal.Body

end
-- ==== Proof.KernelIdeal.RunProject.lean ====
import proofs.«154074_j30880814859134_2_alg».proof.Proof.KernelIdeal.RunRest
import Idealize.ShloMosaic.Lib.Pipeline.Value
import Idealize.ShloMosaic.Lib.Writes

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole block, read back, is its payload, whatever the buffer held. -/
theorem read_writes_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; funext y
  have e := View.read_writes_cons_emb (Val := Val) v f (Rect.whole S) w [] y
  rw [Rect.emb_whole_apply] at e
  exact e

/-- The output block the last head pair's point stores: the projection of the whole scratch after the loop. -/
abbrev projected (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) : S1x1024x768.Idx → Elt F .f32 :=
  k0_pay10
    (View.readAt (Elt F) arg10.view (Rect.unit (s := S1024x768) ![0, 0] S1024x768.size inb_S1024x768_S1024x768_0_0).toLoadRect
      (scratchAfter c i arg2 harg2 arg3 harg3 arg4 harg4 arg5 harg5 arg6 harg6 arg7 harg7 arg8 harg8 arg9 harg9 arg10 harg10 x0 x1 x2 x3 x4 x5 x6 x7 xs))
    (View.readAt (Elt F) arg6.view (Rect.unit (s := S768x768) ![0, 0] S768x768.size inb_S768x768_S768x768_0_0).toLoadRect (harg6.unread x4))
    (View.readAt (Elt F) arg8.view (Rect.unit (s := S1x768) ![0, 0] S1x768.size inb_S1x768_S1x768_0_0).toLoadRect (harg8.unread x6))

set_option maxHeartbeats 1000000 in
/-- At the last head pair the body runs the loop and then projects: the inputs come back as they were, the scratch with
    the four trips' blocks written into it, the output buffer at the projection of that scratch. -/
theorem run_project (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (hc0 : k0_cond1 i = 1#1) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) :
      ∀ (E : Set ℕ) (K : PUnit → sProp 𝕄),
        iprop(held c i arg2 harg2 arg3 harg3 arg4 harg4 arg5 harg5 arg6 harg6 arg7 harg7 arg8 harg8 arg9 harg9 arg10 harg10 x0 x1 x2 x3 x4 x5 x6 x7 xs ∗ owns (c : Thread nD τ) arg9 fullShare x7 ∗ owns (c : Thread nD τ) arg10 fullShare xs
            ∗ (iprop(held c i arg2 harg2 arg3 harg3 arg4 harg4 arg5 harg5 arg6 harg6 arg7 harg7 arg8 harg8 arg9 harg9 arg10 harg10 x0 x1 x2 x3 x4 x5 x6 x7 xs
                ∗ owns (c : Thread nD τ) arg9 fullShare (projected c i arg2 harg2 arg3 harg3 arg4 harg4 arg5 harg5 arg6 harg6 arg7 harg7 arg8 harg8 arg9 harg9 arg10 harg10 x0 x1 x2 x3 x4 x5 x6 x7 xs)
                ∗ (View.loc (c : Thread nD τ) arg10.view ↦[arg10.view.set]{fullShare} scratchAfter c i arg2 harg2 arg3 harg3 arg4 harg4 arg5 harg5 arg6 harg6 arg7 harg7 arg8 harg8 arg9 harg9 arg10 harg10 x0 x1 x2 x3 x4 x5 x6 x7 xs)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K := by
    intro E K
    simp only [cc0__attn_kernel_eq_skeleton]; unfold cc0__attn_kernel_skel
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0)
    sl_step
    iapply Hk
    isplitl [H0 H1 H2 H3 H4 H5 H6]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      iexists _; isplitr; · ipureintro; exact harg8.read_unread _
      iexact H6
    isplitl [H7]
    · iexists _; isplitr; swap; · iexact H7
      ipureintro
      exact read_writes_whole arg9.view f7 (funext fun a => by fin_cases a <;> rfl) inb_S1x1024x768_S1x1024x768_0_0_0 _
    iexact HS0

end Cert.KernelIdeal.Body

end
-- ==== Proof.KernelIdeal.Scratch.lean ====
import proofs.«154074_j30880814859134_2_alg».proof.Proof.KernelIdeal.RunProject
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## The loop's four trips: where each writes, and what -/

/-- The loop runs four trips. -/
theorem trips_eq : k0_t1_loop.trips = 4 := by decide +kernel

/-- Trip `k` at head pair `i 1` writes the 256 x 128 block at row 256 k, column 128 (i 1). -/
theorem off2_eq : ∀ (i : grid0.Coords) (k : Fin k0_t1_loop.trips), k0_off2 i k = ![256 * k.val, 128 * (i 1).val] := by
  decide +kernel

/-- The block trip `k` computes from the loaded input blocks and its 256 query rows `xq`: both heads' attention
    outputs side by side. -/
abbrev tripBlock (v0 : Vec F S1x1024x768 .bf16) (v2 : Vec F S1x128x768 .bf16) (v4 : Vec F S1x128x768 .bf16) (v6 : Vec F S1x128x768 .bf16) (v8 : Vec F S1x1x1024 .f32) (v18 : IVec S256x1024 32) (xq : Vec F S1x256x768 .bf16) (k : Fin k0_t1_loop.trips) : S256x128.Idx → Elt F .bf16 :=
  k0_pay9 v0 v6 (k0_pay12 (k0_pay3 v8) v18 (0#32) (1#32) k)
    (k0_pay13 (k0_pay2 v2) (k0_pay3 v8) (k0_pay6 v0 v4) (k0_pay8 v0 v6) v18 (0#32) (1#32) k xq)
    (k0_pay14 (k0_pay2 v2) (k0_pay7 v0 v4) xq) (k0_pay15 (k0_pay2 v2) (k0_pay7 v0 v4) xq)

/-- Trip `k`'s 256 query rows, read from the activations' staging buffer at contents `X`. -/
abbrev queryRows (arg2 : Memref sig .tc .vmem S1x1024x768 .bf16) (X : BufTy.Contents (Elt F) arg2.view.ty) (k : Fin k0_t1_loop.trips) :
    Vec F S1x256x768 .bf16 :=
  View.readAt (Elt F) arg2.view (Rect.unit (s := S1x1024x768) (k0_off1 k) S1x256x768.size (k0_off1_inb k)).toLoadRect X

/-- The one store of trip `k`: its block through its rectangle. -/
abbrev tripPiece (i : grid0.Coords) (arg2 : Memref sig .tc .vmem S1x1024x768 .bf16) (v0 : Vec F S1x1024x768 .bf16) (v2 : Vec F S1x128x768 .bf16) (v4 : Vec F S1x128x768 .bf16) (v6 : Vec F S1x128x768 .bf16) (v8 : Vec F S1x1x1024 .f32) (v18 : IVec S256x1024 32)
    (X : BufTy.Contents (Elt F) arg2.view.ty) (k : Fin k0_t1_loop.trips) : View.Piece (Elt F) S1024x768 .bf16 :=
  ⟨Rect.unit (s := S1024x768) (k0_off2 i k) S256x128.size (k0_off2_inb i k), tripBlock v0 v2 v4 v6 v8 v18 (queryRows arg2 X k) k⟩

theorem tripL_eq (𝒱 : Variants) (c : Dev nD) (bd : Option 𝒱.V) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (v0 : Vec F S1x1024x768 .bf16) (v2 : Vec F S1x128x768 .bf16) (v4 : Vec F S1x128x768 .bf16) (v6 : Vec F S1x128x768 .bf16) (v8 : Vec F S1x1x1024 .f32) (v18 : IVec S256x1024 32)
    (X : BufTy.Contents (Elt F) arg2.view.ty) (k : Fin k0_t1_loop.trips) :
    tripL_k0_t1 (F := F) 𝒱 c bd i arg2 harg2 arg3 harg3 arg4 harg4 arg5 harg5 arg6 harg6 arg7 harg7 arg8 harg8 arg9 harg9 arg10 harg10 v0 v2 v4 v6 v8 v18 X k = [tripPiece i arg2 v0 v2 v4 v6 v8 v18 X k] := by
  unfold tripL_k0_t1 trip_k0_t1
  dsimp only
  unfold trip_k0_t1.sl.r trip_k0_t1.sl.r_1 trip_k0_t1.sl.r_2 trip_k0_t1.sl.r_3
  rfl

/-- After `n` trips the stores made are exactly those of the trips below `n`. -/
theorem mem_pb (𝒱 : Variants) (c : Dev nD) (bd : Option 𝒱.V) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (v0 : Vec F S1x1024x768 .bf16) (v2 : Vec F S1x128x768 .bf16) (v4 : Vec F S1x128x768 .bf16) (v6 : Vec F S1x128x768 .bf16) (v8 : Vec F S1x1x1024 .f32) (v18 : IVec S256x1024 32)
    (X : BufTy.Contents (Elt F) arg2.view.ty) :
    ∀ (n : ℕ), n ≤ k0_t1_loop.trips → ∀ p, p ∈ pb_k0_t1 (F := F) 𝒱 c bd i arg2 harg2 arg3 harg3 arg4 harg4 arg5 harg5 arg6 harg6 arg7 harg7 arg8 harg8 arg9 harg9 arg10 harg10 v0 v2 v4 v6 v8 v18 X n
      ↔ ∃ k : Fin k0_t1_loop.trips, k.val < n ∧ p = tripPiece i arg2 v0 v2 v4 v6 v8 v18 X k
  | 0, _, p => by
    rw [pb_k0_t1.eq_1]
    constructor
    · intro h; exact absurd h List.not_mem_nil
    · rintro ⟨k, hk, _⟩; exact absurd hk (Nat.not_lt_zero _)
  | n + 1, hn, p => by
    have h : n < k0_t1_loop.trips := hn
    have e : pb_k0_t1 (F := F) 𝒱 c bd i arg2 harg2 arg3 harg3 arg4 harg4 arg5 harg5 arg6 harg6 arg7 harg7 arg8 harg8 arg9 harg9 arg10 harg10 v0 v2 v4 v6 v8 v18 X (n + 1)
        = tripL_k0_t1 (F := F) 𝒱 c bd i arg2 harg2 arg3 harg3 arg4 harg4 arg5 harg5 arg6 harg6 arg7 harg7 arg8 harg8 arg9 harg9 arg10 harg10 v0 v2 v4 v6 v8 v18 X ⟨n, h⟩
          ++ pb_k0_t1 (F := F) 𝒱 c bd i arg2 harg2 arg3 harg3 arg4 harg4 arg5 harg5 arg6 harg6 arg7 harg7 arg8 harg8 arg9 harg9 arg10 harg10 v0 v2 v4 v6 v8 v18 X n :=
      pb_k0_t1_succ (F := F) 𝒱 c bd i arg2 harg2 arg3 harg3 arg4 harg4 arg5 harg5 arg6 harg6 arg7 harg7 arg8 harg8 arg9 harg9 arg10 harg10 v0 v2 v4 v6 v8 v18 X ⟨n, h⟩
    rw [e, List.mem_append, tripL_eq, List.mem_singleton, mem_pb 𝒱 c bd i arg2 harg2 arg3 harg3 arg4 harg4 arg5 harg5 arg6 harg6 arg7 harg7 arg8 harg8 arg9 harg9 arg10 harg10 v0 v2 v4 v6 v8 v18 X n (Nat.le_of_lt h) p]
    constructor
    · rintro (rfl | ⟨k, hk, rfl⟩)
      · exact ⟨⟨n, h⟩, Nat.lt_succ_self n, rfl⟩
      · exact ⟨k, Nat.lt_succ_of_lt hk, rfl⟩
    · rintro ⟨k, hk, rfl⟩
      rcases Nat.lt_succ_iff_lt_or_eq.mp hk with hk' | hk'
      · exact Or.inr ⟨k, hk', rfl⟩
      · left
        have : k = ⟨n, h⟩ := Fin.ext hk'
        rw [this]

/-! ## What the scratch reads as after the loop -/

section Read

/-- Inside the current head pair's 128 columns the scratch reads the block of the trip its row belongs to. -/
abbrev bandBlock (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg7 : Memref sig .tc .vmem S1x1x1024 .f32) (harg7 : arg7.IsWhole) (x0 : Vec F S1x1024x768 .bf16) (x1 : Vec F S1x128x768 .bf16) (x2 : Vec F S1x128x768 .bf16) (x3 : Vec F S1x128x768 .bf16) (x5 : Vec F S1x1x1024 .f32) (y : S1024x768.Idx) : Elt F .bf16 :=
  tripBlock (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota
    (queryRows arg2 (harg2.unread x0) ⟨(y 0).val / 256, by rw [trips_eq]; have := (y 0).isLt; show (y 0).val / 256 < 4; have h : (y 0).val < 1024 := (y 0).isLt; omega⟩)
    ⟨(y 0).val / 256, by rw [trips_eq]; have h : (y 0).val < 1024 := (y 0).isLt; omega⟩
    (ix2 (⟨(y 0).val % 256, Nat.mod_lt _ (by decide)⟩ : Fin 256) (⟨(y 1).val % 128, Nat.mod_lt _ (by decide)⟩ : Fin 128))

theorem read_scratchAfter_out (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) (y : S1024x768.Idx) (hy : ¬ (128 * (i 1).val ≤ (y 1).val ∧ (y 1).val < 128 * (i 1).val + 128)) :
    arg10.view.read (Elt F) (scratchAfter c i arg2 harg2 arg3 harg3 arg4 harg4 arg5 harg5 arg6 harg6 arg7 harg7 arg8 harg8 arg9 harg9 arg10 harg10 x0 x1 x2 x3 x4 x5 x6 x7 xs) y = xs y := by
  unfold scratchAfter
  rw [View.read_writes_apply_of_forall_not_mem, harg10.read_unread]
  intro p hp
  obtain ⟨k, _, rfl⟩ := (mem_pb Variants.none c none i arg2 harg2 arg3 harg3 arg4 harg4 arg5 harg5 arg6 harg6 arg7 harg7 arg8 harg8 arg9 harg9 arg10 harg10 _ _ _ _ _ _ _ _ le_rfl p).mp hp
  intro hmem
  have hmem' : y ∈ (Rect.unit (s := S1024x768) (k0_off2 i k) S256x128.size (k0_off2_inb i k)).set := hmem
  have h1 := (Rect.mem_set_unit.mp hmem') (1 : Fin 2)
  rw [off2_eq] at h1
  exact hy ⟨h1.1, h1.2⟩

theorem read_scratchAfter_in (c : Dev nD) (i : grid0.Coords) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .bf16) (harg10 : arg10.IsWhole) (x0 : Vec F S1x1024x768 .bf16) (x1 : Vec F S1x128x768 .bf16) (x2 : Vec F S1x128x768 .bf16) (x3 : Vec F S1x128x768 .bf16) (x4 : Vec F S768x768 .bf16) (x5 : Vec F S1x1x1024 .f32) (x6 : Vec F S1x768 .f32) (x7 : Vec F S1x1024x768 .f32) (xs : Vec F S1024x768 .bf16) (y : S1024x768.Idx) (hy : 128 * (i 1).val ≤ (y 1).val ∧ (y 1).val < 128 * (i 1).val + 128) :
    arg10.view.read (Elt F) (scratchAfter c i arg2 harg2 arg3 harg3 arg4 harg4 arg5 harg5 arg6 harg6 arg7 harg7 arg8 harg8 arg9 harg9 arg10 harg10 x0 x1 x2 x3 x4 x5 x6 x7 xs) y
      = bandBlock arg2 harg2 arg3 harg3 arg4 harg4 arg5 harg5 arg7 harg7 x0 x1 x2 x3 x5 y := by
  unfold scratchAfter
  have hy0 : (y 0).val < 1024 := (y 0).isLt
  refine View.read_writes_apply_of_pieces _ _ (bandBlock arg2 harg2 arg3 harg3 arg4 harg4 arg5 harg5 arg7 harg7 x0 x1 x2 x3 x5) _ ?_ y ?_
  · intro p hp x
    obtain ⟨k, _, rfl⟩ := (mem_pb Variants.none c none i arg2 harg2 arg3 harg3 arg4 harg4 arg5 harg5 arg6 harg6 arg7 harg7 arg8 harg8 arg9 harg9 arg10 harg10 _ _ _ _ _ _ _ _ le_rfl p).mp hp
    have hk : k.val < 4 := lt_of_lt_of_eq k.isLt trips_eq
    have hx0 : (x 0).val < 256 := (x 0).isLt
    have hx1 : (x 1).val < 128 := (x 1).isLt
    have e0 : ((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 0 : ℕ) = 256 * k.val + (x 0).val := by
      rw [Rect.emb_apply]; show k0_off2 i k 0 + 1 * (x 0).val = _; rw [off2_eq]; simp
    have e1 : ((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 1 : ℕ) = 128 * (i 1).val + (x 1).val := by
      rw [Rect.emb_apply]; show k0_off2 i k 1 + 1 * (x 1).val = _; rw [off2_eq]; simp
    have hkk : (⟨((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 0).val / 256, by rw [trips_eq, e0]; omega⟩ : Fin k0_t1_loop.trips) = k :=
      Fin.ext (by show _ / 256 = k.val; rw [e0]; omega)
    have hxx : (ix2 (⟨((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 0).val % 256, Nat.mod_lt _ (by decide)⟩ : Fin 256)
        (⟨((tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) k).1.emb x 1).val % 128, Nat.mod_lt _ (by decide)⟩ : Fin 128) : S256x128.Idx) = x := by
      funext a; apply Fin.ext
      match a with
      | ⟨0, _⟩ => show _ % 256 = (x 0).val; rw [e0]; omega
      | ⟨1, _⟩ => show _ % 128 = (x 1).val; rw [e1]; omega
    show tripBlock _ _ _ _ _ _ _ k x = tripBlock _ _ _ _ _ _ _ _ _
    rw [hkk, hxx]
  · refine ⟨tripPiece i arg2 (ld3 arg2 harg2 ![0, 0, 0] inb_S1x1024x768_S1x1024x768_0_0_0 x0) (ld3 arg3 harg3 ![0, 0, 0] inb_S1x128x768_S1x128x768_0_0_0 x1) (ld3 arg4 harg4 ![0, 0, 0] inb_S1x128x768_S1x128x768_0_0_0 x2) (ld3 arg5 harg5 ![0, 0, 0] inb_S1x128x768_S1x128x768_0_0_0 x3) (ld3 arg7 harg7 ![0, 0, 0] inb_S1x1x1024_S1x1x1024_0_0_0 x5) colIota (harg2.unread x0) ⟨(y 0).val / 256, by rw [trips_eq]; omega⟩, ?_, ?_⟩
    · exact (mem_pb Variants.none c none i arg2 harg2 arg3 harg3 arg4 harg4 arg5 harg5 arg6 harg6 arg7 harg7 arg8 harg8 arg9 harg9 arg10 harg10 _ _ _ _ _ _ _ _ le_rfl _).mpr ⟨_, by show (y 0).val / 256 < k0_t1_loop.trips; rw [trips_eq]; omega, rfl⟩
    · show y ∈ (Rect.unit (s := S1024x768) (k0_off2 i _) S256x128.size (k0_off2_inb i _)).set
      refine Rect.mem_set_unit.mpr fun a => ?_
      rw [off2_eq]
      match a with
      | ⟨0, _⟩ => exact ⟨by show 256 * ((y 0).val / 256) ≤ (y 0).val; omega, by show (y 0).val < 256 * ((y 0).val / 256) + 256; omega⟩
      | ⟨1, _⟩ => exact ⟨hy.1, hy.2⟩

end Read

end Cert.KernelIdeal.Body

end
-- ==== Proof.KernelIdeal.Track.lean ====
import proofs.«154074_j30880814859134_2_alg».proof.Proof.KernelIdeal.Scratch

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the scratch -/

abbrev ms0_0 (t : Fin cfg0.N) : Memref sig .tc .vmem S1x1024x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x768 .f32 := win0_7.stage (cfg0.slots t 7)
abbrev hs0_7 (t : Fin cfg0.N) : (ms0_7 t).IsWhole := hstage0_7 ((cfg0.slots t 7).cast nbuf0_7)
/-- The scratch the heads' outputs are gathered in: a whole buffer of the kernel's own. -/
abbrev scM : Memref sig .tc .vmem S1024x768 .bf16 := Memref.whole cc0_scratch0
abbrev hscM : (scM).IsWhole := Memref.isWhole_whole _

/-- What the pipeline lends the body beside the windows: the scratch at some contents, and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The grid: point t is batch t / 6, head pair t % 6 -/

theorem hcond : ∀ t : Fin cfg0.N, k0_cond1 (grid0.coords t) = 1#1 ↔ t.val % 6 = 5 :=
  (by decide +kernel : ∀ t : Fin grid0.N, k0_cond1 (grid0.coords t) = 1#1 ↔ t.val % 6 = 5)
theorem coord1 : ∀ t : Fin cfg0.N, ((grid0.coords t) 1).val = t.val % 6 :=
  (by decide +kernel : ∀ t : Fin grid0.N, ((grid0.coords t) 1).val = t.val % 6)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- The output window is stored only at the last head pair of a batch. -/
theorem idleAt0_7 : ∀ t : Fin cfg0.N, cfg0.idle 7 (grid0.coords t) = true ↔ t.val % 6 ≠ 5 :=
  (by decide +kernel : ∀ t : Fin grid0.N, cfg0.idle 7 (grid0.coords t) = true ↔ t.val % 6 ≠ 5)

/-! ## What the scratch holds, column band by column band -/

/-- The 128 columns point `t` writes: rows 256 k … of them are trip `k`'s block at that point's input blocks. -/
def bandAt (c : Dev nD) (t : Fin cfg0.N) : S1024x768.Idx → Elt F .bf16 :=
  bandBlock (ms0_0 t) (hs0_0 t) (ms0_1 t) (hs0_1 t) (ms0_2 t) (hs0_2 t) (ms0_3 t) (hs0_3 t) (ms0_5 t) (hs0_5 t) (iblk m c 0 t) (iblk m c 1 t) (iblk m c 2 t) (iblk m c 3 t) (iblk m c 5 t)

/-- The scratch of batch `b` once all six head pairs have written: column `y 1` belongs to head pair `y 1 / 128`. -/
def fullAt (c : Dev nD) (b : Fin 8) (y : S1024x768.Idx) : Elt F .bf16 :=
  bandAt m c ⟨6 * b.val + (y 1).val / 128, by
    have h1 : (y 1).val < 768 := (y 1).isLt
    have hb := b.isLt
    show _ < grid0.N
    rw [N_0]; omega⟩ y

/-- Before point `t` the scratch's columns below 128 (t % 6) hold the batch's earlier head pairs' outputs. -/
def Inv (c : Dev nD) (t : ℕ) (X : S1024x768.Idx → Elt F .bf16) : Prop :=
  ∀ y : S1024x768.Idx, (y 1).val < 128 * (t % 6) → X y = fullAt m c ⟨t / 6 % 8, Nat.mod_lt _ (by decide)⟩ y

/-! ## The pipeline's proof data -/

/-- The arrays as the region finds them; after the body each input's buffer at its block, the output's at the
    projection of the batch's full scratch (read only where the point writes it back); the invariant: the scratch at
    contents satisfying `Inv`, and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay10 (fullAt m c ⟨t.val / 6 % 8, Nat.mod_lt _ (by decide)⟩) (iblk m c 4 t) (iblk m c 6 t)
  Φ t := iprop((∃ X, owns (c : Thread nD τ) scM fullShare X ∗ ⌜Inv m c t.val X⌝) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = k0_pay10 (fullAt m c ⟨t.val / 6 % 8, Nat.mod_lt _ (by decide)⟩) (iblk m c 4 t) (iblk m c 6 t) := by dsimp only [dats]
theorem Phi_eq (c : Dev nD) (t : Fin (cfg0.N + 1)) : (dats m 0 c).Φ t
    = iprop((∃ X, owns (c : Thread nD τ) scM fullShare X ∗ ⌜Inv m c t.val X⌝) ∗ (∃ r, prngReg c r)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## One point keeps the invariant -/

/-- The band a point writes is that point's part of the batch's full scratch. -/
theorem bandAt_eq_fullAt (c : Dev nD) (t : Fin cfg0.N) (b : Fin 8) (hb : b.val = t.val / 6) (y : S1024x768.Idx)
    (hy : 128 * (t.val % 6) ≤ (y 1).val ∧ (y 1).val < 128 * (t.val % 6) + 128) :
    bandAt m c t y = fullAt m c b y := by
  unfold fullAt
  have ht : t.val < 48 := lt_of_lt_of_eq t.isLt (show cfg0.N = 48 from N_0)
  have e : (⟨6 * b.val + (y 1).val / 128, by
      have h1 : (y 1).val < 768 := (y 1).isLt
      have hb' := b.isLt
      show _ < grid0.N
      rw [N_0]; omega⟩ : Fin cfg0.N) = t := Fin.ext (by show 6 * b.val + (y 1).val / 128 = t.val; rw [hb]; omega)
  rw [e]

/-- Away from the last head pair: after the loop the scratch satisfies the invariant of the next point. -/
theorem inv_step (c : Dev nD) (t : Fin cfg0.N) (h5 : t.val % 6 ≠ 5) (x7 : Vec F S1x1024x768 .f32) (X : Vec F S1024x768 .bf16)
    (hX : Inv m c t.val X) :
    Inv m c (t.val + 1) (scM.view.read (Elt F) (scratchAfter c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X)) := by
  intro y hy
  have ht : t.val < 48 := lt_of_lt_of_eq t.isLt (show cfg0.N = 48 from N_0)
  have hb : (⟨(t.val + 1) / 6 % 8, Nat.mod_lt _ (by decide)⟩ : Fin 8) = ⟨t.val / 6 % 8, Nat.mod_lt _ (by decide)⟩ := Fin.ext (by show (t.val + 1) / 6 % 8 = t.val / 6 % 8; omega)
  rw [hb]
  by_cases hband : 128 * (t.val % 6) ≤ (y 1).val
  · have hin : 128 * ((grid0.coords t) 1).val ≤ (y 1).val ∧ (y 1).val < 128 * ((grid0.coords t) 1).val + 128 := by
      rw [coord1]; exact ⟨hband, by omega⟩
    rw [read_scratchAfter_in c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X y hin]
    exact bandAt_eq_fullAt m c t _ (by show t.val / 6 % 8 = t.val / 6; omega) y ⟨hband, by omega⟩
  · have hout : ¬ (128 * ((grid0.coords t) 1).val ≤ (y 1).val ∧ (y 1).val < 128 * ((grid0.coords t) 1).val + 128) := by
      rw [coord1]; intro h; exact hband h.1
    rw [read_scratchAfter_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X y hout]
    exact hX y (by omega)

/-- At the last head pair: the whole scratch after the loop is the batch's full scratch, so the block stored is its
    projection. -/
theorem projected_eq (c : Dev nD) (t : Fin cfg0.N) (h5 : t.val % 6 = 5) (x7 : Vec F S1x1024x768 .f32) (X : Vec F S1024x768 .bf16)
    (hX : Inv m c t.val X) :
    projected c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X
      = k0_pay10 (fullAt m c ⟨t.val / 6 % 8, Nat.mod_lt _ (by decide)⟩) (iblk m c 4 t) (iblk m c 6 t) := by
  have ht : t.val < 48 := lt_of_lt_of_eq t.isLt (show cfg0.N = 48 from N_0)
  refine congr (congr (congrArg (k0_pay10 (F := F)) ?_) ?_) ?_
  · rw [View.readAt_eq_ld, View.ld_unit_zero (funext fun a => by fin_cases a <;> rfl)]
    funext y
    by_cases hband : 128 * (t.val % 6) ≤ (y 1).val
    · have h1 : (y 1).val < 768 := (y 1).isLt
      have hin : 128 * ((grid0.coords t) 1).val ≤ (y 1).val ∧ (y 1).val < 128 * ((grid0.coords t) 1).val + 128 := by
        rw [coord1]; exact ⟨hband, by omega⟩
      rw [read_scratchAfter_in c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X y hin]
      exact bandAt_eq_fullAt m c t _ (by show t.val / 6 % 8 = t.val / 6; omega) y ⟨hband, by omega⟩
    · have hout : ¬ (128 * ((grid0.coords t) 1).val ≤ (y 1).val ∧ (y 1).val < 128 * ((grid0.coords t) 1).val + 128) := by
        rw [coord1]; intro h; exact hband h.1
      rw [read_scratchAfter_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM hscM (iblk m c 0 t) (iblk m c 1 t) (iblk m c 2 t) (iblk m c 3 t) (iblk m c 4 t) (iblk m c 5 t) (iblk m c 6 t) x7 X y hout]
      exact hX y (by omega)
  · rw [View.readAt_eq_ld, (hs0_4 t).read_unread, View.ld_unit_zero (funext fun a => by fin_cases a <;> rfl)]
  · rw [View.readAt_eq_ld, (hs0_6 t).read_unread, View.ld_unit_zero (funext fun a => by fin_cases a <;> rfl)]

end Cert.KernelIdeal.Body

end
-- ==== Proof.KernelIdeal.Sound.lean ====
import proofs.«154074_j30880814859134_2_alg».proof.Proof.KernelIdeal.Track

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held at contents `f` is owned at what `f` reads as. -/
theorem owns_of_pointsTo {S : Shape} {e : EltTy} (c : Dev nD) (a : Memref sig .tc .vmem S e) (f : BufTy.Contents (Elt F) a.view.ty) :
    (View.loc (c : Thread nD τ) a.view ↦[a.view.set]{fullShare} f : sProp 𝕄) ⊢ owns (c : Thread nD τ) a fullShare (a.view.read (Elt F) f) := by
  unfold owns
  iintro H
  iexists _; isplitr; · ipureintro; rfl
  iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the inputs' buffers hold their blocks; the scratch satisfies the invariant; at the batch's
    last head pair the body projects the now full scratch into the output buffer, elsewhere it leaves that buffer alone;
    either way the scratch comes back satisfying the next point's invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [Phi_eq, Phi_eq]
  simp only [Fin.coe_castSucc, Fin.val_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 6 = 5
  · have hidle : cfg0.idle 7 (grid0.coords t) = false := Bool.eq_false_iff.mpr fun h => (idleAt0_7 t).mp h h0
    rw [show (dats m 0 c).leavesExact 7 t = owns (c : Thread nD τ) (ms0_7 t) fullShare ((dats m 0 c).after 7 t) from by
      unfold Dat.leavesExact; rw [hidle], after0_7]
    iintro ⟨⟨⟨%X, HS0, %hX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_project c (grid0.coords t) _ _ _ _ _ _ _ _ _ _ _ _ _ _ _ _ scM hscM ((hcond t).mpr h0) (iblk m c 0 t) (iblk m c 1 t) (iblk m c 2 t) (iblk m c 3 t) (iblk m c 4 t) (iblk m c 5 t) (iblk m c 6 t) ((dats m 0 c).before 7 t d7) X) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HS0]; · iexact HS0
    iintro ⟨⟨H0, H1, H2, H3, H4, H5, H6⟩, H7, HS0⟩
    isplitl [HS0 Hg]
    · isplitl [HS0]
      · iexists _
        isplitl [HS0]
        · iapply (owns_of_pointsTo c scM _) $$ HS0
        · ipureintro
          intro y hy
          exfalso
          have : (t.val + 1) % 6 = 0 := by omega
          rw [this] at hy
          exact Nat.not_lt_zero _ hy
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [← projected_eq m c t h0 ((dats m 0 c).before 7 t d7) X hX]
    iexact H7
  · have hidle : cfg0.idle 7 (grid0.coords t) = true := (idleAt0_7 t).mpr h0
    have hflush : (cfg0.win 7).flush t = false := Bool.eq_false_iff.mpr fun h => h0 ((flush0_7 t).mp h)
    rw [(dats m 0 c).leavesExact_idle 7 t hidle hflush]
    iintro ⟨⟨⟨%X, HS0, %hX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_rest c (grid0.coords t) _ _ _ _ _ _ _ _ _ _ _ _ _ _ _ _ scM hscM (fun h => h0 ((hcond t).mp h)) (iblk m c 0 t) (iblk m c 1 t) (iblk m c 2 t) (iblk m c 3 t) (iblk m c 4 t) (iblk m c 5 t) (iblk m c 6 t) ((dats m 0 c).before 7 t d7) X) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HS0]; · iexact HS0
    iintro ⟨⟨H0, H1, H2, H3, H4, H5, H6⟩, H7, HS0⟩
    isplitl [HS0 Hg]
    · isplitl [HS0]
      · iexists _
        isplitl [HS0]
        · iapply (owns_of_pointsTo c scM _) $$ HS0
        · ipureintro
          exact inv_step m c t h0 ((dats m 0 c).before 7 t d7) X hX
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end every array of the pipeline holds what the library
    computes from the proof data — the output array the blocks written back at each batch's last head pair —, and
    every other unscoped buffer its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m)
    (hin := fun c => by
      rw [PhiA0_eq, Phi_eq]
      iintro ⟨⟨%d, H⟩, Hg⟩
      isplitl [H]
      · iexists d
        isplitl [H]; · iexact H
        ipureintro
        intro y hy
        exact absurd hy (Nat.not_lt_zero _)
      iexact Hg)
    (hout := fun c => by
      rw [PhiA0_eq, Phi_eq]
      iintro ⟨⟨%X, H, -⟩, Hg⟩
      isplitl [H]
      · iexists X; iexact H
      iexact Hg)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.AttnSpec.lean ====
/-
  Multi-head attention under a keep-mask ("policy"), followed by an output projection, as ONE function of the five
  argument arrays over the extended reals.

  For batch b, head h (12 heads of width 64 over 768 channels), query row n and key row m:
    proj s b h n d  = sum over channels c of x[b,n,c] * w[s*768 + h*64 + d, c]        (s = 0 queries, 1 keys, 2 values)
    score b h n m   = sum over d of (proj 0 b h n d * 1/8) * proj 1 b h m d
    rowMax b h n    = the maximum over m of score b h n m (starting from -inf)
    mask b n m      = 1 on the diagonal n = m, the policy entry p[b,m,0] elsewhere
    weight b h n m  = exp (score - rowMax) * mask
    prob b h n m    = (weight + eps/1024) / (sum over m of weight + eps)
    headOut b h n d = sum over m of prob b h n m * proj 2 b h m d
    out[b,n,o]      = (sum over c of headOut b (c/64) n (c%64) * wo[o,c]) + bias[o]
  The float literals are kept as their words: the same word stands on both sides of every comparison.
-/
import Idealize.ShloMosaic.PureOps.Ideal
import Idealize.ShloMosaic.Lib.ValueIdx

noncomputable section

open scoped BigOperators

namespace Cert.PolicyAttention

open Idealize.ShloMosaic Idealize.ShloMosaic.ValueIdx

/-- The activations x : [8, 1024, 768]. -/
abbrev XArr := (⟨3, ![8, 1024, 768]⟩ : Shape).Idx → EReal
/-- The keep-mask p : [8, 1024, 1]. -/
abbrev PArr := (⟨3, ![8, 1024, 1]⟩ : Shape).Idx → EReal
/-- The stacked query / key / value weight w : [2304, 768]. -/
abbrev WArr := (⟨2, ![2304, 768]⟩ : Shape).Idx → EReal
/-- The output projection weight wo : [768, 768]. -/
abbrev OArr := (⟨2, ![768, 768]⟩ : Shape).Idx → EReal
/-- The output projection bias : [768]. -/
abbrev BArr := (⟨1, ![768]⟩ : Shape).Idx → EReal

/-- Row `s * 768 + h * 64 + d` of the stacked weight: part `s`, head `h`, channel `d` of the head. -/
def wrow (s : Fin 3) (h : Fin 12) (d : Fin 64) : Fin 2304 :=
  ⟨s.val * 768 + h.val * 64 + d.val, by have := s.isLt; have := h.isLt; have := d.isLt; omega⟩

/-- The head a column of the concatenated heads belongs to. -/
def headOf (c : Fin 768) : Fin 12 := ⟨c.val / 64, by have := c.isLt; omega⟩
/-- The channel inside its head of a column of the concatenated heads. -/
def chanOf (c : Fin 768) : Fin 64 := ⟨c.val % 64, by omega⟩

/-- The scale 1/8 = 64^(-1/2), the mask's one, -inf, eps/1024 and eps, as the words both programs carry. -/
abbrev cScale : EReal := Ideal.ofBits .f32 0x3E000000#32
abbrev cOne : EReal := Ideal.ofBits .f32 0x3F800000#32
abbrev cNegInf : EReal := Ideal.ofBits .f32 0xFF800000#32
abbrev cEpsN : EReal := Ideal.ofBits .f32 0x308637BD#32
abbrev cEps : EReal := Ideal.ofBits .f32 0x358637BD#32

variable (x : XArr) (p : PArr) (w : WArr) (wo : OArr) (bias : BArr)

/-- Part `s` of the projection of row `n` of batch `b`, head `h`, channel `d`. -/
def proj (s : Fin 3) (b : Fin 8) (h : Fin 12) (n : Fin 1024) (d : Fin 64) : EReal :=
  ∑ c : Fin 768, x (ix3 b n c) * w (ix2 (wrow s h d) c)

/-- The scaled score of query row `n` against key row `m`. -/
def score (b : Fin 8) (h : Fin 12) (n m : Fin 1024) : EReal :=
  ∑ d : Fin 64, (proj x w 0 b h n d * cScale) * proj x w 1 b h m d

/-- The largest score of query row `n`. -/
def rowMax (b : Fin 8) (h : Fin 12) (n : Fin 1024) : EReal :=
  (Finset.univ : Finset (Fin 1024)).fold max cNegInf fun m => score x w b h n m

/-- The keep-mask with the diagonal forced to one: a row always attends to itself. -/
def mask (b : Fin 8) (n m : Fin 1024) : EReal :=
  if n.val = m.val then cOne else p (ix3 b m (0 : Fin 1))

/-- The masked, shifted exponential. -/
def weight (b : Fin 8) (h : Fin 12) (n m : Fin 1024) : EReal :=
  Ideal.exp (score x w b h n m - rowMax x w b h n) * mask p b n m

/-- The row's normaliser before the eps is added. -/
def denom (b : Fin 8) (h : Fin 12) (n : Fin 1024) : EReal :=
  ∑ m : Fin 1024, weight x p w b h n m

/-- The attention probability with its two eps corrections. -/
def prob (b : Fin 8) (h : Fin 12) (n m : Fin 1024) : EReal :=
  Ideal.div (weight x p w b h n m + cEpsN) (denom x p w b h n + cEps)

/-- One head's output at row `n`, channel `d`. -/
def headOut (b : Fin 8) (h : Fin 12) (n : Fin 1024) (d : Fin 64) : EReal :=
  ∑ m : Fin 1024, prob x p w b h n m * proj x w 2 b h m d

/-- The projected output at (b, n, o). -/
def outAt (b : Fin 8) (n : Fin 1024) (o : Fin 768) : EReal :=
  (∑ c : Fin 768, headOut x p w b (headOf c) n (chanOf c) * wo (ix2 o c)) + bias (ix1 o)

/-- The whole result array. -/
def out : (⟨3, ![8, 1024, 768]⟩ : Shape).Idx → EReal :=
  fun i => outAt x p w wo bias (i 0) (i 1) (i 2)

end Cert.PolicyAttention

end
-- ==== Proof.WindowBlocks.lean ====
/-
  Each input window's block at a grid point, read at an index, is an argument array at an index.

  Before the kernel's region the host slices the stacked weight into its three parts and recasts each as [6, 128, 768],
  transposes the output weight, and recasts the keep-mask as [8, 1, 1024] and the bias as [1, 768]; a change of float
  format is the identity on the extended reals. Grid point t works on batch t / 6 and on the pair of heads t % 6. Its
  blocks are therefore: the activations of its batch; rows pair*128 + j of each part of the stacked weight; the whole
  transposed output weight; its batch's row of the keep-mask; the whole bias.
-/
import proofs.«154074_j30880814859134_2_alg».proof.Proof.Gen.KernelIdeal.Frame
import proofs.«154074_j30880814859134_2_alg».proof.Proof.AttnSpec
import Idealize.ShloMosaic.Lib.Pipeline.Value
import Idealize.ShloMosaic.Lib.ValueIdx

set_option maxRecDepth 16384

noncomputable section

namespace Cert.PolicyAttention.Blocks

open Cert.KernelIdeal Cert.KernelIdeal.Gen Idealize.ShloMosaic Idealize.ShloMosaic.TcCoe Idealize.ShloMosaic.ValueIdx
  Idealize.SL.Sem Idealize.ShloMosaic.StableHlo

/-- The batch a grid point works on. -/
def batchOf (t : Fin cfg0.N) : Fin 8 := ⟨t.val / 6, by have := t.isLt; have hN : cfg0.N = 48 := Gen.N_0; omega⟩

/-- The pair of heads a grid point works on. -/
def pairOf (t : Fin cfg0.N) : Fin 6 := ⟨t.val % 6, by omega⟩

/-! ## The index maps over the grid -/

theorem idx0 : ∀ t : Fin cfg0.N, win0_0.index t (0 : Fin 3) = t.val / 6 ∧ win0_0.index t (1 : Fin 3) = 0
    ∧ win0_0.index t (2 : Fin 3) = 0 :=
  (by decide +kernel : ∀ t : Fin grid0.N, _)

theorem idx1 : ∀ t : Fin cfg0.N, win0_1.index t (0 : Fin 3) = t.val % 6 ∧ win0_1.index t (1 : Fin 3) = 0
    ∧ win0_1.index t (2 : Fin 3) = 0 :=
  (by decide +kernel : ∀ t : Fin grid0.N, _)

theorem idx2 : ∀ t : Fin cfg0.N, win0_2.index t (0 : Fin 3) = t.val % 6 ∧ win0_2.index t (1 : Fin 3) = 0
    ∧ win0_2.index t (2 : Fin 3) = 0 :=
  (by decide +kernel : ∀ t : Fin grid0.N, _)

theorem idx3 : ∀ t : Fin cfg0.N, win0_3.index t (0 : Fin 3) = t.val % 6 ∧ win0_3.index t (1 : Fin 3) = 0
    ∧ win0_3.index t (2 : Fin 3) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 3) = t.val / 6 ∧ win0_5.index t (1 : Fin 3) = 0
    ∧ win0_5.index t (2 : Fin 3) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

variable (m : (ℓ : Loc nD τ sig) → Buf (Elt Ideal) ℓ)

/-! ## The arrays the windows stage, as the region finds them -/

theorem V_v11 (c : Dev nD) :
    (Gen.V (F := Ideal) m c main_v11 : S8x1024x768.Idx → EReal)
      = (m ((c.tc : Thread nD τ).loc main_arg0) : S8x1024x768.Idx → EReal) := by
  dsimp only [Gen.V, Gen.hostOps0]
  after_results
  rfl

theorem V_v2 (c : Dev nD) :
    (Gen.V (F := Ideal) m c main_v2 : S6x128x768.Idx → EReal)
      = shapeCast S6x128x768 (extractStridedSlice S768x768 ![0, 0]
          (m ((c.tc : Thread nD τ).loc main_arg2) : S2304x768.Idx → EReal) slices_S2304x768_S768x768_0_0)
          shapeCasts_S768x768_S6x128x768 := by
  dsimp only [Gen.V, Gen.hostOps0]
  after_results
  rfl

theorem V_v5 (c : Dev nD) :
    (Gen.V (F := Ideal) m c main_v5 : S6x128x768.Idx → EReal)
      = shapeCast S6x128x768 (extractStridedSlice S768x768 ![768, 0]
          (m ((c.tc : Thread nD τ).loc main_arg2) : S2304x768.Idx → EReal) slices_S2304x768_S768x768_768_0)
          shapeCasts_S768x768_S6x128x768 := by
  dsimp only [Gen.V, Gen.hostOps0]
  after_results
  rfl

theorem V_v8 (c : Dev nD) :
    (Gen.V (F := Ideal) m c main_v8 : S6x128x768.Idx → EReal)
      = shapeCast S6x128x768 (extractStridedSlice S768x768 ![1536, 0]
          (m ((c.tc : Thread nD τ).loc main_arg2) : S2304x768.Idx → EReal) slices_S2304x768_S768x768_1536_0)
          shapeCasts_S768x768_S6x128x768 := by
  dsimp only [Gen.V, Gen.hostOps0]
  after_results
  rfl

theorem V_v10 (c : Dev nD) :
    (Gen.V (F := Ideal) m c main_v10 : S768x768.Idx → EReal)
      = transpose S768x768 [1, 0] (m ((c.tc : Thread nD τ).loc main_arg3) : S768x768.Idx → EReal)
          transposes_S768x768_S768x768_1_0 := by
  dsimp only [Gen.V, Gen.hostOps0]
  after_results
  rfl

theorem V_v13 (c : Dev nD) :
    (Gen.V (F := Ideal) m c main_v13 : S8x1x1024.Idx → EReal)
      = shapeCast S8x1x1024 (shapeCast S8x1024 (m ((c.tc : Thread nD τ).loc main_arg1) : S8x1024x1.Idx → EReal)
          shapeCasts_S8x1024x1_S8x1024) shapeCasts_S8x1024_S8x1x1024 := by
  dsimp only [Gen.V, Gen.hostOps0]
  after_results
  rfl

theorem V_v14 (c : Dev nD) :
    (Gen.V (F := Ideal) m c main_v14 : S1x768.Idx → EReal)
      = shapeCast S1x768 (m ((c.tc : Thread nD τ).loc main_arg4) : S768.Idx → EReal) shapeCasts_S768_S1x768 := by
  dsimp only [Gen.V, Gen.hostOps0]
  after_results
  rfl

/-! ## The layout operations at an index -/

/-- Part off of the stacked weight, recast as [6, 128, 768], at (q, j, ch): row off + q*128 + j of the stacked weight. -/
theorem part_at (off : Nat) (hoff : off + 768 ≤ 2304) (w : S2304x768.Idx → EReal) (hs : S2304x768.Slices ![off, 0] S768x768)
    (q : Fin 6) (j : Fin 128) (ch : Fin 768) :
    shapeCast S6x128x768 (extractStridedSlice S768x768 ![off, 0] w hs) shapeCasts_S768x768_S6x128x768 (ix3 q j ch)
      = w (ix2 (⟨off + q.val * 128 + j.val, by have := q.isLt; have := j.isLt; omega⟩ : Fin 2304) ch) := by
  have hq := q.isLt; have hj := j.isLt; have hch := ch.isLt
  rw [shapeCast_apply _ shapeCasts_S768x768_S6x128x768 (ix3 q j ch)
    (ix2 (⟨q.val * 128 + j.val, by omega⟩ : Fin 768) ch)
    (by rewrite [Shape.rowMajor_val_two, Shape.rowMajor_val_three]
        show (q.val * 128 + j.val) * 768 + ch.val = (q.val * 128 + j.val) * 768 + ch.val; rfl)]
  exact extractStridedSlice_apply ![off, 0] w hs _ _ (fun a => match a with
    | ⟨0, _⟩ => by show off + q.val * 128 + j.val = off + (q.val * 128 + j.val); omega
    | ⟨1, _⟩ => by show ch.val = 0 + ch.val; omega)

/-! ## The blocks -/

/-- The activations' block: batch t / 6. -/
theorem blk_x (c : Dev nD) (t : Fin cfg0.N) (n : Fin 1024) (ch : Fin 768) :
    (Gen.iblk (F := Ideal) m c 0 t : S1x1024x768.Idx → EReal) (ix3 (0 : Fin 1) n ch)
      = (m ((c.tc : Thread nD τ).loc main_arg0) : S8x1024x768.Idx → EReal) (ix3 (batchOf t) n ch) := by
  obtain ⟨e0, e1, e2⟩ := idx0 t
  show (Gen.V (F := Ideal) m c main_v11 : S8x1024x768.Idx → EReal)
    (((cfg0.win 0).blk t).view.emb (ix3 (0 : Fin 1) n ch)) = _
  rw [V_v11]
  refine congrArg _ ?_
  funext a; apply Fin.ext
  match a with
  | ⟨0, _⟩ => show win0_0.index t (0 : Fin 3) * 1 + 1 * 0 = t.val / 6; omega
  | ⟨1, _⟩ => show win0_0.index t (1 : Fin 3) * 1024 + 1 * n.val = n.val; omega
  | ⟨2, _⟩ => show win0_0.index t (2 : Fin 3) * 768 + 1 * ch.val = ch.val; omega

/-- The query weights' block: rows pair*128 + j of part 0. -/
theorem blk_q (c : Dev nD) (t : Fin cfg0.N) (j : Fin 128) (ch : Fin 768) :
    (Gen.iblk (F := Ideal) m c 1 t : S1x128x768.Idx → EReal) (ix3 (0 : Fin 1) j ch)
      = (m ((c.tc : Thread nD τ).loc main_arg2) : S2304x768.Idx → EReal)
          (ix2 (⟨(pairOf t).val * 128 + j.val, by have := (pairOf t).isLt; have := j.isLt; omega⟩ : Fin 2304) ch) := by
  obtain ⟨e0, e1, e2⟩ := idx1 t
  show (Gen.V (F := Ideal) m c main_v2 : S6x128x768.Idx → EReal)
    (((cfg0.win 1).blk t).view.emb (ix3 (0 : Fin 1) j ch)) = _
  rw [V_v2]
  have hi : ((cfg0.win 1).blk t).view.emb (ix3 (0 : Fin 1) j ch) = ix3 (pairOf t) j ch := by
    funext a; apply Fin.ext
    match a with
    | ⟨0, _⟩ => show win0_1.index t (0 : Fin 3) * 1 + 1 * 0 = t.val % 6; omega
    | ⟨1, _⟩ => show win0_1.index t (1 : Fin 3) * 128 + 1 * j.val = j.val; omega
    | ⟨2, _⟩ => show win0_1.index t (2 : Fin 3) * 768 + 1 * ch.val = ch.val; omega
  rw [hi, part_at 0 (by omega)]
  refine congrArg _ (congrArg (fun r => ix2 r ch) (Fin.ext ?_))
  show 0 + (pairOf t).val * 128 + j.val = (pairOf t).val * 128 + j.val; omega

/-- The key weights' block: rows 768 + pair*128 + j. -/
theorem blk_k (c : Dev nD) (t : Fin cfg0.N) (j : Fin 128) (ch : Fin 768) :
    (Gen.iblk (F := Ideal) m c 2 t : S1x128x768.Idx → EReal) (ix3 (0 : Fin 1) j ch)
      = (m ((c.tc : Thread nD τ).loc main_arg2) : S2304x768.Idx → EReal)
          (ix2 (⟨768 + (pairOf t).val * 128 + j.val, by have := (pairOf t).isLt; have := j.isLt; omega⟩ : Fin 2304) ch) := by
  obtain ⟨e0, e1, e2⟩ := idx2 t
  show (Gen.V (F := Ideal) m c main_v5 : S6x128x768.Idx → EReal)
    (((cfg0.win 2).blk t).view.emb (ix3 (0 : Fin 1) j ch)) = _
  rw [V_v5]
  have hi : ((cfg0.win 2).blk t).view.emb (ix3 (0 : Fin 1) j ch) = ix3 (pairOf t) j ch := by
    funext a; apply Fin.ext
    match a with
    | ⟨0, _⟩ => show win0_2.index t (0 : Fin 3) * 1 + 1 * 0 = t.val % 6; omega
    | ⟨1, _⟩ => show win0_2.index t (1 : Fin 3) * 128 + 1 * j.val = j.val; omega
    | ⟨2, _⟩ => show win0_2.index t (2 : Fin 3) * 768 + 1 * ch.val = ch.val; omega
  rw [hi, part_at 768 (by omega)]

/-- The value weights' block: rows 1536 + pair*128 + j. -/
theorem blk_v (c : Dev nD) (t : Fin cfg0.N) (j : Fin 128) (ch : Fin 768) :
    (Gen.iblk (F := Ideal) m c 3 t : S1x128x768.Idx → EReal) (ix3 (0 : Fin 1) j ch)
      = (m ((c.tc : Thread nD τ).loc main_arg2) : S2304x768.Idx → EReal)
          (ix2 (⟨1536 + (pairOf t).val * 128 + j.val, by have := (pairOf t).isLt; have := j.isLt; omega⟩ : Fin 2304) ch) := by
  obtain ⟨e0, e1, e2⟩ := idx3 t
  show (Gen.V (F := Ideal) m c main_v8 : S6x128x768.Idx → EReal)
    (((cfg0.win 3).blk t).view.emb (ix3 (0 : Fin 1) j ch)) = _
  rw [V_v8]
  have hi : ((cfg0.win 3).blk t).view.emb (ix3 (0 : Fin 1) j ch) = ix3 (pairOf t) j ch := by
    funext a; apply Fin.ext
    match a with
    | ⟨0, _⟩ => show win0_3.index t (0 : Fin 3) * 1 + 1 * 0 = t.val % 6; omega
    | ⟨1, _⟩ => show win0_3.index t (1 : Fin 3) * 128 + 1 * j.val = j.val; omega
    | ⟨2, _⟩ => show win0_3.index t (2 : Fin 3) * 768 + 1 * ch.val = ch.val; omega
  rw [hi, part_at 1536 (by omega)]

/-- The output weight's block: the whole transposed array. -/
theorem blk_wo (c : Dev nD) (t : Fin cfg0.N) (ch o : Fin 768) :
    (Gen.iblk (F := Ideal) m c 4 t : S768x768.Idx → EReal) (ix2 ch o)
      = (m ((c.tc : Thread nD τ).loc main_arg3) : S768x768.Idx → EReal) (ix2 o ch) := by
  obtain ⟨e0, e1⟩ := idx4 t
  show (Gen.V (F := Ideal) m c main_v10 : S768x768.Idx → EReal) (((cfg0.win 4).blk t).view.emb (ix2 ch o)) = _
  rw [V_v10]
  have hi : ((cfg0.win 4).blk t).view.emb (ix2 ch o) = ix2 ch o := by
    funext a; apply Fin.ext
    match a with
    | ⟨0, _⟩ => show win0_4.index t (0 : Fin 2) * 768 + 1 * ch.val = ch.val; omega
    | ⟨1, _⟩ => show win0_4.index t (1 : Fin 2) * 768 + 1 * o.val = o.val; omega
  rw [hi]
  exact transpose_apply [1, 0] _ transposes_S768x768_S768x768_1_0 (ix2 ch o) (ix2 o ch) (fun b => match b with
    | ⟨0, _⟩ => rfl
    | ⟨1, _⟩ => rfl)

/-- The keep-mask's block: the row of batch t / 6. -/
theorem blk_pol (c : Dev nD) (t : Fin cfg0.N) (mm : Fin 1024) :
    (Gen.iblk (F := Ideal) m c 5 t : S1x1x1024.Idx → EReal) (ix3 (0 : Fin 1) (0 : Fin 1) mm)
      = (m ((c.tc : Thread nD τ).loc main_arg1) : S8x1024x1.Idx → EReal) (ix3 (batchOf t) mm (0 : Fin 1)) := by
  obtain ⟨e0, e1, e2⟩ := idx5 t
  have hb := (batchOf t).isLt; have hm := mm.isLt
  show (Gen.V (F := Ideal) m c main_v13 : S8x1x1024.Idx → EReal)
    (((cfg0.win 5).blk t).view.emb (ix3 (0 : Fin 1) (0 : Fin 1) mm)) = _
  rw [V_v13]
  have hi : ((cfg0.win 5).blk t).view.emb (ix3 (0 : Fin 1) (0 : Fin 1) mm) = ix3 (batchOf t) (0 : Fin 1) mm := by
    funext a; apply Fin.ext
    match a with
    | ⟨0, _⟩ => show win0_5.index t (0 : Fin 3) * 1 + 1 * 0 = t.val / 6; omega
    | ⟨1, _⟩ => show win0_5.index t (1 : Fin 3) * 1 + 1 * 0 = 0; omega
    | ⟨2, _⟩ => show win0_5.index t (2 : Fin 3) * 1024 + 1 * mm.val = mm.val; omega
  rw [hi, shapeCast_apply _ shapeCasts_S8x1024_S8x1x1024 (ix3 (batchOf t) (0 : Fin 1) mm) (ix2 (batchOf t) mm)
    (by rewrite [Shape.rowMajor_val_two, Shape.rowMajor_val_three]
        show (batchOf t).val * 1024 + mm.val = ((batchOf t).val * 1 + 0) * 1024 + mm.val; omega)]
  exact shapeCast_apply _ shapeCasts_S8x1024x1_S8x1024 (ix2 (batchOf t) mm) (ix3 (batchOf t) mm (0 : Fin 1))
    (by rewrite [Shape.rowMajor_val_three, Shape.rowMajor_val_two]
        show ((batchOf t).val * 1024 + mm.val) * 1 + 0 = (batchOf t).val * 1024 + mm.val; omega)

/-- The bias's block: the whole array. -/
theorem blk_bias (c : Dev nD) (t : Fin cfg0.N) (o : Fin 768) :
    (Gen.iblk (F := Ideal) m c 6 t : S1x768.Idx → EReal) (ix2 (0 : Fin 1) o)
      = (m ((c.tc : Thread nD τ).loc main_arg4) : S768.Idx → EReal) (ix1 o) := by
  obtain ⟨e0, e1⟩ := idx6 t
  show (Gen.V (F := Ideal) m c main_v14 : S1x768.Idx → EReal) (((cfg0.win 6).blk t).view.emb (ix2 (0 : Fin 1) o)) = _
  rw [V_v14]
  have hi : ((cfg0.win 6).blk t).view.emb (ix2 (0 : Fin 1) o) = ix2 (0 : Fin 1) o := by
    funext a; apply Fin.ext
    match a with
    | ⟨0, _⟩ => show win0_6.index t (0 : Fin 2) * 1 + 1 * 0 = 0; omega
    | ⟨1, _⟩ => show win0_6.index t (1 : Fin 2) * 768 + 1 * o.val = o.val; omega
  rw [hi]
  exact shapeCast_apply _ shapeCasts_S768_S1x768 (ix2 (0 : Fin 1) o) (ix1 o)
    (by rewrite [Shape.rowMajor_val_one, Shape.rowMajor_val_two]
        show o.val = 0 * 768 + o.val; omega)

end Cert.PolicyAttention.Blocks

end
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.PayloadProject.lean ====
/-
  The output block of the attention kernel, read at one entry.

  Entry (0, n, o) of the projected block is the sum over the 768 channels c of the gathered head outputs at (n, c)
  times the transposed projection weight at (c, o), plus the bias at o: the bias row is recast and then repeated
  down the 1024 rows, and the result gains a leading unit axis.
-/
import proofs.«154074_j30880814859134_2_alg».proof.Proof.Gen.KernelIdeal.Skeleton
import proofs.«154074_j30880814859134_2_alg».proof.Proof.LibPlainDot
import Idealize.ShloMosaic.Lib.ValueLayout
import Idealize.ShloMosaic.Lib.Pipeline.Value

noncomputable section

open scoped BigOperators

namespace Cert.PolicyAttention.Payload

open Idealize.ShloMosaic Idealize.ShloMosaic.ValueIdx Cert.KernelIdeal Cert.KernelIdeal.Gen

/-- The projected output block at (0, n, o): the row-by-column product plus the bias. -/
theorem pay10_apply (v25 : Vec Ideal S1024x768 .bf16) (v26 : Vec Ideal S768x768 .bf16) (v29 : Vec Ideal S1x768 .f32)
    (n : Fin 1024) (o : Fin 768) :
    k0_pay10 (F := Ideal) v25 v26 v29 (ix3 (0 : Fin 1) n o)
      = (∑ c : Fin 768, v25 (ix2 n c) * v26 (ix2 c o)) + v29 (ix2 (0 : Fin 1) o) := by
  unfold k0_pay10
  rw [shapeCast_ab_1ab_apply, addf_apply, PlainDot.matmul_apply _ ⟨rfl, rfl, rfl, rfl, rfl, rfl⟩, shapeCast_self,
    broadcastTo_1b_ab_apply, shapeCast_self, shapeCast_a_1a_apply, shapeCast_1a_a_apply]

end Cert.PolicyAttention.Payload

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibLayout.lean ====
/-
  Small layout facts read at an index, for two-dimensional arrays with a unit axis: a vector turned into a
  column, a column broadcast across columns. (The row forms and the plain transpose are in the library.)
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to the column shape `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element `[1]` array cast to `[1, 1]` reads the operand's one element. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show (0 : ℕ) = u.val * 1 + v.val
    rw [hu, hv])

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibLayout
-- ==== Proof.PayloadRowsDot.lean ====
/-
  The product of an [M, K] array with the transpose of an [N, K] array, read at one entry.

  Whatever record carries the dimension numbers of such a product (contract the columns of both operands, no batch
  axis), entry (p, q) of a kernel's product into a zero accumulator is the sum over k of left (p, k) times right (q, k).
-/
import Idealize.ShloMosaic.Lib.ValueIdx
import Idealize.ShloMosaic.PureOps.Ideal.Laws

noncomputable section

open scoped BigOperators

namespace Cert.RowsDot

open Idealize.ShloMosaic Idealize.ShloMosaic.ValueIdx

variable {M K N : ℕ}

/-- The dimension numbers of an M×K by (N×K)ᵀ product. -/
structure IsRows (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- The contraction's sum, re-indexed by the one contracted coordinate. -/
theorem contr_sum (d : DotDims ⟨2, ![M, K]⟩ ⟨2, ![N, K]⟩ ⟨2, ![M, N]⟩) (hd : IsRows d)
    (lhs : (⟨2, ![M, K]⟩ : Shape).Idx → EReal) (rhs : (⟨2, ![N, K]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 q k) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = d
  have hlc : d.lhsContracting = [1] := by rw [← hD]
  have hrc : d.rhsContracting = [1] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ =>
      subst hD
      unfold DotDims.rhsIdx
      dsimp only
      repeat' split
      all_goals first | rfl | (exfalso; simp_all)
    | ⟨1, _⟩ => exact (d.rhsIdx_val_of_single hrc _ _).trans hk)
  rw [el, er]

/-- A kernel's product into a zero accumulator at entry (p, q). -/
theorem matmul_apply {φ₁ φ₂ : FTy} (d : DotDims ⟨2, ![M, K]⟩ ⟨2, ![N, K]⟩ ⟨2, ![M, N]⟩) (hd : IsRows d)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  show FloatOps.matmul d prec lhs rhs (constant ⟨2, ![M, N]⟩ .f32 0x00000000#32) (ix2 p q) = _
  rw [Ideal.matmul_constant_zero_apply]
  exact contr_sum d hd lhs rhs p q

end Cert.RowsDot

end
-- ==== Proof.PayloadTrip.lean ====
/-
  The attention kernel's arithmetic for one grid point and one loop trip, read at one entry of the block the trip
  stores, against the specification of policy attention.

  The grid point is a batch b and a pair hp of heads (heads 2 hp and 2 hp + 1); trip k handles the query rows
  256 k … 256 k + 255. Column j of a 128-wide projection block belongs to head 2 hp + j / 64, channel j % 64 of that
  head. The lemmas go bottom-up: the three projections as sums over the 768 channels, their 64-wide halves, the scaled
  scores, the row maximum, the keep-mask with its diagonal of ones, the normalised weights, the product with the value
  projection, and the two heads' outputs laid side by side.
-/
import proofs.«154074_j30880814859134_2_alg».proof.Proof.Gen.KernelIdeal.Skeleton
import proofs.«154074_j30880814859134_2_alg».proof.Proof.AttnSpec
import proofs.«154074_j30880814859134_2_alg».proof.Proof.LibPlainDot
import proofs.«154074_j30880814859134_2_alg».proof.Proof.LibAxisFold
import proofs.«154074_j30880814859134_2_alg».proof.Proof.LibLayout
import proofs.«154074_j30880814859134_2_alg».proof.Proof.PayloadRowsDot
import Idealize.ShloMosaic.Lib.ValueLayout
import Idealize.ShloMosaic.Lib.Pipeline.Value

noncomputable section

open scoped BigOperators

namespace Cert.PolicyAttention.Payload

open Idealize.ShloMosaic Idealize.ShloMosaic.ValueIdx Cert.KernelIdeal Cert.KernelIdeal.Gen

/-! ## Indices -/

/-- The loop makes four trips. -/
theorem trips_eq : k0_t1_loop.trips = 4 := by decide

/-- Query row r of trip k, among the 1024 rows. -/
def qrow (k : Fin k0_t1_loop.trips) (r : Fin 256) : Fin 1024 :=
  ⟨256 * k.val + r.val, by have := k.isLt; have := trips_eq; have := r.isLt; omega⟩

/-- Head 2 hp + s of the pair hp (s = 0, 1). -/
def hd (hp : Fin 6) (s : Fin 2) : Fin 12 := ⟨2 * hp.val + s.val, by have := hp.isLt; have := s.isLt; omega⟩

/-- The head of column j of a 128-wide block of the pair hp. -/
def hdOf (hp : Fin 6) (j : Fin 128) : Fin 12 := ⟨2 * hp.val + j.val / 64, by have := hp.isLt; have := j.isLt; omega⟩

/-- The channel within its head of column j of a 128-wide block. -/
def chOf (j : Fin 128) : Fin 64 := ⟨j.val % 64, by omega⟩

/-- Column d of half s of a 128-wide block. -/
def colOf (s : Fin 2) (d : Fin 64) : Fin 128 := ⟨64 * s.val + d.val, by have := s.isLt; have := d.isLt; omega⟩

theorem hdOf_colOf (hp : Fin 6) (s : Fin 2) (d : Fin 64) : hdOf hp (colOf s d) = hd hp s :=
  Fin.ext (by show 2 * hp.val + (64 * s.val + d.val) / 64 = 2 * hp.val + s.val; have := d.isLt; omega)

theorem chOf_colOf (s : Fin 2) (d : Fin 64) : chOf (colOf s d) = d :=
  Fin.ext (by show (64 * s.val + d.val) % 64 = d.val; have := d.isLt; omega)

/-- Row part * 768 + hp * 128 + j of the stacked weight is the row of part `part`, head 2 hp + j / 64, channel j % 64. -/
theorem wrow_of_col (part : Fin 3) (hp : Fin 6) (j : Fin 128) (R : Fin 2304) (hR : R.val = part.val * 768 + hp.val * 128 + j.val) :
    R = wrow part (hdOf hp j) (chOf j) :=
  Fin.ext (by
    rw [hR]
    show part.val * 768 + hp.val * 128 + j.val = part.val * 768 + (2 * hp.val + j.val / 64) * 64 + j.val % 64
    omega)

/-! ## The projections -/

/-- The key (or value) projection of all 1024 rows, at (n, j): row n of the activations against row j of the weight block. -/
theorem pay4_raw (v0 : Vec Ideal S1x1024x768 .bf16) (v4 : Vec Ideal S1x128x768 .bf16) (n : Fin 1024) (j : Fin 128) :
    k0_pay4 (F := Ideal) v0 v4 (ix2 n j) = ∑ c : Fin 768, v0 (ix3 (0 : Fin 1) n c) * v4 (ix3 (0 : Fin 1) j c) := by
  unfold k0_pay4 k0_pay1
  rw [truncf_apply, RowsDot.matmul_apply _ ⟨rfl, rfl, rfl, rfl, rfl, rfl⟩]
  refine Finset.sum_congr rfl fun c _ => ?_
  rw [shapeCast_1ab_ab_apply, shapeCast_1ab_ab_apply]

/-- The second such projection is the same function of its operands. -/
theorem pay5_raw (v0 : Vec Ideal S1x1024x768 .bf16) (v6 : Vec Ideal S1x128x768 .bf16) (n : Fin 1024) (j : Fin 128) :
    k0_pay5 (F := Ideal) v0 v6 (ix2 n j) = ∑ c : Fin 768, v0 (ix3 (0 : Fin 1) n c) * v6 (ix3 (0 : Fin 1) j c) :=
  pay4_raw v0 v6 n j

/-- The scaled query projection of the trip's 256 rows, at (r, j). -/
theorem pay11_raw (v2 : Vec Ideal S1x128x768 .bf16) (v30 : Vec Ideal S1x256x768 .bf16) (r : Fin 256) (j : Fin 128) :
    k0_pay11 (F := Ideal) (k0_pay2 v2) v30 (ix2 r j)
      = (∑ c : Fin 768, v30 (ix3 (0 : Fin 1) r c) * v2 (ix3 (0 : Fin 1) j c)) * cScale := by
  unfold k0_pay11 k0_pay2
  rw [truncf_apply, mulf_apply, broadcast_apply, RowsDot.matmul_apply _ ⟨rfl, rfl, rfl, rfl, rfl, rfl⟩]
  refine congrArg (· * cScale) (Finset.sum_congr rfl fun c _ => ?_)
  rw [shapeCast_1ab_ab_apply, shapeCast_1ab_ab_apply]

section Spec

variable (x : XArr) (w : WArr) (b : Fin 8) (hp : Fin 6)

/-- A projection of all rows against weight rows part * 768 + hp * 128 + j, at (n, j), is the specification's. -/
theorem pay4_spec (part : Fin 3) (v0 : Vec Ideal S1x1024x768 .bf16) (vW : Vec Ideal S1x128x768 .bf16)
    (hx : ∀ n c, v0 (ix3 (0 : Fin 1) n c) = x (ix3 b n c))
    (hw : ∀ (j : Fin 128) c, ∃ R : Fin 2304, R.val = part.val * 768 + hp.val * 128 + j.val ∧ vW (ix3 (0 : Fin 1) j c) = w (ix2 R c))
    (n : Fin 1024) (j : Fin 128) :
    k0_pay4 (F := Ideal) v0 vW (ix2 n j) = proj x w part b (hdOf hp j) n (chOf j) := by
  rw [pay4_raw]
  unfold proj
  refine Finset.sum_congr rfl fun c _ => ?_
  obtain ⟨R, hR, hv⟩ := hw j c
  rw [hx, hv, wrow_of_col part hp j R hR]

/-- The scaled query projection of the trip's rows, at (r, j), is the specification's times the scale. -/
theorem pay11_spec (k : Fin k0_t1_loop.trips) (v2 : Vec Ideal S1x128x768 .bf16) (v30 : Vec Ideal S1x256x768 .bf16)
    (hxq : ∀ r c, v30 (ix3 (0 : Fin 1) r c) = x (ix3 b (qrow k r) c))
    (hw : ∀ (j : Fin 128) c, ∃ R : Fin 2304, R.val = (0 : Fin 3).val * 768 + hp.val * 128 + j.val ∧ v2 (ix3 (0 : Fin 1) j c) = w (ix2 R c))
    (r : Fin 256) (j : Fin 128) :
    k0_pay11 (F := Ideal) (k0_pay2 v2) v30 (ix2 r j) = proj x w 0 b (hdOf hp j) (qrow k r) (chOf j) * cScale := by
  rw [pay11_raw]
  unfold proj
  refine congrArg (· * cScale) (Finset.sum_congr rfl fun c _ => ?_)
  obtain ⟨R, hR, hv⟩ := hw j c
  rw [hxq, hv, wrow_of_col 0 hp j R hR]

end Spec

/-! ## The 64-wide halves of a 128-wide block -/

/-- Half 0 of an [N, 128] block, at (n, d), is the block at column d. -/
theorem half0_apply {α : Type} {N : ℕ} (X : (⟨2, ![N, 128]⟩ : Shape).Idx → α)
    (h : (⟨2, ![N, 128]⟩ : Shape).Slices ![0, 0] ⟨2, ![N, 64]⟩) (n : Fin N) (d : Fin 64) :
    extractStridedSlice ⟨2, ![N, 64]⟩ ![0, 0] X h (ix2 n d) = X (ix2 n (colOf 0 d)) :=
  slice2_axis1_apply 0 X h n d (colOf 0 d) (by simp [colOf])

/-- Half 1 of an [N, 128] block, at (n, d), is the block at column 64 + d. -/
theorem half1_apply {α : Type} {N : ℕ} (X : (⟨2, ![N, 128]⟩ : Shape).Idx → α)
    (h : (⟨2, ![N, 128]⟩ : Shape).Slices ![0, 64] ⟨2, ![N, 64]⟩) (n : Fin N) (d : Fin 64) :
    extractStridedSlice ⟨2, ![N, 64]⟩ ![0, 64] X h (ix2 n d) = X (ix2 n (colOf 1 d)) :=
  slice2_axis1_apply 64 X h n d (colOf 1 d) (by simp [colOf])

/-! ## The pieces of one head's attention, as functions of their operands -/

/-- The scores of one head: the scaled query half against the key half, contracting the 64 channels. -/
def scores (Q : FVec Ideal S256x64 .bf16) (Kh : FVec Ideal S1024x64 .bf16) : FVec Ideal S256x1024 .f32 :=
  matmul dot_S256x64_S1024x64_S256x1024_1_1_0_0_n_n none Q Kh (constant (F := Ideal) S256x1024 .f32 0x00000000#32)

/-- The row maximum of a score block, repeated along each row. -/
def rowMaxB (S : FVec Ideal S256x1024 .f32) : FVec Ideal S256x1024 .f32 :=
  broadcastTo S256x1024
    (shapeCast S256x1 (multiReduction (F := Ideal) .maximumf [1] S256 S 0xFF800000#32 reduces_S256x1024_S256 (.inl rfl) rfl)
      shapeCasts_S256_S256x1) broadcasts_S256x1_S256x1024

/-- The masked, shifted exponentials of a score block. -/
def wgtB (S Mx Mk : FVec Ideal S256x1024 .f32) : FVec Ideal S256x1024 .f32 := mulf (exp (subf S Mx)) Mk

/-- From the scores, their row maxima, the mask and the value half: the normalised weights times the values. -/
def tail (S Mx Mk : FVec Ideal S256x1024 .f32) (V : FVec Ideal S1024x64 .bf16) : FVec Ideal S256x64 .bf16 :=
  truncf .bf16
    (matmul dot_S256x1024_S1024x64_S256x64_1_0_0_1_n_n none
      (truncf .bf16
        (divf (addf (wgtB S Mx Mk) (broadcast S256x1024 (Scalar.ofBits (F := Ideal) .f32 0x308637BD#32)))
          (broadcastTo S256x1024
            (addf (shapeCast S256x1 (multiReduction (F := Ideal) .add [1] S256 (wgtB S Mx Mk) 0x00000000#32 reduces_S256x1024_S256 (.inl rfl) rfl)
                shapeCasts_S256_S256x1)
              (broadcast S256x1 (Scalar.ofBits (F := Ideal) .f32 0x358637BD#32)))
            broadcasts_S256x1_S256x1024))
        bitsLt_bf16_f32)
      V (constant (F := Ideal) S256x64 .f32 0x00000000#32))
    bitsLt_bf16_f32

theorem scores_apply (Q : FVec Ideal S256x64 .bf16) (Kh : FVec Ideal S1024x64 .bf16) (r : Fin 256) (m : Fin 1024) :
    scores Q Kh (ix2 r m) = ∑ d : Fin 64, Q (ix2 r d) * Kh (ix2 m d) :=
  RowsDot.matmul_apply _ ⟨rfl, rfl, rfl, rfl, rfl, rfl⟩ none Q Kh r m

theorem rowMaxB_apply (S : FVec Ideal S256x1024 .f32) (r : Fin 256) (m : Fin 1024) :
    rowMaxB S (ix2 r m) = (Finset.univ : Finset (Fin 1024)).fold max cNegInf fun m' => S (ix2 r m') := by
  unfold rowMaxB
  rw [LibLayout.broadcastTo_a1_ab_apply, LibLayout.shapeCast_a_a1_apply]
  exact AxisFold.row_max S _ reduces_S256x1024_S256 (.inl rfl) rfl r

theorem wgtB_apply (S Mx Mk : FVec Ideal S256x1024 .f32) (r : Fin 256) (m : Fin 1024) :
    wgtB S Mx Mk (ix2 r m) = Ideal.exp (S (ix2 r m) - Mx (ix2 r m)) * Mk (ix2 r m) := rfl

theorem tail_apply (S Mx Mk : FVec Ideal S256x1024 .f32) (V : FVec Ideal S1024x64 .bf16) (r : Fin 256) (d : Fin 64) :
    tail S Mx Mk V (ix2 r d)
      = ∑ m : Fin 1024, Ideal.div (wgtB S Mx Mk (ix2 r m) + cEpsN) ((∑ m' : Fin 1024, wgtB S Mx Mk (ix2 r m')) + cEps) * V (ix2 m d) := by
  unfold tail
  rw [truncf_apply, PlainDot.matmul_apply _ ⟨rfl, rfl, rfl, rfl, rfl, rfl⟩]
  refine Finset.sum_congr rfl fun m _ => ?_
  rw [truncf_apply, divf_apply, addf_apply, broadcast_apply, LibLayout.broadcastTo_a1_ab_apply, addf_apply,
    LibLayout.shapeCast_a_a1_apply, broadcast_apply]
  exact congrArg (fun t => Ideal.div (wgtB S Mx Mk (ix2 r m) + cEpsN) (t + cEps) * V (ix2 m d))
    (AxisFold.row_sum (wgtB S Mx Mk) reduces_S256x1024_S256 (.inl rfl) rfl r)

/-! ## The payloads as compositions of those pieces -/

theorem pay14_eq (v3 : FVec Ideal S128x768 .bf16) (v15 : FVec Ideal S1024x64 .bf16) (v30 : Vec Ideal S1x256x768 .bf16) :
    k0_pay14 (F := Ideal) v3 v15 v30
      = scores (extractStridedSlice S256x64 ![0, 64] (k0_pay11 v3 v30) slices_S256x128_o0_64_S256x64) v15 := rfl

theorem pay15_eq (v3 : FVec Ideal S128x768 .bf16) (v15 : FVec Ideal S1024x64 .bf16) (v30 : Vec Ideal S1x256x768 .bf16) :
    k0_pay15 (F := Ideal) v3 v15 v30 = rowMaxB (k0_pay14 v3 v15 v30) := rfl

theorem pay13_eq (v3 : FVec Ideal S128x768 .bf16) (v9 : FVec Ideal S1x1024 .f32) (v14 v16 : FVec Ideal S1024x64 .bf16)
    (v18 : IVec S256x1024 32) (c0 c1 : BitVec 32) (k : Fin k0_t1_loop.trips) (v30 : Vec Ideal S1x256x768 .bf16) :
    k0_pay13 (F := Ideal) v3 v9 v14 v16 v18 c0 c1 k v30
      = tail (scores (extractStridedSlice S256x64 ![0, 0] (k0_pay11 v3 v30) slices_S256x128_o0_0_S256x64) v14)
          (rowMaxB (scores (extractStridedSlice S256x64 ![0, 0] (k0_pay11 v3 v30) slices_S256x128_o0_0_S256x64) v14))
          (k0_pay12 v9 v18 c0 c1 k) v16 := rfl

theorem pay9_eq (v0 : Vec Ideal S1x1024x768 .bf16) (v6 : Vec Ideal S1x128x768 .bf16) (v45 : FVec Ideal S256x1024 .f32)
    (v63 : FVec Ideal S256x64 .bf16) (v64 v67 : FVec Ideal S256x1024 .f32) :
    k0_pay9 (F := Ideal) v0 v6 v45 v63 v64 v67
      = shapeCast S256x128
          (concatenate S256x128 1
            [⟨S256x64, v63⟩,
             ⟨S256x64, tail v64 v67 v45 (extractStridedSlice S1024x64 ![0, 64] (k0_pay5 v0 v6) slices_S1024x128_o0_64_S1024x64)⟩]
            concatenates_S256x64_S256x64_S256x128_d1)
          shapeCasts_S256x128_S256x128 := rfl

/-! ## The keep-mask with its diagonal of ones -/

/-- The word of the trip's first query row is 256 k. -/
theorem rowWord (k : Fin k0_t1_loop.trips) :
    Scalar.muli (Scalar.addi 0#32 (Scalar.muli (Scf.iv 0#32 1#32 k) 1#32)) 256#32 = BitVec.ofNat 32 (256 * k.val) := by
  revert k
  decide +kernel

/-- The comparison of the query row's word 256 k + r with the key row's word m says whether they are the same row:
    both are below 1024, so the 32-bit words are equal exactly when the numbers are. -/
theorem diagBit (k : Fin k0_t1_loop.trips) (r : Fin 256) (m : Fin 1024) :
    IntOp.cmpi .eq (IntOp.addi (BitVec.ofNat 32 r.val) (BitVec.ofNat 32 (256 * k.val))) (BitVec.ofNat 32 m.val)
      = if (qrow k r).val = m.val then 1#1 else 0#1 := by
  have hk := k.isLt
  have ht := trips_eq
  have hr := r.isLt
  have hm := m.isLt
  have ha : IntOp.addi (BitVec.ofNat 32 r.val) (BitVec.ofNat 32 (256 * k.val)) = BitVec.ofNat 32 (256 * k.val + r.val) := by
    show BitVec.ofNat 32 r.val + BitVec.ofNat 32 (256 * k.val) = _
    rw [← BitVec.ofNat_add, Nat.add_comm]
  rw [ha]
  show BitVec.ofBool (BitVec.ofNat 32 (256 * k.val + r.val) == BitVec.ofNat 32 m.val)
    = if 256 * k.val + r.val = m.val then 1#1 else 0#1
  by_cases h : 256 * k.val + r.val = m.val
  · rw [if_pos h, h]
    simp
  · rw [if_neg h]
    have hne : BitVec.ofNat 32 (256 * k.val + r.val) ≠ BitVec.ofNat 32 m.val := fun e => h (by
      have e' := congrArg BitVec.toNat e
      rw [BitVec.toNat_ofNat, BitVec.toNat_ofNat, Nat.mod_eq_of_lt (by omega), Nat.mod_eq_of_lt (by omega)] at e'
      exact e')
    have hb : (BitVec.ofNat 32 (256 * k.val + r.val) == BitVec.ofNat 32 m.val) = false := beq_eq_false_iff_ne.mpr hne
    rw [hb]
    rfl

/-- The mask block at (r, m): one on the diagonal (query row 256 k + r against key row m), the policy entry of key
    row m elsewhere. -/
theorem pay12_apply (v8 : Vec Ideal S1x1x1024 .f32) (k : Fin k0_t1_loop.trips) (r : Fin 256) (m : Fin 1024) :
    k0_pay12 (F := Ideal) (k0_pay3 v8) (iota .tc S256x1024 32 [1] iota_S256x1024_d1_w32) 0#32 1#32 k (ix2 r m)
      = if (qrow k r).val = m.val then cOne else v8 (ix3 (0 : Fin 1) (0 : Fin 1) m) := by
  show Scalar.select
      (IntOp.cmpi .eq
        (IntOp.addi (iota .tc S256x1024 32 [0] iota_S256x1024_d0_w32 (ix2 r m))
          (Scalar.muli (Scalar.addi 0#32 (Scalar.muli (Scf.iv 0#32 1#32 k) 1#32)) 256#32))
        (iota .tc S256x1024 32 [1] iota_S256x1024_d1_w32 (ix2 r m)))
      cOne
      (broadcastTo S256x1024
        (shapeCast S1x1024 (shapeCast S1x1024 v8 shapeCasts_S1x1x1024_S1x1024) shapeCasts_S1x1024_S1x1024)
        broadcasts_S1x1024_S256x1024 (ix2 r m)) = _
  rw [rowWord, iota_single_apply, iota_single_apply, broadcastTo_1b_ab_apply, shapeCast_self, shapeCast_1ab_ab_apply]
  show Scalar.select
      (IntOp.cmpi .eq (IntOp.addi (BitVec.ofNat 32 r.val) (BitVec.ofNat 32 (256 * k.val))) (BitVec.ofNat 32 m.val)) _ _ = _
  rw [diagBit]
  by_cases h : (qrow k r).val = m.val
  · rw [if_pos h, if_pos h, select_one]
  · rw [if_neg h, if_neg h, select_zero]

/-! ## Against the specification -/

section Assemble

variable (x : XArr) (p : PArr) (w : WArr) (b : Fin 8) (hp : Fin 6) (k : Fin k0_t1_loop.trips)

/-- The scores of a head from its scaled query half and its key half. -/
theorem scores_spec (h : Fin 12) (Q : FVec Ideal S256x64 .bf16) (Kh : FVec Ideal S1024x64 .bf16) (r : Fin 256)
    (hQ : ∀ d, Q (ix2 r d) = proj x w 0 b h (qrow k r) d * cScale) (hK : ∀ m d, Kh (ix2 m d) = proj x w 1 b h m d)
    (m : Fin 1024) : scores Q Kh (ix2 r m) = score x w b h (qrow k r) m := by
  rw [scores_apply]
  unfold score
  exact Finset.sum_congr rfl fun d _ => by rw [hQ, hK]

/-- The repeated row maximum of a head's scores. -/
theorem rowMaxB_spec (h : Fin 12) (S : FVec Ideal S256x1024 .f32) (r : Fin 256)
    (hS : ∀ m, S (ix2 r m) = score x w b h (qrow k r) m) (m : Fin 1024) :
    rowMaxB S (ix2 r m) = rowMax x w b h (qrow k r) := by
  rw [rowMaxB_apply]
  unfold rowMax
  exact congrArg (fun f => Finset.fold max cNegInf f (Finset.univ : Finset (Fin 1024))) (funext hS)

/-- The mask block is the specification's mask of the trip's rows. -/
theorem pay12_spec (v8 : Vec Ideal S1x1x1024 .f32) (hpol : ∀ m, v8 (ix3 (0 : Fin 1) (0 : Fin 1) m) = p (ix3 b m (0 : Fin 1)))
    (r : Fin 256) (m : Fin 1024) :
    k0_pay12 (F := Ideal) (k0_pay3 v8) (iota .tc S256x1024 32 [1] iota_S256x1024_d1_w32) 0#32 1#32 k (ix2 r m)
      = mask p b (qrow k r) m := by
  rw [pay12_apply, hpol]
  rfl

/-- One head's output from its scores, their row maxima, the mask and its value half. -/
theorem tail_spec (h : Fin 12) (S Mx Mk : FVec Ideal S256x1024 .f32) (V : FVec Ideal S1024x64 .bf16) (r : Fin 256)
    (hS : ∀ m, S (ix2 r m) = score x w b h (qrow k r) m)
    (hMx : ∀ m, Mx (ix2 r m) = rowMax x w b h (qrow k r))
    (hMk : ∀ m, Mk (ix2 r m) = mask p b (qrow k r) m)
    (hV : ∀ m d, V (ix2 m d) = proj x w 2 b h m d) (d : Fin 64) :
    tail S Mx Mk V (ix2 r d) = headOut x p w b h (qrow k r) d := by
  rw [tail_apply]
  have hW : ∀ m, wgtB S Mx Mk (ix2 r m) = weight x p w b h (qrow k r) m := fun m => by
    rw [wgtB_apply, hS, hMx, hMk]
    rfl
  unfold headOut prob denom
  refine Finset.sum_congr rfl fun m _ => ?_
  rw [hW, hV, Finset.sum_congr rfl fun m' _ => hW m']

end Assemble

/-! ## The block a trip stores -/

/-- The column number along each row of a [256, 1024] block: the second operand of the mask's comparison. -/
abbrev colIota : IVec S256x1024 32 := iota .tc S256x1024 32 [1] iota_S256x1024_d1_w32

section Halves

variable {α : Type} {N : ℕ} (hp : Fin 6) (P : Fin 12 → Fin N → Fin 64 → α) (X : (⟨2, ![N, 128]⟩ : Shape).Idx → α)
  (hX : ∀ n j, X (ix2 n j) = P (hdOf hp j) n (chOf j))

include hX

/-- Half 0 of a 128-wide block of the pair hp belongs to head 2 hp. -/
theorem half0_spec (h : (⟨2, ![N, 128]⟩ : Shape).Slices ![0, 0] ⟨2, ![N, 64]⟩) (n : Fin N) (d : Fin 64) :
    extractStridedSlice ⟨2, ![N, 64]⟩ ![0, 0] X h (ix2 n d) = P (hd hp 0) n d := by
  rw [half0_apply, hX, hdOf_colOf, chOf_colOf]

/-- Half 1 of a 128-wide block of the pair hp belongs to head 2 hp + 1. -/
theorem half1_spec (h : (⟨2, ![N, 128]⟩ : Shape).Slices ![0, 64] ⟨2, ![N, 64]⟩) (n : Fin N) (d : Fin 64) :
    extractStridedSlice ⟨2, ![N, 64]⟩ ![0, 64] X h (ix2 n d) = P (hd hp 1) n d := by
  rw [half1_apply, hX, hdOf_colOf, chOf_colOf]

end Halves

section Main

variable (x : XArr) (p : PArr) (w : WArr) (b : Fin 8) (hp : Fin 6) (k : Fin k0_t1_loop.trips)
  (v0 : Vec Ideal S1x1024x768 .bf16) (v2 v4 v6 : Vec Ideal S1x128x768 .bf16) (v8 : Vec Ideal S1x1x1024 .f32)
  (v30 : Vec Ideal S1x256x768 .bf16)
  (hx : ∀ n c, v0 (ix3 (0 : Fin 1) n c) = x (ix3 b n c))
  (hq : ∀ (j : Fin 128) c, v2 (ix3 (0 : Fin 1) j c)
    = w (ix2 ⟨hp.val * 128 + j.val, by have := hp.isLt; have := j.isLt; omega⟩ c))
  (hk : ∀ (j : Fin 128) c, v4 (ix3 (0 : Fin 1) j c)
    = w (ix2 ⟨768 + hp.val * 128 + j.val, by have := hp.isLt; have := j.isLt; omega⟩ c))
  (hv : ∀ (j : Fin 128) c, v6 (ix3 (0 : Fin 1) j c)
    = w (ix2 ⟨1536 + hp.val * 128 + j.val, by have := hp.isLt; have := j.isLt; omega⟩ c))
  (hpol : ∀ m, v8 (ix3 (0 : Fin 1) (0 : Fin 1) m) = p (ix3 b m (0 : Fin 1)))
  (hxq : ∀ r c, v30 (ix3 (0 : Fin 1) r c) = x (ix3 b (qrow k r) c))

include hx hk in
/-- The key projection block, column by column. -/
theorem keys_spec (n : Fin 1024) (j : Fin 128) :
    k0_pay4 (F := Ideal) v0 v4 (ix2 n j) = proj x w 1 b (hdOf hp j) n (chOf j) :=
  pay4_spec x w b hp 1 v0 v4 hx
    (fun j c => ⟨_, by show 768 + hp.val * 128 + j.val = 1 * 768 + hp.val * 128 + j.val; omega, hk j c⟩) n j

include hx hv in
/-- The value projection block, column by column. -/
theorem vals_spec (n : Fin 1024) (j : Fin 128) :
    k0_pay5 (F := Ideal) v0 v6 (ix2 n j) = proj x w 2 b (hdOf hp j) n (chOf j) :=
  pay4_spec x w b hp 2 v0 v6 hx
    (fun j c => ⟨_, by show 1536 + hp.val * 128 + j.val = 2 * 768 + hp.val * 128 + j.val; omega, hv j c⟩) n j

include hxq hq in
/-- The scaled query projection block of the trip, column by column. -/
theorem qrys_spec (r : Fin 256) (j : Fin 128) :
    k0_pay11 (F := Ideal) (k0_pay2 v2) v30 (ix2 r j) = proj x w 0 b (hdOf hp j) (qrow k r) (chOf j) * cScale :=
  pay11_spec x w b hp k v2 v30 hxq
    (fun j c => ⟨_, by show hp.val * 128 + j.val = 0 * 768 + hp.val * 128 + j.val; omega, hq j c⟩) r j

include hx hk in
/-- The key half of head 2 hp. -/
theorem key0 (n : Fin 1024) (d : Fin 64) : k0_pay6 (F := Ideal) v0 v4 (ix2 n d) = proj x w 1 b (hd hp 0) n d :=
  half0_spec hp (fun h n d => proj x w 1 b h n d) (k0_pay4 (F := Ideal) v0 v4) (keys_spec x w b hp v0 v4 hx hk)
    slices_S1024x128_o0_0_S1024x64 n d

include hx hk in
/-- The key half of head 2 hp + 1. -/
theorem key1 (n : Fin 1024) (d : Fin 64) : k0_pay7 (F := Ideal) v0 v4 (ix2 n d) = proj x w 1 b (hd hp 1) n d :=
  half1_spec hp (fun h n d => proj x w 1 b h n d) (k0_pay4 (F := Ideal) v0 v4) (keys_spec x w b hp v0 v4 hx hk)
    slices_S1024x128_o0_64_S1024x64 n d

include hx hv in
/-- The value half of head 2 hp. -/
theorem val0 (n : Fin 1024) (d : Fin 64) : k0_pay8 (F := Ideal) v0 v6 (ix2 n d) = proj x w 2 b (hd hp 0) n d :=
  half0_spec hp (fun h n d => proj x w 2 b h n d) (k0_pay5 (F := Ideal) v0 v6) (vals_spec x w b hp v0 v6 hx hv)
    slices_S1024x128_o0_0_S1024x64 n d

include hx hv in
/-- The value half of head 2 hp + 1. -/
theorem val1 (n : Fin 1024) (d : Fin 64) :
    extractStridedSlice S1024x64 ![0, 64] (k0_pay5 (F := Ideal) v0 v6) slices_S1024x128_o0_64_S1024x64 (ix2 n d)
      = proj x w 2 b (hd hp 1) n d :=
  half1_spec hp (fun h n d => proj x w 2 b h n d) (k0_pay5 (F := Ideal) v0 v6) (vals_spec x w b hp v0 v6 hx hv)
    slices_S1024x128_o0_64_S1024x64 n d

include hxq hq in
/-- The scaled query half of head 2 hp. -/
theorem qry0 (r : Fin 256) (d : Fin 64) :
    extractStridedSlice S256x64 ![0, 0] (k0_pay11 (F := Ideal) (k0_pay2 v2) v30) slices_S256x128_o0_0_S256x64 (ix2 r d)
      = proj x w 0 b (hd hp 0) (qrow k r) d * cScale :=
  half0_spec hp (fun h r d => proj x w 0 b h (qrow k r) d * cScale) (k0_pay11 (F := Ideal) (k0_pay2 v2) v30)
    (qrys_spec x w b hp k v2 v30 hq hxq) slices_S256x128_o0_0_S256x64 r d

include hxq hq in
/-- The scaled query half of head 2 hp + 1. -/
theorem qry1 (r : Fin 256) (d : Fin 64) :
    extractStridedSlice S256x64 ![0, 64] (k0_pay11 (F := Ideal) (k0_pay2 v2) v30) slices_S256x128_o0_64_S256x64 (ix2 r d)
      = proj x w 0 b (hd hp 1) (qrow k r) d * cScale :=
  half1_spec hp (fun h r d => proj x w 0 b h (qrow k r) d * cScale) (k0_pay11 (F := Ideal) (k0_pay2 v2) v30)
    (qrys_spec x w b hp k v2 v30 hq hxq) slices_S256x128_o0_64_S256x64 r d

include hx hq hk hxq in
/-- The scores of head 2 hp. -/
theorem score0 (r : Fin 256) (m : Fin 1024) :
    scores (extractStridedSlice S256x64 ![0, 0] (k0_pay11 (F := Ideal) (k0_pay2 v2) v30) slices_S256x128_o0_0_S256x64)
        (k0_pay6 v0 v4) (ix2 r m) = score x w b (hd hp 0) (qrow k r) m :=
  by
  have hQ := fun d => qry0 x w b hp k v2 v30 hq hxq r d
  have hK := fun m d => key0 x w b hp v0 v4 hx hk m d
  have hh := scores_spec x w b k (hd hp 0) _ _ r hQ hK m
  exact hh

include hx hq hk hxq in
/-- The scores of head 2 hp + 1. -/
theorem score1 (r : Fin 256) (m : Fin 1024) :
    k0_pay14 (F := Ideal) (k0_pay2 v2) (k0_pay7 v0 v4) v30 (ix2 r m) = score x w b (hd hp 1) (qrow k r) m := by
  have hQ := fun d => qry1 x w b hp k v2 v30 hq hxq r d
  have hK := fun m d => key1 x w b hp v0 v4 hx hk m d
  have hh := scores_spec x w b k (hd hp 1) _ _ r hQ hK m
  rw [pay14_eq]
  exact hh

include hx hq hk hv hpol hxq in
/-- Head 2 hp of the trip: what the first 64 columns of the stored block hold. -/
theorem out0_spec (r : Fin 256) (d : Fin 64) :
    k0_pay13 (F := Ideal) (k0_pay2 v2) (k0_pay3 v8) (k0_pay6 v0 v4) (k0_pay8 v0 v6) colIota 0#32 1#32 k v30 (ix2 r d)
      = headOut x p w b (hd hp 0) (qrow k r) d := by
  have hS := fun m => score0 x w b hp k v0 v2 v4 v30 hx hq hk hxq r m
  have hMx := fun m => rowMaxB_spec x w b k (hd hp 0) _ r hS m
  have hMk := fun m => pay12_spec p b k v8 hpol r m
  have hV := fun m d => val0 x w b hp v0 v6 hx hv m d
  have hh := tail_spec x p w b k (hd hp 0) _ _ _ _ r hS hMx hMk hV d
  rw [pay13_eq]
  exact hh

include hx hq hk hv hpol hxq in
/-- Head 2 hp + 1 of the trip: what the last 64 columns of the stored block hold. -/
theorem out1_spec (r : Fin 256) (d : Fin 64) :
    tail (k0_pay14 (F := Ideal) (k0_pay2 v2) (k0_pay7 v0 v4) v30) (k0_pay15 (k0_pay2 v2) (k0_pay7 v0 v4) v30)
        (k0_pay12 (k0_pay3 v8) colIota 0#32 1#32 k)
        (extractStridedSlice S1024x64 ![0, 64] (k0_pay5 v0 v6) slices_S1024x128_o0_64_S1024x64) (ix2 r d)
      = headOut x p w b (hd hp 1) (qrow k r) d := by
  have hS := fun m => score1 x w b hp k v0 v2 v4 v30 hx hq hk hxq r m
  have hMx : ∀ m, k0_pay15 (F := Ideal) (k0_pay2 v2) (k0_pay7 v0 v4) v30 (ix2 r m) = rowMax x w b (hd hp 1) (qrow k r) :=
    fun m => by
      have hh := rowMaxB_spec x w b k (hd hp 1) _ r hS m
      rw [pay15_eq]
      exact hh
  have hMk := fun m => pay12_spec p b k v8 hpol r m
  have hV := fun m d => val1 x w b hp v0 v6 hx hv m d
  have hh := tail_spec x p w b k (hd hp 1) _ _ _ _ r hS hMx hMk hV d
  exact hh

include hx hq hk hv hpol hxq in
/-- The block trip k stores, at (r, j): the output of head 2 hp + j / 64 at query row 256 k + r, channel j % 64. -/
theorem trip_block (r : Fin 256) (j : Fin 128) :
    k0_pay9 (F := Ideal) v0 v6 (k0_pay12 (k0_pay3 v8) colIota 0#32 1#32 k)
        (k0_pay13 (k0_pay2 v2) (k0_pay3 v8) (k0_pay6 v0 v4) (k0_pay8 v0 v6) colIota 0#32 1#32 k v30)
        (k0_pay14 (k0_pay2 v2) (k0_pay7 v0 v4) v30) (k0_pay15 (k0_pay2 v2) (k0_pay7 v0 v4) v30) (ix2 r j)
      = headOut x p w b (hdOf hp j) (qrow k r) (chOf j) := by
  rw [pay9_eq, shapeCast_self]
  by_cases hj : j.val < 64
  · have e1 : hdOf hp j = hd hp 0 := Fin.ext (by show 2 * hp.val + j.val / 64 = 2 * hp.val + 0; omega)
    have e2 : chOf j = ⟨j.val, hj⟩ := Fin.ext (by show j.val % 64 = j.val; omega)
    rw [e1, e2]
    have ho := out0_spec x p w b hp k v0 v2 v4 v6 v8 v30 hx hq hk hv hpol hxq r ⟨j.val, hj⟩
    refine (concatenate_pair_apply_left (t := S256x128) (s₁ := S256x64) (s₂ := S256x64) 1 _ _ _ (ix2 r j) rfl
      (ix2 r (⟨j.val, hj⟩ : Fin 64)) fun a => ?_).trans ho
    match a with
    | ⟨0, _⟩ => rfl
    | ⟨1, _⟩ => rfl
  · have hj' : j.val - 64 < 64 := by have := j.isLt; omega
    have e1 : hdOf hp j = hd hp 1 := Fin.ext (by show 2 * hp.val + j.val / 64 = 2 * hp.val + 1; have := j.isLt; omega)
    have e2 : chOf j = ⟨j.val - 64, hj'⟩ := Fin.ext (by show j.val % 64 = j.val - 64; have := j.isLt; omega)
    rw [e1, e2]
    have ho := out1_spec x p w b hp k v0 v2 v4 v6 v8 v30 hx hq hk hv hpol hxq r ⟨j.val - 64, hj'⟩
    refine (concatenate_pair_apply_right (t := S256x128) (s₁ := S256x64) (s₂ := S256x64) 1 _ _ _ (ix2 r j) rfl rfl
      (ix2 r (⟨j.val - 64, hj'⟩ : Fin 64)) (fun a => ?_) ?_).trans ho
    · match a with
      | ⟨0, _⟩ => exact fun _ => rfl
      | ⟨1, _⟩ => exact fun hne => absurd rfl hne
    · show j.val - 64 + 64 = j.val
      omega

end Main

end Cert.PolicyAttention.Payload

end
-- ==== Proof.KernelIdeal.BlockValue.lean ====
/-
  What the kernel's body computes at a grid point, in terms of the argument arrays.

  A whole block loaded from a buffer holding x is x; trip k's query rows are rows 256 k + r of the activations' block.
  With the blocks of grid point t (batch t / 6, head pair t % 6) in the staging buffers, the scratch inside the current pair's
  128 columns holds, at row n and column j of the pair, the output of head 2 * pair + j / 64 at row n, channel j % 64; and
  the projection of a scratch that holds every head's output is the specification's result row by row.
-/
import proofs.«154074_j30880814859134_2_alg».proof.Proof.KernelIdeal.Scratch
import proofs.«154074_j30880814859134_2_alg».proof.Proof.WindowBlocks
import proofs.«154074_j30880814859134_2_alg».proof.Proof.AttnSpec
import proofs.«154074_j30880814859134_2_alg».proof.Proof.PayloadProject
import proofs.«154074_j30880814859134_2_alg».proof.Proof.PayloadTrip

set_option maxRecDepth 16384

noncomputable section

open scoped BigOperators

namespace Cert.PolicyAttention.AtPoint

open Cert.KernelIdeal Cert.KernelIdeal.Gen Cert.KernelIdeal.Body Idealize.ShloMosaic Idealize.ShloMosaic.TcCoe Idealize.ShloMosaic.ValueIdx
  Idealize.SL.Sem Cert.PolicyAttention Cert.PolicyAttention.Blocks

/-! ## Loads -/

section Loads

variable {F : FTy → Type} [FloatOps F]

theorem zero3 : (![0, 0, 0] : Fin 3 → Nat) = fun _ => 0 := funext fun a => by fin_cases a <;> rfl

theorem zero2 : (![0, 0] : Fin 2 → Nat) = fun _ => 0 := funext fun a => by fin_cases a <;> rfl

/-- A whole block loaded from a whole buffer holding x is x. -/
theorem ld3_eq {S : Shape} {e : EltTy} (a : Memref sig .tc .vmem S e) (ha : a.IsWhole) (z : Fin S.rank → Nat)
    (hz0 : z = fun _ => 0) (hz : ∀ d, z d + S.size d ≤ S.size d) (x : S.Idx → Elt F e) :
    ld3 a ha z hz x = x :=
  (View.readAt_eq_ld a.view (ha.unread x) (Rect.unit (s := S) z S.size hz)).trans
    ((congrArg (fun X => View.ld X (Rect.unit (s := S) z S.size hz)) (ha.read_unread x)).trans
      (View.ld_unit_zero hz0 hz x))

/-- The same for a load written out in full. -/
theorem readAt_whole_eq {S : Shape} {e : EltTy} (a : Memref sig .tc .vmem S e) (ha : a.IsWhole) (z : Fin S.rank → Nat)
    (hz0 : z = fun _ => 0) (hz : ∀ d, z d + S.size d ≤ S.size d) (x : S.Idx → Elt F e) :
    View.readAt (Elt F) a.view (Rect.unit (s := S) z S.size hz).toLoadRect (ha.unread x) = x :=
  ld3_eq a ha z hz0 hz x

/-- Trip k reads its query rows at row offset 256 k. -/
theorem off1_eq : ∀ k : Fin k0_t1_loop.trips, k0_off1 k = ![0, 256 * k.val, 0] := by decide +kernel

/-- Trip k's query rows: row r of them is row 256 k + r of the activations' block. -/
theorem queryRows_apply (arg2 : Memref sig .tc .vmem S1x1024x768 .bf16) (harg2 : arg2.IsWhole)
    (x0 : Vec F S1x1024x768 .bf16) (k : Fin k0_t1_loop.trips) (r : Fin 256) (ch : Fin 768) :
    queryRows arg2 (harg2.unread x0) k (ix3 (0 : Fin 1) r ch)
      = x0 (ix3 (0 : Fin 1) (⟨256 * k.val + r.val, by
          have hk : k.val < 4 := lt_of_lt_of_eq k.isLt trips_eq
          have := r.isLt; omega⟩ : Fin 1024) ch) := by
  show View.ld (arg2.view.read (Elt F) (harg2.unread x0))
    (Rect.unit (s := S1x1024x768) (k0_off1 k) S1x256x768.size (k0_off1_inb k)) (ix3 (0 : Fin 1) r ch) = _
  rw [harg2.read_unread]
  refine congrArg x0 ?_
  funext a; apply Fin.ext
  match a with
  | ⟨0, _⟩ => show k0_off1 k 0 + 1 * 0 = 0; rw [off1_eq]; rfl
  | ⟨1, _⟩ => show k0_off1 k 1 + 1 * r.val = 256 * k.val + r.val; rw [off1_eq]; show 256 * k.val + 1 * r.val = _; omega
  | ⟨2, _⟩ => show k0_off1 k 2 + 1 * ch.val = ch.val; rw [off1_eq]; show 0 + 1 * ch.val = _; omega

end Loads

/-! ## The values at a grid point -/

variable (m : (ℓ : Loc nD τ sig) → Buf (Elt Ideal) ℓ)

/-- The projection of a scratch holding every head's output of batch b is the specification's result for batch b. -/
theorem project_value (c : Dev nD) (t : Fin cfg0.N) (b : Fin 8) (S : Vec Ideal S1024x768 .bf16)
    (hS : ∀ (n : Fin 1024) (cc : Fin 768), S (ix2 n cc)
      = headOut (m ((c.tc : Thread nD τ).loc main_arg0)) (m ((c.tc : Thread nD τ).loc main_arg1))
          (m ((c.tc : Thread nD τ).loc main_arg2)) b (headOf cc) n (chanOf cc))
    (n : Fin 1024) (o : Fin 768) :
    k0_pay10 (F := Ideal) S (Gen.iblk (F := Ideal) m c 4 t) (Gen.iblk (F := Ideal) m c 6 t) (ix3 (0 : Fin 1) n o)
      = outAt (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b n o := by
  refine (Cert.PolicyAttention.Payload.pay10_apply S _ _ n o).trans ?_
  unfold outAt
  refine congrArg₂ (· + ·) (Finset.sum_congr rfl fun cc _ => ?_) (blk_bias m c t o)
  exact congrArg₂ (· * ·) (hS n cc) (blk_wo m c t cc o)

/-- Inside the current pair's 128 columns the scratch holds the pair's two heads' outputs. -/
theorem band_value (c : Dev nD) (t : Fin cfg0.N) (arg2 : Memref sig .tc .vmem S1x1024x768 .bf16) (harg2 : arg2.IsWhole) (arg3 : Memref sig .tc .vmem S1x128x768 .bf16) (harg3 : arg3.IsWhole) (arg4 : Memref sig .tc .vmem S1x128x768 .bf16) (harg4 : arg4.IsWhole) (arg5 : Memref sig .tc .vmem S1x128x768 .bf16) (harg5 : arg5.IsWhole) (arg7 : Memref sig .tc .vmem S1x1x1024 .f32) (harg7 : arg7.IsWhole) (y : S1024x768.Idx) :
    bandBlock (F := Ideal) arg2 harg2 arg3 harg3 arg4 harg4 arg5 harg5 arg7 harg7
        (Gen.iblk (F := Ideal) m c 0 t) (Gen.iblk (F := Ideal) m c 1 t) (Gen.iblk (F := Ideal) m c 2 t)
        (Gen.iblk (F := Ideal) m c 3 t) (Gen.iblk (F := Ideal) m c 5 t) y
      = headOut (m ((c.tc : Thread nD τ).loc main_arg0)) (m ((c.tc : Thread nD τ).loc main_arg1))
          (m ((c.tc : Thread nD τ).loc main_arg2)) (batchOf t)
          (⟨2 * (pairOf t).val + (y 1).val % 128 / 64, by have := (pairOf t).isLt; omega⟩ : Fin 12)
          (⟨(y 0).val, (y 0).isLt⟩ : Fin 1024)
          (⟨(y 1).val % 128 % 64, by omega⟩ : Fin 64) := by
  have hy0 : (y 0).val < 1024 := (y 0).isLt
  unfold bandBlock
  rw [ld3_eq arg2 harg2 _ zero3, ld3_eq arg3 harg3 _ zero3, ld3_eq arg4 harg4 _ zero3, ld3_eq arg5 harg5 _ zero3,
    ld3_eq arg7 harg7 _ zero3]
  refine (Cert.PolicyAttention.Payload.trip_block (m ((c.tc : Thread nD τ).loc main_arg0))
    (m ((c.tc : Thread nD τ).loc main_arg1)) (m ((c.tc : Thread nD τ).loc main_arg2)) (batchOf t) (pairOf t) _
    _ _ _ _ _ _ (blk_x m c t) (blk_q m c t) (blk_k m c t) (blk_v m c t) (blk_pol m c t)
    (fun r ch => (queryRows_apply arg2 harg2 _ _ r ch).trans (blk_x m c t _ ch)) _ _).trans ?_
  refine congrArg (fun n => headOut _ _ _ (batchOf t) _ n _) (Fin.ext ?_)
  show 256 * ((y 0).val / 256) + (y 0).val % 256 = (y 0).val
  omega

end Cert.PolicyAttention.AtPoint

end
-- ==== Proof.KernelIdeal.OutCover.lean ====
/-
  The output window's blocks over the grid, as index facts.

  The result array is [8, 1024, 768]; grid point t (batch t / 6, head pair t % 6) holds the block [1, 1024, 768] of
  batch t / 6. An index of the array lies in point t's block exactly when its batch coordinate is t / 6; every index
  lies in the block of a point that writes back (the last head pair of its batch, t = 6 b + 5); and a block index
  (0, n, o) at point t is the array index (t / 6, n, o).
-/
import proofs.«154074_j30880814859134_2_alg».proof.Proof.Gen.KernelIdeal.Points
import proofs.«154074_j30880814859134_2_alg».proof.Proof.Gen.KernelIdeal.Launch
import Idealize.ShloMosaic.Lib.ValueIdx
import Idealize.ShloMosaic.Lib.Pipeline.Value

set_option maxRecDepth 16384

noncomputable section

namespace Cert.PolicyAttention.OutCover

open Cert.KernelIdeal Cert.KernelIdeal.Gen Idealize.ShloMosaic Idealize.ShloMosaic.TcCoe Idealize.ShloMosaic.ValueIdx
  Idealize.SL.Sem

/-- The output window's block index at point t: batch t / 6, and zero along rows and columns. -/
theorem idx7 : ∀ t : Fin cfg0.N, win0_7.index t (0 : Fin 3) = t.val / 6 ∧ win0_7.index t (1 : Fin 3) = 0
    ∧ win0_7.index t (2 : Fin 3) = 0 :=
  (by decide +kernel : ∀ t : Fin grid0.N, _)

/-- An index is in point t's block when each coordinate is within the block's range on its axis. -/
theorem mem_blk7_axes (t : Fin cfg0.N) (i : S8x1024x768.Idx) :
    i ∈ ((cfg0.win 7).blk t).view.set ↔ ∀ a : Fin 3, win0_7.index t a * S1x1024x768.size a ≤ (i a).val
      ∧ (i a).val < win0_7.index t a * S1x1024x768.size a + S1x1024x768.size a := by
  show i ∈ ((View.whole main_v15).slice (win0_7.rect t)).set ↔ _
  rw [View.set_slice_whole, Rect.mem_set_unit]
  exact Iff.rfl

/-- An index is in point t's block exactly when its batch coordinate is t / 6. -/
theorem mem_blk7 (t : Fin cfg0.N) (i : S8x1024x768.Idx) :
    i ∈ ((cfg0.win 7).blk t).view.set ↔ (i 0).val = t.val / 6 := by
  rw [mem_blk7_axes]
  obtain ⟨e0, e1, e2⟩ := idx7 t
  have h1 : (i 1).val < 1024 := (i 1).isLt
  have h2 : (i 2).val < 768 := (i 2).isLt
  constructor
  · intro h
    have b0 : win0_7.index t (0 : Fin 3) * 1 ≤ (i 0).val ∧ (i 0).val < win0_7.index t (0 : Fin 3) * 1 + 1 := h 0
    omega
  · intro h a
    match a with
    | ⟨0, _⟩ =>
      show win0_7.index t (0 : Fin 3) * 1 ≤ (i 0).val ∧ (i 0).val < win0_7.index t (0 : Fin 3) * 1 + 1
      omega
    | ⟨1, _⟩ =>
      show win0_7.index t (1 : Fin 3) * 1024 ≤ (i 1).val ∧ (i 1).val < win0_7.index t (1 : Fin 3) * 1024 + 1024
      omega
    | ⟨2, _⟩ =>
      show win0_7.index t (2 : Fin 3) * 768 ≤ (i 2).val ∧ (i 2).val < win0_7.index t (2 : Fin 3) * 768 + 768
      omega

/-- Every index of the result lies in the block of a point that writes back: the last head pair of its batch. -/
theorem cover7 : ∀ i : S8x1024x768.Idx, ∃ t : Fin cfg0.N, (cfg0.win 7).flush t = true ∧ i ∈ ((cfg0.win 7).blk t).view.set :=
  fun i => by
    have hi : (i 0).val < 8 := (i 0).isLt
    have hN : cfg0.N = 48 := Gen.N_0
    refine ⟨⟨6 * (i 0).val + 5, by omega⟩, (flush0_7 _).mpr ?_, (mem_blk7 _ i).mpr ?_⟩
    · show (6 * (i 0).val + 5) % 6 = 5
      omega
    · show (i 0).val = (6 * (i 0).val + 5) / 6
      omega

/-- Block index (0, n, o) at point t is the array index (t / 6, n, o). -/
theorem emb7 (t : Fin cfg0.N) (j : S1x1024x768.Idx) :
    ((cfg0.win 7).blk t).view.emb j
      = (ix3 (⟨t.val / 6, by have := t.isLt; have hN : cfg0.N = 48 := Gen.N_0; omega⟩ : Fin 8) (j 1) (j 2) : S8x1024x768.Idx) := by
  obtain ⟨e0, e1, e2⟩ := idx7 t
  have hj0 : (j 0).val < 1 := (j 0).isLt
  funext a; apply Fin.ext
  match a with
  | ⟨0, _⟩ =>
    show win0_7.index t (0 : Fin 3) * 1 + 1 * (j 0).val = t.val / 6
    omega
  | ⟨1, _⟩ =>
    show win0_7.index t (1 : Fin 3) * 1024 + 1 * (j 1).val = (j 1).val
    omega
  | ⟨2, _⟩ =>
    show win0_7.index t (2 : Fin 3) * 768 + 1 * (j 2).val = (j 2).val
    omega

end Cert.PolicyAttention.OutCover

end
-- ==== Proof.KernelIdeal.KernelValue.lean ====
/-
  The kernel's result array, as one function of the argument arrays.

  Once the six head pairs of a batch have written their 128 columns, the scratch holds at (n, c) the output of head c / 64 at
  row n, channel c % 64. The point of the last head pair projects that scratch and writes the block of its batch back, so
  each block written back is the specification's result on that batch; those blocks cover the result array.
-/
import proofs.«154074_j30880814859134_2_alg».proof.Proof.KernelIdeal.Sound
import proofs.«154074_j30880814859134_2_alg».proof.Proof.KernelIdeal.BlockValue
import proofs.«154074_j30880814859134_2_alg».proof.Proof.KernelIdeal.OutCover
import proofs.«154074_j30880814859134_2_alg».proof.Proof.AttnSpec

set_option maxRecDepth 16384

noncomputable section

namespace Cert.PolicyAttention.KernelValue

open Cert.KernelIdeal Cert.KernelIdeal.Gen Cert.KernelIdeal.Body Idealize.ShloMosaic Idealize.ShloMosaic.TcCoe
  Idealize.ShloMosaic.ValueIdx Idealize.SL.Sem Cert.PolicyAttention Cert.PolicyAttention.Blocks
  Cert.PolicyAttention.AtPoint Cert.PolicyAttention.OutCover

variable (m : (ℓ : Loc nD τ sig) → Buf (Elt Ideal) ℓ) (ρ : Dev nD → PrngReg)

/-- Equal arguments, equal head outputs. -/
theorem headOut_congr (x : XArr) (p : PArr) (w : WArr) {b b' : Fin 8} {h h' : Fin 12} {n n' : Fin 1024} {d d' : Fin 64}
    (eb : b' = b) (eh : h' = h) (en : n' = n) (ed : d' = d) : headOut x p w b' h' n' d' = headOut x p w b h n d := by
  subst eb; subst eh; subst en; subst ed; rfl

/-- The full scratch of batch b at (n, c): the output of head c / 64 at row n, channel c % 64. -/
theorem fullAt_value (c : Dev nD) (b : Fin 8) (n : Fin 1024) (cc : Fin 768) :
    fullAt (F := Ideal) m c b (ix2 n cc) = headOut (m ((c.tc : Thread nD τ).loc main_arg0)) (m ((c.tc : Thread nD τ).loc main_arg1)) (m ((c.tc : Thread nD τ).loc main_arg2)) b (headOf cc) n (chanOf cc) := by
  have hb := b.isLt; have hc := cc.isLt
  unfold fullAt bandAt
  refine (band_value m c _ (ms0_0 _) (hs0_0 _) (ms0_1 _) (hs0_1 _) (ms0_2 _) (hs0_2 _) (ms0_3 _) (hs0_3 _)
    (ms0_5 _) (hs0_5 _) (ix2 n cc)).trans ?_
  refine headOut_congr _ _ _ (Fin.ext ?_) (Fin.ext ?_) (Fin.ext ?_) (Fin.ext ?_)
  · show (6 * b.val + cc.val / 128) / 6 = b.val; omega
  · show 2 * ((6 * b.val + cc.val / 128) % 6) + cc.val % 128 / 64 = cc.val / 64; omega
  · rfl
  · show cc.val % 128 % 64 = cc.val % 64; omega

/-- The projection point t computes, at a block index, is the specification's result at the array index of that block
    index. -/
theorem projected_at (c : Dev nD) (t : Fin cfg0.N) (j : S1x1024x768.Idx) :
    k0_pay10 (F := Ideal) (fullAt (F := Ideal) m c ⟨t.val / 6 % 8, Nat.mod_lt _ (by decide)⟩) (Gen.iblk (F := Ideal) m c 4 t)
        (Gen.iblk (F := Ideal) m c 6 t) j
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 7).blk t).view.emb j) := by
  have ht : t.val < 48 := lt_of_lt_of_eq t.isLt Gen.N_0
  rw [emb7 t j]
  obtain ⟨j0, n, o, rfl⟩ : ∃ (j0 : Fin 1) (n : Fin 1024) (o : Fin 768), j = ix3 j0 n o := ⟨j 0, j 1, j 2, eq_ix3 j⟩
  obtain rfl : j0 = 0 := Subsingleton.elim _ _
  refine (project_value m c t ⟨t.val / 6 % 8, Nat.mod_lt _ (by decide)⟩ _ (fun n cc => fullAt_value m c _ n cc) n o).trans ?_
  show outAt _ _ _ _ _ _ n o = outAt _ _ _ _ _ _ n o
  refine congrArg (fun b => outAt _ _ _ _ _ b n o) (Fin.ext ?_)
  show t.val / 6 % 8 = t.val / 6
  omega

/-- What point t writes back is block t of the specification's result. -/
theorem flushed7_eq (c : Dev nD) (t : Fin cfg0.N) :
    (dats (F := Ideal) m 0 c).flushed 7 t
      = ((cfg0.win 7).blk t).view.read (Elt Ideal) (out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show (cfg0.win 7).cut (grid0.coords t) ((dats (F := Ideal) m 0 c).after 7 t) = _
  rw [after0_7]
  funext j
  exact projected_at m c t j

/-- The result array after the run is the specification's result. -/
theorem final7 (c : Dev nD) :
    (dats (F := Ideal) m 0 c).arrAt 7 cfg0.N = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats (F := Ideal) m 0 c).arrAt_eq_of_cover 7 (out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (fun t _ => flushed7_eq m c t) cover7

/-- The kernel runs, and ends with the specification's result and its arguments unchanged. -/
theorem run_value :
    θ_run (Cert.KernelIdeal.defs (F := Ideal)) (onTc (τ := τ) (main (F := Ideal))) ⟨m, fun _ => 0, ρ⟩ (fun r => ∀ c : Dev nD,
      r.2.mem ((c.tc : Thread nD τ).loc main_v15) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.PolicyAttention.KernelValue

end
-- ==== Proof.RefProj.lean ====
/-
  The reference's projections, read at an index.

  The reference multiplies the activations by the stacked weight, recasts the 2304 columns as (part, head, channel),
  moves the part and the head in front, and slices the three parts apart. Entry (b, h, n, d) of part s is therefore
  entry (b, n, s*768 + h*64 + d) of the product: the sum over the channels c of x[b,n,c] * w[s*768 + h*64 + d, c].
  The queries are then scaled by the word of 1/8.
-/
import proofs.«154074_j30880814859134_2_alg».proof.Proof.Gen.ReferenceIdeal.Read
import proofs.«154074_j30880814859134_2_alg».proof.Proof.AttnSpec

noncomputable section

open scoped BigOperators

namespace Cert.PolicyAttention.Ref

open Cert.ReferenceIdeal Cert.ReferenceIdeal.Read Idealize.ShloMosaic Idealize.ShloMosaic.ValueIdx Cert.PolicyAttention

/-! ## Index equations -/

/-- Dropping the leading unit axis: (b, h, n, d) of the rank-4 array is (0, b, h, n, d) of the rank-5 one. -/
theorem idx_v4_eq (b : Fin 8) (h : Fin 12) (n : Fin 1024) (d : Fin 64) :
    idx_main_v4 (ix4 b h n d) = ix5 (0 : Fin 1) b h n d := by
  funext a; apply Fin.ext
  have hb := b.isLt; have hh := h.isLt; have hn := n.isLt; have hd := d.isLt
  match a with
  | ⟨0, _⟩ => rfl
  | ⟨1, _⟩ => show (((b.val * 12 + h.val) * 1024 + n.val) * 64 + d.val) / 786432 % 8 = b.val; omega
  | ⟨2, _⟩ => show (((b.val * 12 + h.val) * 1024 + n.val) * 64 + d.val) / 65536 % 12 = h.val; omega
  | ⟨3, _⟩ => show (((b.val * 12 + h.val) * 1024 + n.val) * 64 + d.val) / 64 % 1024 = n.val; omega
  | ⟨4, _⟩ => show (((b.val * 12 + h.val) * 1024 + n.val) * 64 + d.val) % 64 = d.val; omega

theorem idx_v8_eq (b : Fin 8) (h : Fin 12) (n : Fin 1024) (d : Fin 64) :
    idx_main_v8 (ix4 b h n d) = ix5 (0 : Fin 1) b h n d := idx_v4_eq b h n d

theorem idx_v10_eq (b : Fin 8) (h : Fin 12) (n : Fin 1024) (d : Fin 64) :
    idx_main_v10 (ix4 b h n d) = ix5 (0 : Fin 1) b h n d := idx_v4_eq b h n d

/-- The three slices: part 0, 1, 2 of the leading axis. -/
theorem idx_v3_eq (b : Fin 8) (h : Fin 12) (n : Fin 1024) (d : Fin 64) :
    idx_main_v3 (ix5 (0 : Fin 1) b h n d) = ix5 (0 : Fin 3) b h n d := by
  funext a; apply Fin.ext
  match a with
  | ⟨0, _⟩ => rfl
  | ⟨1, _⟩ => rfl
  | ⟨2, _⟩ => rfl
  | ⟨3, _⟩ => rfl
  | ⟨4, _⟩ => rfl

theorem idx_v7_eq (b : Fin 8) (h : Fin 12) (n : Fin 1024) (d : Fin 64) :
    idx_main_v7 (ix5 (0 : Fin 1) b h n d) = ix5 (1 : Fin 3) b h n d := by
  funext a; apply Fin.ext
  match a with
  | ⟨0, _⟩ => rfl
  | ⟨1, _⟩ => rfl
  | ⟨2, _⟩ => rfl
  | ⟨3, _⟩ => rfl
  | ⟨4, _⟩ => rfl

theorem idx_v9_eq (b : Fin 8) (h : Fin 12) (n : Fin 1024) (d : Fin 64) :
    idx_main_v9 (ix5 (0 : Fin 1) b h n d) = ix5 (2 : Fin 3) b h n d := by
  funext a; apply Fin.ext
  match a with
  | ⟨0, _⟩ => rfl
  | ⟨1, _⟩ => rfl
  | ⟨2, _⟩ => rfl
  | ⟨3, _⟩ => rfl
  | ⟨4, _⟩ => rfl

/-- The transposition (part, batch, head, row, channel) <- (batch, row, part, head, channel). -/
theorem idx_v2_eq (s : Fin 3) (b : Fin 8) (h : Fin 12) (n : Fin 1024) (d : Fin 64) :
    idx_main_v2 (ix5 s b h n d) = ix5 b n s h d := by
  funext a; apply Fin.ext
  match a with
  | ⟨0, _⟩ => rfl
  | ⟨1, _⟩ => rfl
  | ⟨2, _⟩ => rfl
  | ⟨3, _⟩ => rfl
  | ⟨4, _⟩ => rfl

/-- The recast of the 2304 columns: (part, head, channel) is column part*768 + head*64 + channel. -/
theorem idx_v1_eq (s : Fin 3) (b : Fin 8) (h : Fin 12) (n : Fin 1024) (d : Fin 64) :
    idx_main_v1 (ix5 b n s h d) = ix3 b n (wrow s h d) := by
  funext a; apply Fin.ext
  have hb := b.isLt; have hh := h.isLt; have hn := n.isLt; have hd := d.isLt; have hs := s.isLt
  match a with
  | ⟨0, _⟩ => show ((((b.val * 1024 + n.val) * 3 + s.val) * 12 + h.val) * 64 + d.val) / 2359296 = b.val; omega
  | ⟨1, _⟩ => show ((((b.val * 1024 + n.val) * 3 + s.val) * 12 + h.val) * 64 + d.val) / 2304 % 1024 = n.val; omega
  | ⟨2, _⟩ =>
    show ((((b.val * 1024 + n.val) * 3 + s.val) * 12 + h.val) * 64 + d.val) % 2304 = s.val * 768 + h.val * 64 + d.val
    omega

theorem lidx_v0_eq (b : Fin 8) (n : Fin 1024) (r : Fin 2304) (c : Fin 768) :
    lidx_main_v0 (ix3 b n r) c = ix3 b n c := by
  funext a; apply Fin.ext
  match a with
  | ⟨0, _⟩ => rfl
  | ⟨1, _⟩ => rfl
  | ⟨2, _⟩ => rfl

theorem ridx_v0_eq (b : Fin 8) (n : Fin 1024) (r : Fin 2304) (c : Fin 768) :
    ridx_main_v0 (ix3 b n r) c = ix2 r c := by
  funext a; apply Fin.ext
  match a with
  | ⟨0, _⟩ => rfl
  | ⟨1, _⟩ => rfl

/-! ## The projections -/

variable (x : XArr) (w : WArr)

/-- The transposed product at (s, b, h, n, d) is part s of the projection. -/
theorem parts_at (s : Fin 3) (b : Fin 8) (h : Fin 12) (n : Fin 1024) (d : Fin 64) :
    val_main_v2 (F := Ideal) x w (ix5 s b h n d) = proj x w s b h n d := by
  rw [val_main_v2_apply, idx_v2_eq, val_main_v1_apply, idx_v1_eq, val_main_v0_apply]
  unfold proj
  refine Finset.sum_congr rfl fun c _ => ?_
  rw [lidx_v0_eq, ridx_v0_eq]

/-- The keys at (b, h, m, d). -/
theorem keys_at (b : Fin 8) (h : Fin 12) (m : Fin 1024) (d : Fin 64) :
    val_main_v8 (F := Ideal) x w (ix4 b h m d) = proj x w 1 b h m d := by
  rw [val_main_v8_apply, idx_v8_eq, val_main_v7_apply, idx_v7_eq, parts_at]

/-- The values at (b, h, m, d). -/
theorem values_at (b : Fin 8) (h : Fin 12) (m : Fin 1024) (d : Fin 64) :
    val_main_v10 (F := Ideal) x w (ix4 b h m d) = proj x w 2 b h m d := by
  rw [val_main_v10_apply, idx_v10_eq, val_main_v9_apply, idx_v9_eq, parts_at]

/-- The scaled queries at (b, h, n, d). -/
theorem queries_at (b : Fin 8) (h : Fin 12) (n : Fin 1024) (d : Fin 64) :
    val_main_v6 (F := Ideal) x w (ix4 b h n d) = proj x w 0 b h n d * cScale := by
  rw [val_main_v6_apply, val_main_v4_apply, idx_v4_eq, val_main_v3_apply, idx_v3_eq, parts_at, val_main_v5_apply,
    val_main_cst_apply]
  rfl

end Cert.PolicyAttention.Ref

end
-- ==== Proof.RefSoftmax.lean ====
/-
  The reference's masked softmax, read at an index.

  From the projections the reference forms the scores (a sum over the 64 channels of a head), their row maximum (a fold of
  max from minus infinity over the 1024 key rows), the keep-mask a + (1 - a) * e with e the diagonal indicator, the masked
  shifted exponentials, their row sum, and the quotient with its two small corrections. Each stage at an index is the
  specification's function of the same name. The only law used is the mask's: for a real a, a + (1 - a) * 1 = 1 and
  a + (1 - a) * 0 = a.
-/
import proofs.«154074_j30880814859134_2_alg».proof.Proof.RefProj
import Idealize.ShloMosaic.PureOps.Reduce
import Idealize.ShloMosaic.Lib.IdealHost

noncomputable section

open scoped BigOperators

namespace Cert.PolicyAttention.Ref

open Cert.ReferenceIdeal Cert.ReferenceIdeal.Read Idealize.ShloMosaic Idealize.ShloMosaic.ValueIdx Cert.PolicyAttention

/-! ## A fold along the last of four axes -/

/-- Line (p, q, r) of an [a, b, c, e] array with the last coordinate k put back is (p, q, r, k). -/
theorem lift_last4 {a b c e : ℕ} (h : (⟨4, ![a, b, c, e]⟩ : Shape).Reduces [3] ⟨3, ![a, b, c]⟩)
    (p : Fin a) (q : Fin b) (r : Fin c) (k : Fin e) :
    h.lift (ix3 p q r) k = ix4 p q r k := by
  funext d; apply Fin.ext
  match d with
  | ⟨0, _⟩ => rfl
  | ⟨1, _⟩ => rfl
  | ⟨2, _⟩ => rfl
  | ⟨3, _⟩ => rfl

/-- A host reduction of an [a, b, c, e] array along axis 3, at (p, q, r): the fold over that line from the initial value. -/
theorem host_last4_fold {a b c e : ℕ} {u : Shape} {α : Type} (f : α → α → α) [Std.Commutative f] [Std.Associative f]
    (v : (⟨4, ![a, b, c, e]⟩ : Shape).Idx → α) (init : u.Idx → α)
    (h' : (⟨4, ![a, b, c, e]⟩ : Shape).ReducesTo [3] ⟨3, ![a, b, c]⟩)
    (h : (⟨4, ![a, b, c, e]⟩ : Shape).Reduces [3] ⟨3, ![a, b, c]⟩)
    (hu : 0 < u.numel) (p : Fin a) (q : Fin b) (r : Fin c) :
    Host.reduce f v init h' hu (ix3 p q r)
      = (Finset.univ : Finset (Fin e)).fold f (init (Shape.Idx.first hu)) fun k => v (ix4 p q r k) :=
  (Host.reduce_eq_fold_single f v init h' h hu (ix3 p q r)).trans
    (congrArg (fun g => Finset.fold f (init (Shape.Idx.first hu)) g (Finset.univ : Finset (Fin e)))
      (funext fun k => congrArg v (lift_last4 h p q r k)))

/-! ## Index equations -/

theorem lidx_v11_eq (b : Fin 8) (h : Fin 12) (n m : Fin 1024) (d : Fin 64) :
    lidx_main_v11 (ix4 b h n m) d = ix4 b h n d := by
  funext a; apply Fin.ext
  match a with
  | ⟨0, _⟩ => rfl
  | ⟨1, _⟩ => rfl
  | ⟨2, _⟩ => rfl
  | ⟨3, _⟩ => rfl

theorem ridx_v11_eq (b : Fin 8) (h : Fin 12) (n m : Fin 1024) (d : Fin 64) :
    ridx_main_v11 (ix4 b h n m) d = ix4 b h m d := by
  funext a; apply Fin.ext
  match a with
  | ⟨0, _⟩ => rfl
  | ⟨1, _⟩ => rfl
  | ⟨2, _⟩ => rfl
  | ⟨3, _⟩ => rfl

theorem idx_v29_eq (b : Fin 8) (h : Fin 12) (n m : Fin 1024) :
    idx_main_v29 (ix4 b h n m) = ix4 b h n (0 : Fin 1) := by
  funext a; apply Fin.ext
  match a with
  | ⟨0, _⟩ => rfl
  | ⟨1, _⟩ => rfl
  | ⟨2, _⟩ => rfl
  | ⟨3, _⟩ => rfl

theorem idx_v28_eq (b : Fin 8) (h : Fin 12) (n : Fin 1024) :
    idx_main_v28 (ix4 b h n (0 : Fin 1)) = ix3 b h n := by
  funext a; apply Fin.ext
  match a with
  | ⟨0, _⟩ => rfl
  | ⟨1, _⟩ => rfl
  | ⟨2, _⟩ => rfl

theorem idx_v40_eq (b : Fin 8) (h : Fin 12) (n m : Fin 1024) :
    idx_main_v40 (ix4 b h n m) = ix4 b h n (0 : Fin 1) := idx_v29_eq b h n m

theorem idx_v37_eq (b : Fin 8) (h : Fin 12) (n : Fin 1024) :
    idx_main_v37 (ix4 b h n (0 : Fin 1)) = ix3 b h n := idx_v28_eq b h n

theorem idx_v32_eq (b : Fin 8) (h : Fin 12) (n m : Fin 1024) :
    idx_main_v32 (ix4 b h n m) = ix4 b (0 : Fin 1) n m := by
  funext a; apply Fin.ext
  match a with
  | ⟨0, _⟩ => rfl
  | ⟨1, _⟩ => rfl
  | ⟨2, _⟩ => rfl
  | ⟨3, _⟩ => rfl

theorem idx_v36_eq (b : Fin 8) (h : Fin 12) (n m : Fin 1024) :
    idx_main_v36 (ix3 b h n) m = ix4 b h n m := by
  funext a; apply Fin.ext
  match a with
  | ⟨0, _⟩ => rfl
  | ⟨1, _⟩ => rfl
  | ⟨2, _⟩ => rfl
  | ⟨3, _⟩ => rfl

theorem idx_v25_eq (b : Fin 8) (n m : Fin 1024) :
    idx_main_v25 (ix4 b (0 : Fin 1) n m) = ix4 b (0 : Fin 1) (0 : Fin 1) m := by
  funext a; apply Fin.ext
  match a with
  | ⟨0, _⟩ => rfl
  | ⟨1, _⟩ => rfl
  | ⟨2, _⟩ => rfl
  | ⟨3, _⟩ => rfl

theorem idx_v22_eq (b : Fin 8) (n m : Fin 1024) :
    idx_main_v22 (ix4 b (0 : Fin 1) n m) = ix4 b (0 : Fin 1) (0 : Fin 1) m := idx_v25_eq b n m

theorem idx_v23_eq (b : Fin 8) (n m : Fin 1024) :
    idx_main_v23 (ix4 b (0 : Fin 1) n m) = ix4 (0 : Fin 1) (0 : Fin 1) n m := by
  funext a; apply Fin.ext
  match a with
  | ⟨0, _⟩ => rfl
  | ⟨1, _⟩ => rfl
  | ⟨2, _⟩ => rfl
  | ⟨3, _⟩ => rfl

theorem idx_v19_eq (n m : Fin 1024) :
    idx_main_v19 (ix4 (0 : Fin 1) (0 : Fin 1) n m) = ix2 n m := by
  funext a; apply Fin.ext
  have hn := n.isLt; have hm := m.isLt
  match a with
  | ⟨0, _⟩ => show (((0 * 1 + 0) * 1024 + n.val) * 1024 + m.val) / 1024 = n.val; omega
  | ⟨1, _⟩ => show (((0 * 1 + 0) * 1024 + n.val) * 1024 + m.val) % 1024 = m.val; omega

theorem idx_v12_eq (b : Fin 8) (m : Fin 1024) :
    idx_main_v12 (ix4 b (0 : Fin 1) (0 : Fin 1) m) = ix3 b m (0 : Fin 1) := by
  funext a; apply Fin.ext
  have hb := b.isLt; have hm := m.isLt
  match a with
  | ⟨0, _⟩ => show (((b.val * 1 + 0) * 1 + 0) * 1024 + m.val) / 1024 = b.val; omega
  | ⟨1, _⟩ => show (((b.val * 1 + 0) * 1 + 0) * 1024 + m.val) / 1 % 1024 = m.val; omega
  | ⟨2, _⟩ => rfl

/-! ## The mask -/

/-- The one-bit comparison of two counters below 1024, read as an unsigned number: the diagonal indicator. -/
theorem eye_word (n m : ℕ) (hn : n < 1024) (hm : m < 1024) :
    FloatOps.uitofp (F := Ideal) .f32 (IntOp.cmpi .eq (IntOp.addi (BitVec.ofNat 32 n) 0#32) (BitVec.ofNat 32 m))
      = if n = m then (1 : EReal) else 0 := by
  have e : IntOp.cmpi .eq (IntOp.addi (BitVec.ofNat 32 n) 0#32) (BitVec.ofNat 32 m) = if n = m then 1#1 else 0#1 := by
    unfold IntOp.cmpi IntOp.addi
    by_cases h : n = m
    · subst h; simp
    · have hne : BitVec.ofNat 32 n ≠ BitVec.ofNat 32 m := by
        intro e; apply h
        have e' := congrArg BitVec.toNat e
        simp only [BitVec.toNat_ofNat] at e'
        omega
      have hb : (BitVec.ofNat 32 n == BitVec.ofNat 32 m) = false := beq_eq_false_iff_ne.mpr hne
      simp [h, hb]
  rw [e]
  by_cases h : n = m
  · rw [if_pos h, if_pos h]
    show (((1#1 : BitVec 1).toNat : ℝ) : EReal) = 1
    norm_num
  · rw [if_neg h, if_neg h]
    show (((0#1 : BitVec 1).toNat : ℝ) : EReal) = 0
    norm_num

/-- The diagonal indicator at (n, m). -/
theorem eye_at (n m : Fin 1024) :
    val_main_v18 (F := Ideal) (ix2 n m) = if n.val = m.val then (1 : EReal) else 0 := by
  rw [val_main_v18_apply, val_main_v17_apply, val_main_v16_apply, val_main_v13_apply, val_main_v14_apply,
    val_main_v15_apply, val_main_c_apply]
  exact eye_word n.val m.val n.isLt m.isLt

/-- The mask's law on the diagonal: for a real a, a + (1 - a) * 1 = 1. -/
theorem mask_diag (a : EReal) (ha : ∃ r : ℝ, a = (r : EReal)) : a + (1 - a) * 1 = 1 := by
  obtain ⟨r, rfl⟩ := ha
  rw [mul_one, ← EReal.coe_one, ← EReal.coe_sub, ← EReal.coe_add]
  congr 1; ring

variable (x : XArr) (p : PArr) (w : WArr)

/-- The keep-mask at (b, n, m). -/
theorem mask_at (hp : ∀ i, ∃ r : ℝ, p i = (r : EReal)) (b : Fin 8) (n m : Fin 1024) :
    val_main_v26 (F := Ideal) p (ix4 b (0 : Fin 1) n m) = mask p b n m := by
  rw [val_main_v26_apply, val_main_v25_apply, idx_v25_eq, val_main_v12_apply, idx_v12_eq, val_main_v24_apply,
    val_main_v22_apply, idx_v22_eq, val_main_v21_apply, val_main_v20_apply, val_main_cst_0_apply, val_main_v12_apply,
    idx_v12_eq, val_main_v23_apply, idx_v23_eq, val_main_v19_apply, idx_v19_eq, eye_at]
  unfold mask
  simp only [Ideal.addf_def, Ideal.subf_def, Ideal.mulf_def, Ideal.ofBits_def, Ideal.ofBits_one_f32]
  by_cases hnm : n.val = m.val
  · rw [if_pos hnm, if_pos hnm]
    exact mask_diag _ (hp _)
  · rw [if_neg hnm, if_neg hnm, mul_zero, add_zero]

/-! ## Scores, row maximum, weights, normaliser, probabilities -/

/-- The scores at (b, h, n, m). -/
theorem score_at (b : Fin 8) (h : Fin 12) (n m : Fin 1024) :
    val_main_v11 (F := Ideal) x w (ix4 b h n m) = score x w b h n m := by
  rw [val_main_v11_apply]
  unfold score
  refine Finset.sum_congr rfl fun d _ => ?_
  rw [lidx_v11_eq, ridx_v11_eq, queries_at, keys_at]

/-- The row maximum at (b, h, n). -/
theorem rowMax_at (b : Fin 8) (h : Fin 12) (n : Fin 1024) :
    val_main_v27 (F := Ideal) x w (ix3 b h n) = rowMax x w b h n := by
  have hr : S8x12x1024x1024.Reduces [3] S8x12x1024 := by decide
  unfold val_main_v27
  refine (host_last4_fold (FloatOps.maximumf (F := Ideal) (φ := .f32)) _ _ _ hr _ b h n).trans ?_
  unfold rowMax
  simp only [score_at]
  rfl

/-- The masked, shifted exponentials at (b, h, n, m). -/
theorem weight_at (hp : ∀ i, ∃ r : ℝ, p i = (r : EReal)) (b : Fin 8) (h : Fin 12) (n m : Fin 1024) :
    val_main_v33 (F := Ideal) x p w (ix4 b h n m) = weight x p w b h n m := by
  rw [val_main_v33_apply, val_main_v31_apply, val_main_v30_apply, score_at, val_main_v29_apply, idx_v29_eq,
    val_main_v28_apply, idx_v28_eq, rowMax_at, val_main_v32_apply, idx_v32_eq, mask_at p hp]
  rfl

/-- The row sums of the weights at (b, h, n). -/
theorem denom_at (hp : ∀ i, ∃ r : ℝ, p i = (r : EReal)) (b : Fin 8) (h : Fin 12) (n : Fin 1024) :
    val_main_v36 (F := Ideal) x p w (ix3 b h n) = denom x p w b h n := by
  rw [val_main_v36_apply, val_main_cst_3_apply]
  unfold denom
  simp only [idx_v36_eq, weight_at x p w hp, Ideal.ofBits_def, Ideal.ofBits_zero_f32, zero_add]

/-- The attention probabilities at (b, h, n, m). -/
theorem prob_at (hp : ∀ i, ∃ r : ℝ, p i = (r : EReal)) (b : Fin 8) (h : Fin 12) (n m : Fin 1024) :
    val_main_v41 (F := Ideal) x p w (ix4 b h n m) = prob x p w b h n m := by
  rw [val_main_v41_apply, val_main_v35_apply, weight_at x p w hp, val_main_v34_apply, val_main_cst_2_apply,
    val_main_v40_apply, idx_v40_eq, val_main_v39_apply, val_main_v37_apply, idx_v37_eq, denom_at x p w hp,
    val_main_v38_apply, val_main_cst_4_apply]
  rfl

end Cert.PolicyAttention.Ref

end
-- ==== Proof.RefIsAttn.lean ====
/-
  The reference program is the specification.

  After the softmax the reference multiplies the probabilities by the values (a sum over the 1024 key rows), moves the head
  axis behind the row axis, recasts (head, channel) as one column of 768 (column c belongs to head c / 64, channel c % 64),
  multiplies by the output weight (a sum over those 768 columns) and adds the bias. At every index this is the
  specification's out.
-/
import proofs.«154074_j30880814859134_2_alg».proof.Proof.Gen.ReferenceIdeal.Read
import proofs.«154074_j30880814859134_2_alg».proof.Proof.AttnSpec
import proofs.«154074_j30880814859134_2_alg».proof.Proof.RefSoftmax

noncomputable section

open scoped BigOperators

namespace Cert.PolicyAttention.Ref

open Cert.ReferenceIdeal Cert.ReferenceIdeal.Read Idealize.ShloMosaic Idealize.ShloMosaic.ValueIdx Cert.PolicyAttention

/-! ## Index equations -/

theorem lidx_v42_eq (b : Fin 8) (h : Fin 12) (n : Fin 1024) (d : Fin 64) (m : Fin 1024) :
    lidx_main_v42 (ix4 b h n d) m = ix4 b h n m := by
  funext a; apply Fin.ext
  match a with
  | ⟨0, _⟩ => rfl
  | ⟨1, _⟩ => rfl
  | ⟨2, _⟩ => rfl
  | ⟨3, _⟩ => rfl

theorem ridx_v42_eq (b : Fin 8) (h : Fin 12) (n : Fin 1024) (d : Fin 64) (m : Fin 1024) :
    ridx_main_v42 (ix4 b h n d) m = ix4 b h m d := by
  funext a; apply Fin.ext
  match a with
  | ⟨0, _⟩ => rfl
  | ⟨1, _⟩ => rfl
  | ⟨2, _⟩ => rfl
  | ⟨3, _⟩ => rfl

/-- Moving the head axis behind the row axis. -/
theorem idx_v43_eq (b : Fin 8) (n : Fin 1024) (h : Fin 12) (d : Fin 64) :
    idx_main_v43 (ix4 b n h d) = ix4 b h n d := by
  funext a; apply Fin.ext
  match a with
  | ⟨0, _⟩ => rfl
  | ⟨1, _⟩ => rfl
  | ⟨2, _⟩ => rfl
  | ⟨3, _⟩ => rfl

/-- Column c of the concatenated heads is channel c % 64 of head c / 64. -/
theorem idx_v44_eq (b : Fin 8) (n : Fin 1024) (c : Fin 768) :
    idx_main_v44 (ix3 b n c) = ix4 b n (headOf c) (chanOf c) := by
  funext a; apply Fin.ext
  have hb := b.isLt; have hn := n.isLt; have hc := c.isLt
  match a with
  | ⟨0, _⟩ => show ((b.val * 1024 + n.val) * 768 + c.val) / 786432 = b.val; omega
  | ⟨1, _⟩ => show ((b.val * 1024 + n.val) * 768 + c.val) / 768 % 1024 = n.val; omega
  | ⟨2, _⟩ => show ((b.val * 1024 + n.val) * 768 + c.val) / 64 % 12 = c.val / 64; omega
  | ⟨3, _⟩ => show ((b.val * 1024 + n.val) * 768 + c.val) % 64 = c.val % 64; omega

theorem lidx_v45_eq (b : Fin 8) (n : Fin 1024) (o c : Fin 768) :
    lidx_main_v45 (ix3 b n o) c = ix3 b n c := by
  funext a; apply Fin.ext
  match a with
  | ⟨0, _⟩ => rfl
  | ⟨1, _⟩ => rfl
  | ⟨2, _⟩ => rfl

theorem ridx_v45_eq (b : Fin 8) (n : Fin 1024) (o c : Fin 768) :
    ridx_main_v45 (ix3 b n o) c = ix2 o c := by
  funext a; apply Fin.ext
  match a with
  | ⟨0, _⟩ => rfl
  | ⟨1, _⟩ => rfl

theorem idx_v47_eq (b : Fin 8) (n : Fin 1024) (o : Fin 768) :
    idx_main_v47 (ix3 b n o) = ix3 (0 : Fin 1) (0 : Fin 1) o := by
  funext a; apply Fin.ext
  match a with
  | ⟨0, _⟩ => rfl
  | ⟨1, _⟩ => rfl
  | ⟨2, _⟩ => rfl

theorem idx_v46_eq (o : Fin 768) :
    idx_main_v46 (ix3 (0 : Fin 1) (0 : Fin 1) o) = ix1 o := by
  funext a; apply Fin.ext
  match a with
  | ⟨0, _⟩ => rfl

/-! ## The heads' outputs and the projected result -/

variable (x : XArr) (p : PArr) (w : WArr) (wo : OArr) (bias : BArr)

/-- One head's output at (b, h, n, d). -/
theorem headOut_at (hp : ∀ i, ∃ r : ℝ, p i = (r : EReal)) (b : Fin 8) (h : Fin 12) (n : Fin 1024) (d : Fin 64) :
    val_main_v42 (F := Ideal) x p w (ix4 b h n d) = headOut x p w b h n d := by
  rw [val_main_v42_apply]
  unfold headOut
  refine Finset.sum_congr rfl fun m _ => ?_
  rw [lidx_v42_eq, ridx_v42_eq, prob_at x p w hp, values_at]

/-- The concatenated heads at (b, n, c). -/
theorem heads_at (hp : ∀ i, ∃ r : ℝ, p i = (r : EReal)) (b : Fin 8) (n : Fin 1024) (c : Fin 768) :
    val_main_v44 (F := Ideal) x p w (ix3 b n c) = headOut x p w b (headOf c) n (chanOf c) := by
  rw [val_main_v44_apply, idx_v44_eq, val_main_v43_apply, idx_v43_eq, headOut_at x p w hp]

/-- The result at (b, n, o). -/
theorem out_at (hp : ∀ i, ∃ r : ℝ, p i = (r : EReal)) (b : Fin 8) (n : Fin 1024) (o : Fin 768) :
    val_main_v48 (F := Ideal) x p w wo bias (ix3 b n o) = outAt x p w wo bias b n o := by
  rw [val_main_v48_apply, val_main_v45_apply, val_main_v47_apply, idx_v47_eq, val_main_v46_apply, idx_v46_eq]
  unfold outAt
  simp only [lidx_v45_eq, ridx_v45_eq, heads_at x p w hp, Ideal.addf_def]

/-- The reference's result, as a function of its five arguments, is the specification. -/
theorem ref_is_out (hp : ∀ i, ∃ r : ℝ, p i = (r : EReal)) :
    val_main_v48 (F := Ideal) x p w wo bias = out x p w wo bias := by
  funext i
  rw [eq_ix3 i]
  exact out_at x p w wo bias hp (i 0) (i 1) (i 2)

end Cert.PolicyAttention.Ref

end
-- ==== Proof.RefRun.lean ====
/-
  The reference's run ends at the specification.

  Every weakly fair execution of the reference terminates; its result array then holds, on every device, the
  specification's out of the five argument arrays as they were at the start (given that every policy entry is a real), and
  the argument arrays are unchanged.
-/
import proofs.«154074_j30880814859134_2_alg».proof.Defs
import proofs.«154074_j30880814859134_2_alg».proof.Proof.Gen.ReferenceIdeal.Run
import proofs.«154074_j30880814859134_2_alg».proof.Proof.Gen.ReferenceIdeal.Read
import proofs.«154074_j30880814859134_2_alg».proof.Proof.Gen.Pre_finite_inputs
import proofs.«154074_j30880814859134_2_alg».proof.Proof.RefIsAttn

noncomputable section

namespace Cert.PolicyAttention.Ref

open Idealize.ShloMosaic Idealize.ShloMosaic.TcCoe Idealize.SL.Sem

/-- The reference runs, and ends with the specification's result and its arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg)
    (hp : ∀ (c : Dev Cert.ReferenceIdeal.nD) i, ∃ r : ℝ, (m' ((c.tc : Thread Cert.ReferenceIdeal.nD Cert.ReferenceIdeal.τ).loc Cert.ReferenceIdeal.main_arg1)) i = (r : EReal)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v48)
            = Cert.PolicyAttention.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((Cert.ReferenceIdeal.Read.val_main_v48_eq m' c).trans (ref_is_out _ _ _ _ _ (hp c))), (h c).2⟩)
    (Cert.ReferenceIdeal.Value.run (F := Ideal) m' g')

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.PolicyAttention.Ref

end
-- ==== Proof.FinitePolicy.lean ====
/-
  From the precondition to "every policy entry is a real".

  The precondition is the conjunction, over the five argument arrays, of "every entry's absolute value is below plus
  infinity" (each an all-reduction by "and" of a one-bit comparison). An extended real whose absolute value max a (-a) is
  below plus infinity is neither infinity, so it is a real. Read at the second array, the precondition therefore says
  that every policy entry is a real.
-/
import proofs.«154074_j30880814859134_2_alg».proof.Defs
import proofs.«154074_j30880814859134_2_alg».proof.Proof.Gen.Pre_finite_inputs
import Idealize.ShloMosaic.Lib.ReduceAll
import Idealize.ShloMosaic.Lib.ValueIdx
import Idealize.ShloMosaic.PureOps.Ideal.Laws

noncomputable section

namespace Cert.PolicyAttention.Pre

open Idealize.ShloMosaic Idealize.ShloMosaic.TcCoe Idealize.SL.Sem

/-- The scalar shape has one index. -/
instance : Subsingleton Cert.Pre_finite_inputs.S_.Idx := ⟨fun a b => funext fun d => d.elim0⟩

/-- The word 0x7F800000 denotes plus infinity. -/
theorem ofBits_inf : Ideal.ofBits .f32 0x7F800000#32 = (⊤ : EReal) := by
  simp [Ideal.ofBits, Ideal.ieee]

/-- A one-bit word made from a truth value is 1 exactly when the value is true. -/
theorem ofBool_eq_one_iff (b : Bool) : BitVec.ofBool b = 1#1 ↔ b = true := by cases b <;> decide

/-- An extended real whose absolute value compares below plus infinity is a real. -/
theorem real_of_abs_lt (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  have h' : max a (-a) < (⊤ : EReal) := by
    rw [Ideal.cmpf_def, Ideal.hostAbsf_def, Ideal.absf_def, Ideal.ofBits_def, ofBits_inf] at h
    simpa [Ideal.cmp, ofBool_eq_one_iff] using h
  induction a using EReal.rec with
  | bot => exact absurd h' (by simp)
  | coe r => exact ⟨r, rfl⟩
  | top => exact absurd h' (by simp)

/-- The precondition, read at the second array: every entry of it is a real. -/
theorem second_real [Cert.Pre_finite_inputs.Facts]
    (a0 : FVec Ideal Cert.Pre_finite_inputs.S8x1024x768 .f32) (a1 : FVec Ideal Cert.Pre_finite_inputs.S8x1024x1 .f32)
    (a2 : FVec Ideal Cert.Pre_finite_inputs.S2304x768 .f32) (a3 : FVec Ideal Cert.Pre_finite_inputs.S768x768 .f32)
    (a4 : FVec Ideal Cert.Pre_finite_inputs.S768 .f32)
    (h : Cert.Pre_finite_inputs.fn (F := Ideal) a0 a1 a2 a3 a4 = fun _ => 1#1) :
    ∀ i, ∃ r : ℝ, a1 i = (r : EReal) := by
  intro i
  have h0 := congrFun h ValueIdx.ix0
  dsimp only [Cert.Pre_finite_inputs.fn, Cert.Pre_finite_inputs.fn_part1, andi] at h0
  obtain ⟨h1, -⟩ := IntOp.andi_eq_one.1 h0
  obtain ⟨h2, -⟩ := IntOp.andi_eq_one.1 h1
  obtain ⟨h3, -⟩ := IntOp.andi_eq_one.1 h2
  obtain ⟨-, h4⟩ := IntOp.andi_eq_one.1 h3
  have he := Host.reduce_andi_all _ _ _ _ _ h4 i
  exact real_of_abs_lt (a1 i) he

/-- Under the reference's precondition every policy entry of the reference's memory is a real. -/
theorem policy_real_ref [Cert.Pre_finite_inputs.Facts]
    (m' : (ℓ : Loc Cert.ReferenceIdeal.nD Cert.ReferenceIdeal.τ Cert.ReferenceIdeal.sig) → Buf (Elt Ideal) ℓ)
    (h : Cert.Pre_ReferenceIdeal m') (c : Dev Cert.ReferenceIdeal.nD) :
    ∀ i, ∃ r : ℝ, (m' ((c.tc : Thread Cert.ReferenceIdeal.nD Cert.ReferenceIdeal.τ).loc Cert.ReferenceIdeal.main_arg1)) i = (r : EReal) :=
  second_real _ _ _ _ _ (h c)

/-- Under the kernel's precondition every policy entry of the kernel's memory is a real. -/
theorem policy_real_kernel [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg1)) i = (r : EReal) :=
  second_real _ _ _ _ _ (h c)

end Cert.PolicyAttention.Pre

end
-- ==== Proof.lean ====
/-
  The kernel computes, for each batch, multi-head attention under a keep-mask followed by an output projection:
  for head h (12 heads of width 64), query row n and key row m the score is the scaled inner product of the projected
  query and key rows, the weight is exp (score - row maximum) times the mask (one on the diagonal, the policy entry
  elsewhere), the probability is (weight + eps/1024) / (sum of weights + eps), the head's output is the probability-weighted
  sum of the projected value rows, and the result is the concatenated heads times the transposed projection weight plus the
  bias (the function `Cert.PolicyAttention.out` of the five argument arrays).

  The kernel visits the grid of (batch, head pair) points. At each point it projects the batch's keys and values for the
  two heads of the pair, and in four trips of 256 query rows each computes both heads' attention outputs and writes them,
  side by side, into a 128-column band of a scratch array that it keeps from point to point. Before point t the columns
  below 128 (t mod 6) of the scratch hold the outputs of the batch's earlier head pairs; at the batch's last head pair the
  scratch is complete and the kernel stores its projection as the batch's block of the result. Every sum is taken over the
  same index set in the two programs, and a change of float format is the identity on the extended reals, so the only law
  needed is that for a real policy entry a the reference's mask a + (1 - a) e is 1 on the diagonal (e = 1) and a off it
  (e = 0): this is where the finiteness of the inputs is used.
-/
import proofs.«154074_j30880814859134_2_alg».proof.Defs
import proofs.«154074_j30880814859134_2_alg».proof.Proof.Gen.Kernel
import proofs.«154074_j30880814859134_2_alg».proof.Proof.Gen.KernelIdeal
import proofs.«154074_j30880814859134_2_alg».proof.Proof.Gen.ReferenceIdeal
import proofs.«154074_j30880814859134_2_alg».proof.Proof.Gen.Pre_finite_inputs
import proofs.«154074_j30880814859134_2_alg».proof.Proof.Kernel.Sound
import proofs.«154074_j30880814859134_2_alg».proof.Proof.KernelIdeal.KernelValue
import proofs.«154074_j30880814859134_2_alg».proof.Proof.RefRun
import proofs.«154074_j30880814859134_2_alg».proof.Proof.FinitePolicy
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Body.frame (F := Bits) m ρ

/-- So does its reading over the extended reals. -/
theorem frame_kernelIdeal : Cert.frame_KernelIdeal := fun m ρ _ => Cert.KernelIdeal.Body.frame (F := Ideal) m ρ

/-- The idealization rewrote nothing. -/
theorem preserves : Cert.preserves_Kernel_KernelIdeal := trivial

/-- From memories agreeing on the arguments both programs end with the attention's projected output of the kernel's
    arguments: the kernel by its run, the reference by its own, the policy being real under the precondition. -/
theorem algebraic : Cert.algebraic_KernelIdeal_ReferenceIdeal := by
  intro m ρ m' ρ' hpre hagree
  refine ⟨_, Cert.PolicyAttention.KernelValue.run_value m ρ, ?_⟩
  have hp : ∀ (c : Dev Cert.ReferenceIdeal.nD) i, ∃ r : ℝ,
      (m' ((c.tc : Thread Cert.ReferenceIdeal.nD Cert.ReferenceIdeal.τ).loc Cert.ReferenceIdeal.main_arg1)) i = (r : EReal) := by
    intro c i
    rw [(hagree c).2.1]
    exact Cert.PolicyAttention.Pre.policy_real_kernel m hpre c i
  refine (θ_run Cert.ReferenceIdeal.defs _ _).mono (fun r h c => ⟨?_, (h c).2⟩) (Cert.PolicyAttention.Ref.ref_run m' ρ' hp)
  rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, Cert.PolicyAttention.Ref.frame_ri, preserves, algebraic⟩

end Cert.Proof

end
